-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S2048x2048 : Shape := ⟨2, ![2048, 2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_arg4 : FVec F S2048x2048 .f32) (main_arg5 : FVec F S2048x2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  main_v28

def fn {F : FTy → Type} [FloatOps F] (main_arg0 : FVec F S4x2048x2048 .f32) (main_arg1 : FVec F S4x2048x2048 .f32) (main_arg2 : FVec F S4x2048x2048 .f32) (main_arg3 : FVec F S2048x2048 .f32) (main_arg4 : FVec F S2048x2048 .f32) (main_arg5 : FVec F S2048x2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S4x2048x2048 .f32 := Host.absf main_arg1
  let main_cst_0 : FVec F S_ .f32 := constant S_ .f32 0x7F800000#32
  let main_v5 : FVec F S4x2048x2048 .f32 := broadcastInDim S4x2048x2048 ![] bcast_S_S4x2048x2048 main_cst_0
  let main_v6 : IVec S4x2048x2048 1 := cmpf .olt main_v4 main_v5
  let main_c_1 : IVec S_ 1 := constantI S_ 1 1#1
  let main_v7 : IVec S_ 1 := (fun x v => Host.reduce IntOp.andi x v reducesTo_S4x2048x2048_S_d0_1_2 h_S_) main_v6 main_c_1
  let main_v8 : IVec S_ 1 := andi main_v3 main_v7
  let main_v9 : FVec F S4x2048x2048 .f32 := Host.absf main_arg2
  let main_cst_2 : FVec F S_ .f32 := constant S_ .f32 0x7F800000#32
  let main_v10 : FVec F S4x2048x2048 .f32 := broadcastInDim S4x2048x2048 ![] bcast_S_S4x2048x2048 main_cst_2
  let main_v11 : IVec S4x2048x2048 1 := cmpf .olt main_v9 main_v10
  let main_c_3 : IVec S_ 1 := constantI S_ 1 1#1
  let main_v12 : IVec S_ 1 := (fun x v => Host.reduce IntOp.andi x v reducesTo_S4x2048x2048_S_d0_1_2 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_v13 main_v16
-- ==== Kernel.lean ====
abbrev S4x2048x2048 : Shape := ⟨3, ![4, 2048, 2048]⟩
abbrev S2048x2048 : Shape := ⟨2, ![2048, 2048]⟩
abbrev S8192x2048 : Shape := ⟨2, ![8192, 2048]⟩
abbrev S512x2048 : Shape := ⟨2, ![512, 2048]⟩
abbrev S1x2048x2048 : Shape := ⟨3, ![1, 2048, 2048]⟩
abbrev S1x256x2048 : Shape := ⟨3, ![1, 256, 2048]⟩
abbrev S2048x1 : Shape := ⟨2, ![2048, 1]⟩
abbrev S256x2048 : Shape := ⟨2, ![256, 2048]⟩
abbrev S2048x256 : Shape := ⟨2, ![2048, 256]⟩
abbrev S2048 : Shape := ⟨1, ![2048]⟩

abbrev nBuf : Space → Nat
  | .hbm => 17
  | .vmem => 24
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | .hbm, ⟨7, _⟩ => ⟨S2048x2048, .bf16⟩
  | .hbm, ⟨8, _⟩ => ⟨S2048x2048, .bf16⟩
  | .hbm, ⟨9, _⟩ => ⟨S8192x2048, .f32⟩
  | .hbm, ⟨10, _⟩ => ⟨S8192x2048, .bf16⟩
  | .hbm, ⟨11, _⟩ => ⟨S8192x2048, .bf16⟩
  | .hbm, ⟨12, _⟩ => ⟨S8192x2048, .bf16⟩
  | .hbm, ⟨13, _⟩ => ⟨S4x2048x2048, .bf16⟩
  | .hbm, ⟨14, _⟩ => ⟨S4x2048x2048, .bf16⟩
  | .hbm, ⟨15, _⟩ => ⟨S4x2048x2048, .bf16⟩
  | .hbm, ⟨16, _⟩ => ⟨S4x2048x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S2048x2048, .bf16⟩
  | .local _ .vmem, ⟨4, _⟩ => ⟨S2048x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S1x2048x2048, .bf16⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .bf16⟩
  | .local _ .vmem, ⟨17, _⟩ => ⟨S1x256x2048, .bf16⟩
  | .local _ .vmem, ⟨18, _⟩ => ⟨S1x256x2048, .bf16⟩
  | .local _ .vmem, ⟨19, _⟩ => ⟨S1x256x2048, .bf16⟩
  | .local _ .vmem, ⟨20, _⟩ => ⟨S1x2048x2048, .f32⟩
  | .local _ .vmem, ⟨21, _⟩ => ⟨S2048x1, .f32⟩
  | .local _ .vmem, ⟨22, _⟩ => ⟨S2048x1, .f32⟩
  | .local _ .vmem, ⟨23, _⟩ => ⟨S2048x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_scratch0 : Ref sig .tc := ⟨.vmem, 21, rfl⟩
abbrev cc1_scratch1 : Ref sig .tc := ⟨.vmem, 22, rfl⟩
abbrev cc1_scratch2 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![4, 16], ![false, false]⟩

def k1_cond4 (i : grid1.Coords) : BitVec 1 :=
  let arg1 : BitVec 32 := BitVec.ofNat 32 (i 1).val
  let c15_i32 : BitVec 32 := 15#32
  let v11 : BitVec 1 := Scalar.cmpi .eq arg1 c15_i32
  let v12 : BitVec 32 := Scalar.extui v11
  let c0_i32_6 : BitVec 32 := 0#32
  let v13 : BitVec 1 := Scalar.cmpi .ne v12 c0_i32_6
  v13

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

def cc1_transform_2 (i : grid1.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

def cc1_transform_3 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc1_transform_4 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S1x2048x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S1x256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 1 → Memref sig .tc .vmem S1x2048x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, false]

class Facts₀ : Prop where
  bitsLt_bf16_f32 : FTy.bits .bf16 < FTy.bits .f32
  shapeCasts_S4x2048x2048_S8192x2048 : S4x2048x2048.ShapeCasts S8192x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  packedbf16_S512x2048_S512x2048_0_0 : (Rect.unit (s := S512x2048) ![0, 0] S512x2048.size inb_S512x2048_S512x2048_0_0).PackedRows (EltTy.packing .bf16)
  shapeCasts_S8192x2048_S4x2048x2048 : S8192x2048.ShapeCasts S4x2048x2048
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  reduces_S2048x256_S2048 : S2048x256.Reduces [1] S2048
  shapeCasts_S2048_S2048x1 : S2048.ShapeCasts S2048x1
  broadcasts_S2048x1_S2048x256 : S2048x1.Broadcasts S2048x256
  broadcasts_S2048x1_S2048x2048 : S2048x1.Broadcasts S2048x2048
  shapeCasts_S2048x2048_S1x2048x2048 : S2048x2048.ShapeCasts S1x2048x2048
  dot_S512x2048_S2048x2048_S512x2048_1_1_0_0_n_n_wf : DotDims.WF S512x2048 S2048x2048 S512x2048 [1] [1] [0] [0] [] []
  dot_S2048x2048_S256x2048_S2048x256_1_1_0_0_n_n_wf : DotDims.WF S2048x2048 S256x2048 S2048x256 [1] [1] [0] [0] [] []
  dot_S2048x256_S256x2048_S2048x2048_1_0_0_1_n_n_wf : DotDims.WF S2048x256 S256x2048 S2048x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S8192x2048.size a
  hwx0_4 : ∀ i : grid0.Coords, EltTy.bits .bf16 = 32 ∨ (Rect.block (s := S8192x2048) S512x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S8192x2048.size a
  hwx0_5 : ∀ i : grid0.Coords, EltTy.bits .bf16 = 32 ∨ (Rect.block (s := S8192x2048) S512x2048.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x2048.size a ≤ S8192x2048.size a
  hwx0_6 : ∀ i : grid0.Coords, EltTy.bits .bf16 = 32 ∨ (Rect.block (s := S8192x2048) S512x2048.size (cc0_transform_6 i) (hinb0_6 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x2048x2048.size a ≤ S4x2048x2048.size a
  hwx1_0 : ∀ i : grid1.Coords, EltTy.bits .bf16 = 32 ∨ (Rect.block (s := S4x2048x2048) S1x2048x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x2048.size a ≤ S4x2048x2048.size a
  hwx1_1 : ∀ i : grid1.Coords, EltTy.bits .f32 = 32 ∨ (Rect.block (s := S4x2048x2048) S1x256x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x2048.size a ≤ S4x2048x2048.size a
  hwx1_2 : ∀ i : grid1.Coords, EltTy.bits .f32 = 32 ∨ (Rect.block (s := S4x2048x2048) S1x256x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x2048.size a ≤ S4x2048x2048.size a
  hwx1_3 : ∀ i : grid1.Coords, EltTy.bits .bf16 = 32 ∨ (Rect.block (s := S4x2048x2048) S1x256x2048.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x2048.size a ≤ S4x2048x2048.size a
  hwx1_4 : ∀ i : grid1.Coords, EltTy.bits .bf16 = 32 ∨ (Rect.block (s := S4x2048x2048) S1x256x2048.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x2048x2048.size a ≤ S4x2048x2048.size a
  hwx1_5 : ∀ i : grid1.Coords, EltTy.bits .f32 = 32 ∨ (Rect.block (s := S4x2048x2048) S1x2048x2048.size (cc1_transform_5 i) (hinb1_5 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf
def dot_S2048x2048_S256x2048_S2048x256_1_1_0_0_n_n : DotDims S2048x2048 S256x2048 S2048x256 where
  lhsContracting := [1]
  rhsContracting := [1]
  lhsNonContracting := [0]
  rhsNonContracting := [0]
  lhsBatch := []
  rhsBatch := []
  wf := dot_S2048x2048_S256x2048_S2048x256_1_1_0_0_n_n_wf
def dot_S2048x256_S256x2048_S2048x2048_1_0_0_1_n_n : DotDims S2048x256 S256x2048 S2048x2048 where
  lhsContracting := [1]
  rhsContracting := [0]
  lhsNonContracting := [0]
  rhsNonContracting := [1]
  lhsBatch := []
  rhsBatch := []
  wf := dot_S2048x256_S256x2048_S2048x2048_1_0_0_1_n_n_wf

abbrev win0_0 : Pipeline.Window sig grid0 :=
  Pipeline.Window.ofSpec (Memref.whole main_v3) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S512x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S512x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S512x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v5) S1x2048x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1x256x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x256x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x256x2048.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v8) S1x2048x2048.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond4 i == 1#1) | ⟨_ + 6, h⟩ => absurd h (Nat.not_lt.2 (Nat.le_add_left _ _))

class Facts : Prop extends Facts₀ where

variable [Facts]
-- ==== ReferenceIdeal.lean ====
abbrev S4x2048x2048 : Shape := ⟨3, ![4, 2048, 2048]⟩
abbrev S2048x2048 : Shape := ⟨2, ![2048, 2048]⟩
abbrev S4x4096x2048 : Shape := ⟨3, ![4, 4096, 2048]⟩
abbrev S4x2048x4096 : Shape := ⟨3, ![4, 2048, 4096]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S4x4096x2048, .f32⟩
  | .hbm, ⟨10, _⟩ => ⟨S4x4096x2048, .f32⟩
  | .hbm, ⟨11, _⟩ => ⟨S4x2048x4096, .f32⟩
  | .hbm, ⟨12, _⟩ => ⟨S_, .f32⟩
  | .hbm, ⟨13, _⟩ => ⟨S4x2048x4096, .f32⟩
  | .hbm, ⟨14, _⟩ => ⟨S4x2048x4096, .f32⟩
  | .hbm, ⟨15, _⟩ => ⟨S_, .f32⟩
  | .hbm, ⟨16, _⟩ => ⟨S4x2048, .f32⟩
  | .hbm, ⟨17, _⟩ => ⟨S_, .f32⟩
  | .hbm, ⟨18, _⟩ => ⟨S4x2048, .f32⟩
  | .hbm, ⟨19, _⟩ => ⟨S4x2048, .f32⟩
  | .hbm, ⟨20, _⟩ => ⟨S4x2048x1, .f32⟩
  | .hbm, ⟨21, _⟩ => ⟨S4x2048x4096, .f32⟩
  | .hbm, ⟨22, _⟩ => ⟨S4x2048x4096, .f32⟩
  | .hbm, ⟨23, _⟩ => ⟨S4x2048x4096, .f32⟩
  | .hbm, ⟨24, _⟩ => ⟨S_, .f32⟩
  | .hbm, ⟨25, _⟩ => ⟨S4x2048, .f32⟩
  | .hbm, ⟨26, _⟩ => ⟨S4x2048x1, .f32⟩
  | .hbm, ⟨27, _⟩ => ⟨S4x2048x4096, .f32⟩
  | .hbm, ⟨28, _⟩ => ⟨S4x2048x4096, .f32⟩
  | .hbm, ⟨29, _⟩ => ⟨S4x2048x2048, .f32⟩
  | .hbm, ⟨30, _⟩ => ⟨S_, .f32⟩
  | .hbm, ⟨31, _⟩ => ⟨S4x2048x2048, .f32⟩
  | .hbm, ⟨32, _⟩ => ⟨S4x2048x2048, .f32⟩
  | .hbm, ⟨33, _⟩ => ⟨S4x2048x2048, .f32⟩
  | .hbm, ⟨34, _⟩ => ⟨S_, .f32⟩
  | .hbm, ⟨35, _⟩ => ⟨S4x2048x2048, .f32⟩
  | .hbm, ⟨36, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_cst_0 : Ref sig .tc := ⟨.hbm, 34, rfl⟩
abbrev main_call0_v3 : Ref sig .tc := ⟨.hbm, 35, rfl⟩
abbrev main_v20 : Ref sig .tc := ⟨.hbm, 36, rfl⟩

abbrev nD : Nat := 1
abbrev τ : Topo := Topo.v7x

variable {F : FTy → Type} [FloatOps F]

class Facts₀ : Prop where
  concatenates_S4x2048x2048_S4x2048x2048_S4x4096x2048_d1 : Shape.Concatenates [S4x2048x2048, S4x2048x2048] S4x4096x2048 1
  bcast_S_S4x2048x4096 : S_.BroadcastsInDim S4x2048x4096 (![] : Fin 0 → Fin S4x2048x4096.rank)
  reducesTo_S4x2048x4096_S4x2048_d2 : S4x2048x4096.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x4096_0_1_2 : S4x2048x1.BroadcastsInDim S4x2048x4096 (![0, 1, 2] : Fin 3 → Fin S4x2048x4096.rank)
  bcast_S_S4x2048x2048 : S_.BroadcastsInDim S4x2048x2048 (![] : Fin 0 → Fin S4x2048x2048.rank)
  dot_S4x2048x2048_S2048x2048_S4x2048x2048_2_1_01_0_n_n_wf : DotDims.WF S4x2048x2048 S2048x2048 S4x2048x2048 [2] [1] [0, 1] [0] [] []
  dot_S4x2048x2048_S4x4096x2048_S4x2048x4096_2_2_1_1_0_0_wf : DotDims.WF S4x2048x2048 S4x4096x2048 S4x2048x4096 [2] [2] [1] [1] [0] [0]
  dot_S4x2048x4096_S4x4096x2048_S4x2048x2048_2_1_1_2_0_0_wf : DotDims.WF S4x2048x4096 S4x4096x2048 S4x2048x2048 [2] [1] [1] [2] [0] [0]

variable [Facts₀]

def dot_S4x2048x2048_S2048x2048_S4x2048x2048_2_1_01_0_n_n : DotDims S4x2048x2048 S2048x2048 S4x2048x2048 where
  lhsContracting := [2]
  rhsContracting := [1]
  lhsNonContracting := [0, 1]
  rhsNonContracting := [0]
  lhsBatch := []
  rhsBatch := []
  wf := dot_S4x2048x2048_S2048x2048_S4x2048x2048_2_1_01_0_n_n_wf
def dot_S4x2048x2048_S4x4096x2048_S4x2048x4096_2_2_1_1_0_0 : DotDims S4x2048x2048 S4x4096x2048 S4x2048x4096 where
  lhsContracting := [2]
  rhsContracting := [2]
  lhsNonContracting := [1]
  rhsNonContracting := [1]
  lhsBatch := [0]
  rhsBatch := [0]
  wf := dot_S4x2048x2048_S4x4096x2048_S4x2048x4096_2_2_1_1_0_0_wf
def dot_S4x2048x4096_S4x4096x2048_S4x2048x2048_2_1_1_2_0_0 : DotDims S4x2048x4096 S4x4096x2048 S4x2048x2048 where
  lhsContracting := [2]
  rhsContracting := [1]
  lhsNonContracting := [1]
  rhsNonContracting := [2]
  lhsBatch := [0]
  rhsBatch := [0]
  wf := dot_S4x2048x4096_S4x4096x2048_S4x2048x2048_2_1_1_2_0_0_wf

class Facts : Prop extends Facts₀ where

variable [Facts]
-- ==== Proof.K.R0Body.lean ====
import proofs.«127725_j2052994367817_2_alg».proof.Proof.Gen.Kernel.Launch
import proofs.«127725_j2052994367817_2_alg».proof.Proof.Gen.Kernel.Skeleton
import proofs.«127725_j2052994367817_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0 of @main (the projection kernel) at a parameter `V`

The first pallas_call of @main runs, on a grid of 16 points, a body that loads four input blocks whole (a row
block `x` of the activations and the three weight matrices), multiplies `x` (rounded to bf16) by each weight
matrix, and stores the three products whole, one per output window. This file states that half of the frame
argument at a PARAMETER `V` — the TensorCore's buffer contents when the region is entered —: each window's block
at a point, what the body leaves in each output window's buffer as a function of the input blocks, the body's
triple, the pipeline's proof data and its body obligation. -/

-- membership in a rectangle of large extents: the elaborator's structural look recurses once per coordinate of the
-- long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the activations' row block, fetched at every point): its current staging buffer holds its block
    at every point, for ANY proof data whose array is `V`'s (`hA`) and whose body leaves the block in place (`hafter`). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (a weight matrix, one block, fetched at the first point only): its staging buffer holds its block at
    every point, fetched there or not — where it is not fetched the block index has not moved and the body left the
    block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (a weight matrix, one block, fetched at the first point only): its staging buffer holds its block at
    every point, fetched there or not — where it is not fetched the block index has not moved and the body left the
    block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (a weight matrix, one block, fetched at the first point only): its staging buffer holds its block at
    every point, fetched there or not — where it is not fetched the block index has not moved and the body left the
    block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole row block (512 × 2048): what the body loads of window 0 and of each output window, and where it stores. -/
abbrev r0_0 : Rect S512x2048 := Rect.unit (s := S512x2048) ![0, 0] S512x2048.size inb_S512x2048_S512x2048_0_0
/-- The whole weight matrix (2048 × 2048): what the body loads of windows 1, 2, 3. -/
abbrev r0_1 : Rect S2048x2048 := Rect.unit (s := S2048x2048) ![0, 0] S2048x2048.size inb_S2048x2048_S2048x2048_0_0

/-! ## What the body leaves in each output window's buffer -/

/-- Window 4's staging buffer after the body, from the blocks of windows 0 and 1: its one store, of the product of the
    row block (rounded) by the first weight matrix. -/
def out0_4 (x0 : Vec F S512x2048 .f32) (x1 : Vec F S2048x2048 .bf16) : Vec F S512x2048 .bf16 :=
  View.canon [⟨r0_0, k0_pay2 (View.ld x0 r0_0) (View.ld x1 r0_1)⟩]
/-- Window 5's staging buffer after the body, from the blocks of windows 0 and 2: the product by the second weight matrix. -/
def out0_5 (x0 : Vec F S512x2048 .f32) (x2 : Vec F S2048x2048 .bf16) : Vec F S512x2048 .bf16 :=
  View.canon [⟨r0_0, k0_pay3 (View.ld x0 r0_0) (View.ld x2 r0_1)⟩]
/-- Window 6's staging buffer after the body, from the blocks of windows 0 and 3: the product by the third weight matrix. -/
def out0_6 (x0 : Vec F S512x2048 .f32) (x3 : Vec F S2048x2048 .bf16) : Vec F S512x2048 .bf16 :=
  View.canon [⟨r0_0, k0_pay4 (View.ld x0 r0_0) (View.ld x3 r0_1)⟩]

/-- One whole-block store tiles the buffer (checked by evaluation), so it covers it: the same for the three outputs. -/
theorem cover0_out (p0 : Vec F S512x2048 .bf16) (y : S512x2048.Idx) :
    ∃ pc ∈ ([⟨r0_0, p0⟩] : List (View.Piece (Elt F) S512x2048 .bf16)), y ∈ pc.1.set :=
  View.cover_of_tiled [⟨r0_0, p0⟩] S512x2048.size (by rfl) y

/-! ## The body's triple -/

set_option maxHeartbeats 1000000 in
/-- The kernel body on whole staging memrefs, the inputs' at read contents `x0 … x3` and the outputs' at anything, runs to
    the continuation holding the inputs' as they were and each output's at `out0_W` of the inputs'. -/
theorem sound_kernel0 (c : Dev nD) (E : Set ℕ) (i : grid0.Coords)
    (arg1 : Memref sig .tc .vmem S512x2048 .f32) (harg1 : arg1.IsWhole) (arg2 : Memref sig .tc .vmem S2048x2048 .bf16) (harg2 : arg2.IsWhole)
    (arg3 : Memref sig .tc .vmem S2048x2048 .bf16) (harg3 : arg3.IsWhole) (arg4 : Memref sig .tc .vmem S2048x2048 .bf16) (harg4 : arg4.IsWhole)
    (arg5 : Memref sig .tc .vmem S512x2048 .bf16) (harg5 : arg5.IsWhole) (arg6 : Memref sig .tc .vmem S512x2048 .bf16) (harg6 : arg6.IsWhole)
    (arg7 : Memref sig .tc .vmem S512x2048 .bf16) (harg7 : arg7.IsWhole)
    (x0 : Vec F S512x2048 .f32) (x1 : Vec F S2048x2048 .bf16) (x2 : Vec F S2048x2048 .bf16) (x3 : Vec F S2048x2048 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out0_4 x0 x1) ∗ owns (c : Thread nD τ) arg6 fullShare (out0_5 x0 x2)
            ∗ owns (c : Thread nD τ) arg7 fullShare (out0_6 x0 x3)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_out _)
  isplitl [H5]
  · iexists _; isplitr
    swap; · iexact H5
    ipureintro
    exact View.read_writes_eq_canon _ _ _ (cover0_out _)
  iexists _; isplitr
  swap; · iexact H6
  ipureintro
  exact View.read_writes_eq_canon _ _ _ (cover0_out _)

/-! ## The pipeline's proof data -/

/-- The proof data of pipeline 0 on core `c`: the arrays as the region finds them (`V`); after the body at
    point `t` each input's buffer at its block and each output's at `out0_W` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The proof data's arrays are the region-entry contents (the proof data's definition projected). -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Defs.lean ====
/- The attention region (the second kernel launch) at the contents `V` its core's buffers hold when the region is entered:
   each window's block at a grid point, the body's four branch conditions in closed form over the 4 × 16 grid
   (the key/value tile index is the point's position modulo 16: tile 0 resets the running maximum, denominator
   and numerator; tiles 0–7 read the past keys and values, tiles 8–15 the new ones; tile 15 divides, rounds and
   stores the output block), where the output window is idle, and the three scratch buffers as memrefs. -/
import proofs.«127725_j2052994367817_2_alg».proof.Proof.Gen.Kernel.Launch
import proofs.«127725_j2052994367817_2_alg».proof.Proof.Gen.Kernel.Skeleton
import proofs.«127725_j2052994367817_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (a window whose
    block index has not moved since the last fetch still holds that block). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions, from the grid coordinates -/

/-- "This is the first key/value tile": the scratch is reset. -/
abbrev cond1_1 (i : grid1.Coords) : Prop := (Scalar.cmpi .ne (Scalar.extui (Scalar.cmpi .eq (BitVec.ofNat 32 (i 1).val) 0#32)) 0#32) = 1#1
/-- "This tile is one of the past ones" (tiles 0–7). -/
abbrev cond1_2 (i : grid1.Coords) : Prop := (Scalar.cmpi .ne (Scalar.extui (Scalar.cmpi .slt (BitVec.ofNat 32 (i 1).val) 8#32)) 0#32) = 1#1
/-- "This tile is one of the new ones" (tiles 8–15). -/
abbrev cond1_3 (i : grid1.Coords) : Prop := (Scalar.cmpi .ne (Scalar.extui (Scalar.cmpi .sge (BitVec.ofNat 32 (i 1).val) 8#32)) 0#32) = 1#1
/-- "This is the last tile": the output is produced. -/
abbrev cond1_4 (i : grid1.Coords) : Prop := k1_cond4 i = 1#1

theorem hcond1_1 : ∀ t : Fin cfg1.N, cond1_1 (grid1.coords t) ↔ t.val % 16 = 0 :=
  (by decide +kernel : ∀ t : Fin grid1.N, cond1_1 (grid1.coords t) ↔ t.val % 16 = 0)
theorem hcond1_2 : ∀ t : Fin cfg1.N, cond1_2 (grid1.coords t) ↔ t.val % 16 < 8 :=
  (by decide +kernel : ∀ t : Fin grid1.N, cond1_2 (grid1.coords t) ↔ t.val % 16 < 8)
theorem hcond1_3 : ∀ t : Fin cfg1.N, cond1_3 (grid1.coords t) ↔ 8 ≤ t.val % 16 :=
  (by decide +kernel : ∀ t : Fin grid1.N, cond1_3 (grid1.coords t) ↔ 8 ≤ t.val % 16)
theorem hcond1_4 : ∀ t : Fin cfg1.N, cond1_4 (grid1.coords t) ↔ t.val % 16 = 15 :=
  (by decide +kernel : ∀ t : Fin grid1.N, cond1_4 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Before the last tile the output window is idle: the body stores nothing into it, -/
theorem idleAt1_5 : ∀ t : Fin cfg1.N, ¬cond1_4 (grid1.coords t) → cfg1.idle 5 (grid1.coords t) = true := by decide +kernel
/-- and its block is not written back there. -/
theorem noFlush1_5 : ∀ t : Fin cfg1.N, ¬cond1_4 (grid1.coords t) → (cfg1.win 5).flush t = false := by decide +kernel
/-- At the last tile it is live. -/
theorem liveAt1_5 : ∀ t : Fin cfg1.N, cond1_4 (grid1.coords t) → cfg1.idle 5 (grid1.coords t) = false := by decide +kernel

/-! ## The memrefs the body is called with -/

abbrev ms1_0 (t : Fin cfg1.N) : Memref sig .tc .vmem S1x2048x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256x2048 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256x2048 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x2048x2048 .f32 := win1_5.stage (cfg1.slots t 5)
abbrev hs1_5 (t : Fin cfg1.N) : (ms1_5 t).IsWhole := hstage1_5 ((cfg1.slots t 5).cast nbuf1_5)
/-- The scratch operands: the running maximum, the running denominator, the running numerator. -/
abbrev scM1_0 : Memref sig .tc .vmem S2048x1 .f32 := Memref.whole cc1_scratch0
abbrev scM1_1 : Memref sig .tc .vmem S2048x1 .f32 := Memref.whole cc1_scratch1
abbrev scM1_2 : Memref sig .tc .vmem S2048x2048 .f32 := Memref.whole cc1_scratch2
abbrev VS1_0 : View sig .tc .vmem S2048x1 .f32 := scM1_0.view
abbrev VS1_1 : View sig .tc .vmem S2048x1 .f32 := scM1_1.view
abbrev VS1_2 : View sig .tc .vmem S2048x2048 .f32 := scM1_2.view
/-- One staging buffer of the output window, through which its contents are stated. -/
abbrev VO1_5 : View sig .tc .vmem S1x2048x2048 .f32 := (Memref.whole cc1_stg5_0 : Memref sig .tc .vmem S1x2048x2048 .f32).view

/-- The scoped buffers the region does not stage (the first launch's staging buffers), each whole at some contents. -/
def otherScoped (c : Dev nD) (P : sProp 𝕄) : sProp 𝕄 :=
  iprop((∃ d, owns (c : Thread nD τ) (Memref.whole cc0_stg0_0) fullShare d) ∗ (∃ d, owns (c : Thread nD τ) (Memref.whole cc0_stg0_1) fullShare d)
    ∗ (∃ d, owns (c : Thread nD τ) (Memref.whole cc0_stg1_0) fullShare d) ∗ (∃ d, owns (c : Thread nD τ) (Memref.whole cc0_stg2_0) fullShare d)
    ∗ (∃ d, owns (c : Thread nD τ) (Memref.whole cc0_stg3_0) fullShare d) ∗ (∃ d, owns (c : Thread nD τ) (Memref.whole cc0_stg4_0) fullShare d)
    ∗ (∃ d, owns (c : Thread nD τ) (Memref.whole cc0_stg4_1) fullShare d) ∗ (∃ d, owns (c : Thread nD τ) (Memref.whole cc0_stg5_0) fullShare d)
    ∗ (∃ d, owns (c : Thread nD τ) (Memref.whole cc0_stg5_1) fullShare d) ∗ (∃ d, owns (c : Thread nD τ) (Memref.whole cc0_stg6_0) fullShare d)
    ∗ (∃ d, owns (c : Thread nD τ) (Memref.whole cc0_stg6_1) fullShare d) ∗ P)

/-- The launch's invariant with the scratch operands as memrefs owned at some contents. -/
theorem PhiA1_eq (c : Dev nD) :
    (Pipeline.ΦA spec1 c : sProp 𝕄)
      = iprop(otherScoped c iprop((∃ d, owns (c : Thread nD τ) scM1_0 fullShare d) ∗ (∃ d, owns (c : Thread nD τ) scM1_1 fullShare d)
          ∗ (∃ d, owns (c : Thread nD τ) scM1_2 fullShare d)) ∗ (∃ r, prngReg c r)) := by
  unfold Pipeline.ΦA otherScoped; rw [scopedRest1_eq]; simp only [scM1_0, scM1_1, scM1_2, owns_whole]; try rfl

end Cert.Kernel.Hand

end
-- ==== Proof.K.R1RunA.lean ====
/- The attention kernel's body at a grid point whose key/value tile is the first (tile 0 of a batch entry): the three
   scratch buffers are reset (running maximum to −∞, denominator and numerator to 0) and the online-softmax step
   over the first past tile follows; no output. The body's triple on whole memrefs: what each scratch buffer ends
   with is the list of pieces the symbolic run finds. -/
import proofs.«127725_j2052994367817_2_alg».proof.Proof.K.R1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The run at the first tile: the query block and the past key and value blocks at given contents, the scratch at
    anything; every window handed back as found; each scratch buffer with its pieces written. -/
noncomputable def kernelRun1_A (c : Dev nD) (i : grid1.Coords) (arg2 : Memref sig .tc .vmem S1x2048x2048 .bf16) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S1x2048x2048 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x2048 .f32) (harg10 : arg10.IsWhole)
    (hc1 : cond1_1 i) (hc2 : cond1_2 i) (hc3 : ¬cond1_3 i) (hc4 : ¬cond1_4 i)
    (x0 : Vec F S1x2048x2048 .bf16) (x1 x2 : Vec F S1x256x2048 .f32) :
    Σ' (LS0 : List (View.Piece (Elt F) S2048x1 .f32)) (LS1 : List (View.Piece (Elt F) S2048x1 .f32)), { LS2 : List (View.Piece (Elt F) S2048x2048 .f32) //
      ∀ (x3 x4 : Vec F S1x256x2048 .bf16) (xi5 : Vec F S1x2048x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10) K } := by
  refine ⟨?_, ?_, ?_, fun x3 x4 xi5 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; iexact HS0
    isplitl [HS1]
    · iexists _; iexact HS1
    iexists _; iexact HS2

end Cert.Kernel.Hand

end
-- ==== Proof.K.R1RunB.lean ====
/- The attention kernel's body at a grid point whose key/value tile is one of the past tiles 1–7: no reset, the
   online-softmax step over the past keys and values, no output. The body's triple on whole memrefs: what each scratch
   buffer ends with is the list of pieces the symbolic run finds. -/
import proofs.«127725_j2052994367817_2_alg».proof.Proof.K.R1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The run at a middle past tile: the query block, the past key and value blocks and the three scratch buffers at given
    contents; every window handed back as found; each scratch buffer with its pieces written. -/
noncomputable def kernelRun1_B (c : Dev nD) (i : grid1.Coords) (arg2 : Memref sig .tc .vmem S1x2048x2048 .bf16) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S1x2048x2048 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x2048 .f32) (harg10 : arg10.IsWhole)
    (hc1 : ¬cond1_1 i) (hc2 : cond1_2 i) (hc3 : ¬cond1_3 i) (hc4 : ¬cond1_4 i)
    (x0 : Vec F S1x2048x2048 .bf16) (x1 x2 : Vec F S1x256x2048 .f32) (xs0 xs1 : Vec F S2048x1 .f32) (xs2 : Vec F S2048x2048 .f32) :
    Σ' (LS0 : List (View.Piece (Elt F) S2048x1 .f32)) (LS1 : List (View.Piece (Elt F) S2048x1 .f32)), { LS2 : List (View.Piece (Elt F) S2048x2048 .f32) //
      ∀ (x3 x4 : Vec F S1x256x2048 .bf16) (xi5 : Vec F S1x2048x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10) K } := by
  refine ⟨?_, ?_, ?_, fun x3 x4 xi5 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1; obtain rfl := harg10.eq_unread hfs2
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; iexact HS0
    isplitl [HS1]
    · iexists _; iexact HS1
    iexists _; iexact HS2

end Cert.Kernel.Hand

end
-- ==== Proof.K.R1RunC.lean ====
/- The attention kernel's body at a grid point whose key/value tile is one of the new tiles 8–14: no reset, the
   online-softmax step over the newly projected keys and values, no output. The body's triple on whole memrefs:
   what each scratch buffer ends with is the list of pieces the symbolic run finds. -/
import proofs.«127725_j2052994367817_2_alg».proof.Proof.K.R1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The run at a middle new tile: the query block, the new key and value blocks and the three scratch buffers at given
    contents; every window handed back as found; each scratch buffer with its pieces written. -/
noncomputable def kernelRun1_C (c : Dev nD) (i : grid1.Coords) (arg2 : Memref sig .tc .vmem S1x2048x2048 .bf16) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S1x2048x2048 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x2048 .f32) (harg10 : arg10.IsWhole)
    (hc1 : ¬cond1_1 i) (hc2 : ¬cond1_2 i) (hc3 : cond1_3 i) (hc4 : ¬cond1_4 i)
    (x0 : Vec F S1x2048x2048 .bf16) (x3 x4 : Vec F S1x256x2048 .bf16) (xs0 xs1 : Vec F S2048x1 .f32) (xs2 : Vec F S2048x2048 .f32) :
    Σ' (LS0 : List (View.Piece (Elt F) S2048x1 .f32)) (LS1 : List (View.Piece (Elt F) S2048x1 .f32)), { LS2 : List (View.Piece (Elt F) S2048x2048 .f32) //
      ∀ (x1 x2 : Vec F S1x256x2048 .f32) (xi5 : Vec F S1x2048x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10) K } := by
  refine ⟨?_, ?_, ?_, fun x1 x2 xi5 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1; obtain rfl := harg10.eq_unread hfs2
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; iexact HS0
    isplitl [HS1]
    · iexists _; iexact HS1
    iexists _; iexact HS2

end Cert.Kernel.Hand

end
-- ==== Proof.K.R1RunD.lean ====
/- The attention kernel's body at a grid point whose key/value tile is the last (tile 15): the online-softmax step
   over the last new tile, then the numerator divided by the denominator, rounded to four decimals, stored into the
   output block. The body's triple on whole memrefs: what the output buffer and each scratch buffer end with is
   the list of pieces the symbolic run finds. -/
import proofs.«127725_j2052994367817_2_alg».proof.Proof.K.R1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The run at the last tile: the query block, the new key and value blocks and the three scratch buffers at given
    contents, the output buffer at anything; the inputs handed back as found; the output buffer and each scratch
    buffer with its pieces written. -/
noncomputable def kernelRun1_D (c : Dev nD) (i : grid1.Coords) (arg2 : Memref sig .tc .vmem S1x2048x2048 .bf16) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S1x2048x2048 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x2048 .f32) (harg10 : arg10.IsWhole)
    (hc1 : ¬cond1_1 i) (hc2 : ¬cond1_2 i) (hc3 : cond1_3 i) (hc4 : cond1_4 i)
    (x0 : Vec F S1x2048x2048 .bf16) (x3 x4 : Vec F S1x256x2048 .bf16) (xs0 xs1 : Vec F S2048x1 .f32) (xs2 : Vec F S2048x2048 .f32) :
    Σ' (L5 : List (View.Piece (Elt F) S1x2048x2048 .f32)) (LS0 : List (View.Piece (Elt F) S2048x1 .f32)) (LS1 : List (View.Piece (Elt F) S2048x1 .f32)), { LS2 : List (View.Piece (Elt F) S2048x2048 .f32) //
      ∀ (x1 x2 : Vec F S1x256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10) K } := by
  refine ⟨?_, ?_, ?_, ?_, fun x1 x2 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs0; obtain rfl := harg9.eq_unread hfs1; obtain rfl := harg10.eq_unread hfs2
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [HS0]
    · iexists _; iexact HS0
    isplitl [HS1]
    · iexists _; iexact HS1
    iexists _; iexact HS2

end Cert.Kernel.Hand

end
-- ==== Proof.K.R1Cases.lean ====
/- The attention region's proof data at the region-entry contents `V`: what the three scratch buffers (running maximum,
   running denominator, running numerator) hold after each grid point, by recursion on the point — the first tile of a
   batch entry starts afresh, every other tile continues from what the point before left —; what the output block
   holds after the last tile; the invariant that carries the scratch between points; and the body obligation, by cases
   on the tile index. -/
import proofs.«127725_j2052994367817_2_alg».proof.Proof.K.R1RunA
import proofs.«127725_j2052994367817_2_alg».proof.Proof.K.R1RunB
import proofs.«127725_j2052994367817_2_alg».proof.Proof.K.R1RunC
import proofs.«127725_j2052994367817_2_alg».proof.Proof.K.R1RunD

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The three scratch buffers' contents: running maximum, running denominator, running numerator. -/
abbrev St (F : FTy → Type) [FloatOps F] : Type := Vec F S2048x1 .f32 × Vec F S2048x1 .f32 × Vec F S2048x2048 .f32

/-! ## The four cases' runs at a grid point's own memrefs -/

abbrev runA_at (c : Dev nD) (t : Fin cfg1.N) (h1 : cond1_1 (grid1.coords t)) (h2 : cond1_2 (grid1.coords t)) (h3 : ¬cond1_3 (grid1.coords t)) (h4 : ¬cond1_4 (grid1.coords t))
    (x0 : Vec F S1x2048x2048 .bf16) (x1 x2 : Vec F S1x256x2048 .f32) :=
  kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) h1 h2 h3 h4 x0 x1 x2
abbrev runB_at (c : Dev nD) (t : Fin cfg1.N) (h1 : ¬cond1_1 (grid1.coords t)) (h2 : cond1_2 (grid1.coords t)) (h3 : ¬cond1_3 (grid1.coords t)) (h4 : ¬cond1_4 (grid1.coords t))
    (x0 : Vec F S1x2048x2048 .bf16) (x1 x2 : Vec F S1x256x2048 .f32) (s : St F) :=
  kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) h1 h2 h3 h4 x0 x1 x2 s.1 s.2.1 s.2.2
abbrev runC_at (c : Dev nD) (t : Fin cfg1.N) (h1 : ¬cond1_1 (grid1.coords t)) (h2 : ¬cond1_2 (grid1.coords t)) (h3 : cond1_3 (grid1.coords t)) (h4 : ¬cond1_4 (grid1.coords t))
    (x0 : Vec F S1x2048x2048 .bf16) (x3 x4 : Vec F S1x256x2048 .bf16) (s : St F) :=
  kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) h1 h2 h3 h4 x0 x3 x4 s.1 s.2.1 s.2.2
abbrev runD_at (c : Dev nD) (t : Fin cfg1.N) (h1 : ¬cond1_1 (grid1.coords t)) (h2 : ¬cond1_2 (grid1.coords t)) (h3 : cond1_3 (grid1.coords t)) (h4 : cond1_4 (grid1.coords t))
    (x0 : Vec F S1x2048x2048 .bf16) (x3 x4 : Vec F S1x256x2048 .bf16) (s : St F) :=
  kernelRun1_D c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) h1 h2 h3 h4 x0 x3 x4 s.1 s.2.1 s.2.2

/-! ## What each case leaves in the scratch (its pieces read back), and that the pieces cover each buffer -/

def stA (c : Dev nD) (t : Fin cfg1.N) (h1 : cond1_1 (grid1.coords t)) (h2 : cond1_2 (grid1.coords t)) (h3 : ¬cond1_3 (grid1.coords t)) (h4 : ¬cond1_4 (grid1.coords t))
    (x0 : Vec F S1x2048x2048 .bf16) (x1 x2 : Vec F S1x256x2048 .f32) : St F :=
  (VS1_0.read (Elt F) (VS1_0.writes (Elt F) VS1_0.junk (runA_at c t h1 h2 h3 h4 x0 x1 x2).1), VS1_1.read (Elt F) (VS1_1.writes (Elt F) VS1_1.junk (runA_at c t h1 h2 h3 h4 x0 x1 x2).2.1), VS1_2.read (Elt F) (VS1_2.writes (Elt F) VS1_2.junk (runA_at c t h1 h2 h3 h4 x0 x1 x2).2.2.1))
def stB (c : Dev nD) (t : Fin cfg1.N) (h1 : ¬cond1_1 (grid1.coords t)) (h2 : cond1_2 (grid1.coords t)) (h3 : ¬cond1_3 (grid1.coords t)) (h4 : ¬cond1_4 (grid1.coords t))
    (x0 : Vec F S1x2048x2048 .bf16) (x1 x2 : Vec F S1x256x2048 .f32) (s : St F) : St F :=
  (VS1_0.read (Elt F) (VS1_0.writes (Elt F) VS1_0.junk (runB_at c t h1 h2 h3 h4 x0 x1 x2 s).1), VS1_1.read (Elt F) (VS1_1.writes (Elt F) VS1_1.junk (runB_at c t h1 h2 h3 h4 x0 x1 x2 s).2.1), VS1_2.read (Elt F) (VS1_2.writes (Elt F) VS1_2.junk (runB_at c t h1 h2 h3 h4 x0 x1 x2 s).2.2.1))
def stC (c : Dev nD) (t : Fin cfg1.N) (h1 : ¬cond1_1 (grid1.coords t)) (h2 : ¬cond1_2 (grid1.coords t)) (h3 : cond1_3 (grid1.coords t)) (h4 : ¬cond1_4 (grid1.coords t))
    (x0 : Vec F S1x2048x2048 .bf16) (x3 x4 : Vec F S1x256x2048 .bf16) (s : St F) : St F :=
  (VS1_0.read (Elt F) (VS1_0.writes (Elt F) VS1_0.junk (runC_at c t h1 h2 h3 h4 x0 x3 x4 s).1), VS1_1.read (Elt F) (VS1_1.writes (Elt F) VS1_1.junk (runC_at c t h1 h2 h3 h4 x0 x3 x4 s).2.1), VS1_2.read (Elt F) (VS1_2.writes (Elt F) VS1_2.junk (runC_at c t h1 h2 h3 h4 x0 x3 x4 s).2.2.1))
def stD (c : Dev nD) (t : Fin cfg1.N) (h1 : ¬cond1_1 (grid1.coords t)) (h2 : ¬cond1_2 (grid1.coords t)) (h3 : cond1_3 (grid1.coords t)) (h4 : cond1_4 (grid1.coords t))
    (x0 : Vec F S1x2048x2048 .bf16) (x3 x4 : Vec F S1x256x2048 .bf16) (s : St F) : St F :=
  (VS1_0.read (Elt F) (VS1_0.writes (Elt F) VS1_0.junk (runD_at c t h1 h2 h3 h4 x0 x3 x4 s).2.1), VS1_1.read (Elt F) (VS1_1.writes (Elt F) VS1_1.junk (runD_at c t h1 h2 h3 h4 x0 x3 x4 s).2.2.1), VS1_2.read (Elt F) (VS1_2.writes (Elt F) VS1_2.junk (runD_at c t h1 h2 h3 h4 x0 x3 x4 s).2.2.2.1))
/-- What the last tile leaves in the output block's staging buffer. -/
def outD (c : Dev nD) (t : Fin cfg1.N) (h1 : ¬cond1_1 (grid1.coords t)) (h2 : ¬cond1_2 (grid1.coords t)) (h3 : cond1_3 (grid1.coords t)) (h4 : cond1_4 (grid1.coords t))
    (x0 : Vec F S1x2048x2048 .bf16) (x3 x4 : Vec F S1x256x2048 .bf16) (s : St F) : Vec F S1x2048x2048 .f32 :=
  VO1_5.read (Elt F) (VO1_5.writes (Elt F) VO1_5.junk (runD_at c t h1 h2 h3 h4 x0 x3 x4 s).1)

section covers
variable (c : Dev nD) (t : Fin cfg1.N)
theorem coverA_0 (h1 h2 h3 h4) (x0 : Vec F S1x2048x2048 .bf16) (x1 x2 : Vec F S1x256x2048 .f32) (y : S2048x1.Idx) : ∃ pc ∈ (runA_at c t h1 h2 h3 h4 x0 x1 x2).1, y ∈ pc.1.set :=
  View.cover_of_tiledL _ S2048x1.size (by sl_kernel_rfl) y
theorem coverA_1 (h1 h2 h3 h4) (x0 : Vec F S1x2048x2048 .bf16) (x1 x2 : Vec F S1x256x2048 .f32) (y : S2048x1.Idx) : ∃ pc ∈ (runA_at c t h1 h2 h3 h4 x0 x1 x2).2.1, y ∈ pc.1.set :=
  View.cover_of_tiledL _ S2048x1.size (by sl_kernel_rfl) y
theorem coverA_2 (h1 h2 h3 h4) (x0 : Vec F S1x2048x2048 .bf16) (x1 x2 : Vec F S1x256x2048 .f32) (y : S2048x2048.Idx) : ∃ pc ∈ (runA_at c t h1 h2 h3 h4 x0 x1 x2).2.2.1, y ∈ pc.1.set :=
  View.cover_of_tiledL _ S2048x2048.size (by sl_kernel_rfl) y
theorem coverB_0 (h1 h2 h3 h4) (x0 : Vec F S1x2048x2048 .bf16) (x1 x2 : Vec F S1x256x2048 .f32) (s : St F) (y : S2048x1.Idx) : ∃ pc ∈ (runB_at c t h1 h2 h3 h4 x0 x1 x2 s).1, y ∈ pc.1.set :=
  View.cover_of_tiledL _ S2048x1.size (by sl_kernel_rfl) y
theorem coverB_1 (h1 h2 h3 h4) (x0 : Vec F S1x2048x2048 .bf16) (x1 x2 : Vec F S1x256x2048 .f32) (s : St F) (y : S2048x1.Idx) : ∃ pc ∈ (runB_at c t h1 h2 h3 h4 x0 x1 x2 s).2.1, y ∈ pc.1.set :=
  View.cover_of_tiledL _ S2048x1.size (by sl_kernel_rfl) y
theorem coverB_2 (h1 h2 h3 h4) (x0 : Vec F S1x2048x2048 .bf16) (x1 x2 : Vec F S1x256x2048 .f32) (s : St F) (y : S2048x2048.Idx) : ∃ pc ∈ (runB_at c t h1 h2 h3 h4 x0 x1 x2 s).2.2.1, y ∈ pc.1.set :=
  View.cover_of_tiledL _ S2048x2048.size (by sl_kernel_rfl) y
theorem coverC_0 (h1 h2 h3 h4) (x0 : Vec F S1x2048x2048 .bf16) (x3 x4 : Vec F S1x256x2048 .bf16) (s : St F) (y : S2048x1.Idx) : ∃ pc ∈ (runC_at c t h1 h2 h3 h4 x0 x3 x4 s).1, y ∈ pc.1.set :=
  View.cover_of_tiledL _ S2048x1.size (by sl_kernel_rfl) y
theorem coverC_1 (h1 h2 h3 h4) (x0 : Vec F S1x2048x2048 .bf16) (x3 x4 : Vec F S1x256x2048 .bf16) (s : St F) (y : S2048x1.Idx) : ∃ pc ∈ (runC_at c t h1 h2 h3 h4 x0 x3 x4 s).2.1, y ∈ pc.1.set :=
  View.cover_of_tiledL _ S2048x1.size (by sl_kernel_rfl) y
theorem coverC_2 (h1 h2 h3 h4) (x0 : Vec F S1x2048x2048 .bf16) (x3 x4 : Vec F S1x256x2048 .bf16) (s : St F) (y : S2048x2048.Idx) : ∃ pc ∈ (runC_at c t h1 h2 h3 h4 x0 x3 x4 s).2.2.1, y ∈ pc.1.set :=
  View.cover_of_tiledL _ S2048x2048.size (by sl_kernel_rfl) y
theorem coverD_5 (h1 h2 h3 h4) (x0 : Vec F S1x2048x2048 .bf16) (x3 x4 : Vec F S1x256x2048 .bf16) (s : St F) (y : S1x2048x2048.Idx) : ∃ pc ∈ (runD_at c t h1 h2 h3 h4 x0 x3 x4 s).1, y ∈ pc.1.set :=
  View.cover_of_tiledL _ S1x2048x2048.size (by sl_kernel_rfl) y
theorem coverD_0 (h1 h2 h3 h4) (x0 : Vec F S1x2048x2048 .bf16) (x3 x4 : Vec F S1x256x2048 .bf16) (s : St F) (y : S2048x1.Idx) : ∃ pc ∈ (runD_at c t h1 h2 h3 h4 x0 x3 x4 s).2.1, y ∈ pc.1.set :=
  View.cover_of_tiledL _ S2048x1.size (by sl_kernel_rfl) y
theorem coverD_1 (h1 h2 h3 h4) (x0 : Vec F S1x2048x2048 .bf16) (x3 x4 : Vec F S1x256x2048 .bf16) (s : St F) (y : S2048x1.Idx) : ∃ pc ∈ (runD_at c t h1 h2 h3 h4 x0 x3 x4 s).2.2.1, y ∈ pc.1.set :=
  View.cover_of_tiledL _ S2048x1.size (by sl_kernel_rfl) y
theorem coverD_2 (h1 h2 h3 h4) (x0 : Vec F S1x2048x2048 .bf16) (x3 x4 : Vec F S1x256x2048 .bf16) (s : St F) (y : S2048x2048.Idx) : ∃ pc ∈ (runD_at c t h1 h2 h3 h4 x0 x3 x4 s).2.2.2.1, y ∈ pc.1.set :=
  View.cover_of_tiledL _ S2048x2048.size (by sl_kernel_rfl) y
end covers

end Cert.Kernel.Hand

end
-- ==== Proof.K.R1Dat.lean ====
/- The attention region's proof data: the scratch after each grid point by recursion on the point, the invariant that
   carries it, the proof data record, and the body obligation by cases on the key/value tile index (the point's
   position modulo 16): tile 0, tiles 1–7, tiles 8–14, tile 15. -/
import proofs.«127725_j2052994367817_2_alg».proof.Proof.K.R1Cases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions at a point from its tile index -/

section conds
variable (t : Fin cfg1.N)
theorem c1_of (h : t.val % 16 = 0) : cond1_1 (grid1.coords t) := (hcond1_1 t).mpr h
theorem nc1_of (h : ¬t.val % 16 = 0) : ¬cond1_1 (grid1.coords t) := fun h' => h ((hcond1_1 t).mp h')
theorem c2_of (h : t.val % 16 < 8) : cond1_2 (grid1.coords t) := (hcond1_2 t).mpr h
theorem nc2_of (h : ¬t.val % 16 < 8) : ¬cond1_2 (grid1.coords t) := fun h' => h ((hcond1_2 t).mp h')
theorem c3_of (h : ¬t.val % 16 < 8) : cond1_3 (grid1.coords t) := (hcond1_3 t).mpr (by omega)
theorem nc3_of (h : t.val % 16 < 8) : ¬cond1_3 (grid1.coords t) := fun h' => by have := (hcond1_3 t).mp h'; omega
theorem c4_of (h : t.val % 16 = 15) : cond1_4 (grid1.coords t) := (hcond1_4 t).mpr h
theorem nc4_of (h : ¬t.val % 16 = 15) : ¬cond1_4 (grid1.coords t) := fun h' => h ((hcond1_4 t).mp h')
end conds

/-! ## The scratch after each point -/

/-- THE RECURRENCE. What the three scratch buffers hold after the body at position `n`: tile 0 of a batch entry starts from
    the reset; every other tile continues from what position `n - 1` left, over the past blocks (tiles 1–7) or the new
    blocks (tiles 8–15). -/
def stAt (c : Dev nD) : (n : ℕ) → n < cfg1.N → St F
  | 0, hn => stA c ⟨0, hn⟩ (c1_of _ (Nat.zero_mod _)) (c2_of _ (by show 0 % 16 < 8; omega)) (nc3_of _ (by show 0 % 16 < 8; omega)) (nc4_of _ (by show ¬(0 % 16 = 15); omega))
      (iblk1 V c 0 ⟨0, hn⟩) (iblk1 V c 1 ⟨0, hn⟩) (iblk1 V c 2 ⟨0, hn⟩)
  | n + 1, hn =>
    if hA : (n + 1) % 16 = 0 then
      stA c ⟨n + 1, hn⟩ (c1_of _ hA) (c2_of _ (by show (n + 1) % 16 < 8; omega)) (nc3_of _ (by show (n + 1) % 16 < 8; omega)) (nc4_of _ (by show ¬((n + 1) % 16 = 15); omega))
        (iblk1 V c 0 ⟨n + 1, hn⟩) (iblk1 V c 1 ⟨n + 1, hn⟩) (iblk1 V c 2 ⟨n + 1, hn⟩)
    else if hB : (n + 1) % 16 < 8 then
      stB c ⟨n + 1, hn⟩ (nc1_of _ hA) (c2_of _ hB) (nc3_of _ hB) (nc4_of _ (by show ¬((n + 1) % 16 = 15); omega))
        (iblk1 V c 0 ⟨n + 1, hn⟩) (iblk1 V c 1 ⟨n + 1, hn⟩) (iblk1 V c 2 ⟨n + 1, hn⟩) (stAt c n (Nat.lt_of_succ_lt hn))
    else if hD : (n + 1) % 16 = 15 then
      stD c ⟨n + 1, hn⟩ (nc1_of _ hA) (nc2_of _ hB) (c3_of _ hB) (c4_of _ hD)
        (iblk1 V c 0 ⟨n + 1, hn⟩) (iblk1 V c 3 ⟨n + 1, hn⟩) (iblk1 V c 4 ⟨n + 1, hn⟩) (stAt c n (Nat.lt_of_succ_lt hn))
    else
      stC c ⟨n + 1, hn⟩ (nc1_of _ hA) (nc2_of _ hB) (c3_of _ hB) (nc4_of _ hD)
        (iblk1 V c 0 ⟨n + 1, hn⟩) (iblk1 V c 3 ⟨n + 1, hn⟩) (iblk1 V c 4 ⟨n + 1, hn⟩) (stAt c n (Nat.lt_of_succ_lt hn))

/-- The scratch before position `n` when `n` is not the first tile of a batch entry: what position `n - 1` left. -/
abbrev stPrev (c : Dev nD) (t : Fin cfg1.N) : St F := stAt V c (t.val - 1) (Nat.lt_of_le_of_lt (Nat.sub_le _ _) t.isLt)

theorem stAt_A (c : Dev nD) (t : Fin cfg1.N) (hA : t.val % 16 = 0) :
    stAt V c t.val t.isLt = stA c t (c1_of t hA) (c2_of t (by omega)) (nc3_of t (by omega)) (nc4_of t (by omega)) (iblk1 V c 0 t) (iblk1 V c 1 t) (iblk1 V c 2 t) := by
  obtain ⟨n, hn⟩ := t
  cases n with
  | zero => exact rfl
  | succ n => exact (dif_pos hA).trans rfl
theorem stAt_B (c : Dev nD) (t : Fin cfg1.N) (hA : ¬t.val % 16 = 0) (hB : t.val % 16 < 8) :
    stAt V c t.val t.isLt = stB c t (nc1_of t hA) (c2_of t hB) (nc3_of t hB) (nc4_of t (by omega)) (iblk1 V c 0 t) (iblk1 V c 1 t) (iblk1 V c 2 t) (stPrev V c t) := by
  obtain ⟨n, hn⟩ := t
  cases n with
  | zero => exact absurd (Nat.zero_mod _) hA
  | succ n => exact (dif_neg hA).trans ((dif_pos hB).trans rfl)
theorem stAt_C (c : Dev nD) (t : Fin cfg1.N) (hA : ¬t.val % 16 = 0) (hB : ¬t.val % 16 < 8) (hD : ¬t.val % 16 = 15) :
    stAt V c t.val t.isLt = stC c t (nc1_of t hA) (nc2_of t hB) (c3_of t hB) (nc4_of t hD) (iblk1 V c 0 t) (iblk1 V c 3 t) (iblk1 V c 4 t) (stPrev V c t) := by
  obtain ⟨n, hn⟩ := t
  cases n with
  | zero => exact absurd (Nat.zero_mod _) hA
  | succ n => exact (dif_neg hA).trans ((dif_neg hB).trans ((dif_neg hD).trans rfl))
theorem stAt_D (c : Dev nD) (t : Fin cfg1.N) (hA : ¬t.val % 16 = 0) (hB : ¬t.val % 16 < 8) (hD : t.val % 16 = 15) :
    stAt V c t.val t.isLt = stD c t (nc1_of t hA) (nc2_of t hB) (c3_of t hB) (c4_of t hD) (iblk1 V c 0 t) (iblk1 V c 3 t) (iblk1 V c 4 t) (stPrev V c t) := by
  obtain ⟨n, hn⟩ := t
  cases n with
  | zero => exact absurd (Nat.zero_mod _) hA
  | succ n => exact (dif_neg hA).trans ((dif_neg hB).trans ((dif_pos hD).trans rfl))

/-- What the output block's staging buffer holds after the body at position `n`: at the last tile of a batch entry the
    rounded quotient; elsewhere nothing is stored (a placeholder nothing consults: the window is idle there). -/
def outAt (c : Dev nD) (n : ℕ) (hn : n < cfg1.N) : Vec F S1x2048x2048 .f32 :=
  if hD : n % 16 = 15 then
    outD c ⟨n, hn⟩ (nc1_of _ (by show ¬(n % 16 = 0); omega)) (nc2_of _ (by show ¬(n % 16 < 8); omega)) (c3_of _ (by show ¬(n % 16 < 8); omega)) (c4_of _ hD)
      (iblk1 V c 0 ⟨n, hn⟩) (iblk1 V c 3 ⟨n, hn⟩) (iblk1 V c 4 ⟨n, hn⟩) (stAt V c (n - 1) (Nat.lt_of_le_of_lt (Nat.sub_le _ _) hn))
  else VO1_5.read (Elt F) (VO1_5.writes (Elt F) VO1_5.junk [])

theorem outAt_D (c : Dev nD) (t : Fin cfg1.N) (hA : ¬t.val % 16 = 0) (hB : ¬t.val % 16 < 8) (hD : t.val % 16 = 15) :
    outAt V c t.val t.isLt = outD c t (nc1_of t hA) (nc2_of t hB) (c3_of t hB) (c4_of t hD) (iblk1 V c 0 t) (iblk1 V c 3 t) (iblk1 V c 4 t) (stPrev V c t) :=
  (dif_pos hD).trans rfl

/-! ## The invariant -/

/-- Before position `n`: before the first point what the launch hands over (every scratch buffer at anything);
    afterwards the three scratch buffers at what the point before left, the other scoped buffers at anything, the
    generator register at some state. -/
def PhiS1 (c : Dev nD) : (n : ℕ) → n ≤ cfg1.N → sProp 𝕄
  | 0, _ => Pipeline.ΦA spec1 c
  | n + 1, hn => iprop(otherScoped c iprop(owns (c : Thread nD τ) scM1_0 fullShare (stAt V c n hn).1 ∗ owns (c : Thread nD τ) scM1_1 fullShare (stAt V c n hn).2.1
      ∗ owns (c : Thread nD τ) scM1_2 fullShare (stAt V c n hn).2.2) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(otherScoped c iprop(owns (c : Thread nD τ) scM1_0 fullShare (stAt V c n hn).1 ∗ owns (c : Thread nD τ) scM1_1 fullShare (stAt V c n hn).2.1
      ∗ owns (c : Thread nD τ) scM1_2 fullShare (stAt V c n hn).2.2) ∗ (∃ r, prngReg c r)) := rfl
theorem PhiS1_pos (c : Dev nD) (n : ℕ) (h : n ≤ cfg1.N) (hz : n ≠ 0) :
    PhiS1 V c n h = iprop(otherScoped c iprop(owns (c : Thread nD τ) scM1_0 fullShare (stAt V c (n - 1) (by omega)).1 ∗ owns (c : Thread nD τ) scM1_1 fullShare (stAt V c (n - 1) (by omega)).2.1
      ∗ owns (c : Thread nD τ) scM1_2 fullShare (stAt V c (n - 1) (by omega)).2.2) ∗ (∃ r, prngReg c r)) := by
  cases n with
  | zero => exact absurd rfl hz
  | succ n => rfl

/-! ## The proof data -/

/-- The proof data of the attention pipeline on core `c`: the arrays as the region finds them; after the body at point
    `t` each input's buffer at its block and the output's at `outAt`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt V c t.val t.isLt := by dsimp only [dat1]
theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d
theorem before1_3 (c : Dev nD) (t : Fin cfg1.N) (d) : (dat1 V c).before 3 t d = iblk1 V c 3 t := before1_3_of V (dat1 V c) (A_eq1 V c 3) (after1_3 V c) t d
theorem before1_4 (c : Dev nD) (t : Fin cfg1.N) (d) : (dat1 V c).before 4 t d = iblk1 V c 4 t := before1_4_of V (dat1 V c) (A_eq1 V c 4) (after1_4 V c) t d

end Cert.Kernel.Hand

end
-- ==== Proof.K.R1Body.lean ====
/- The attention region's body obligation: at every grid point, from the invariant and every window's current staging
   buffer at what it then holds, the body runs to the invariant at the next point and every buffer at what the body
   leaves — by cases on the key/value tile index, each case its own symbolic run; and the invariant's two ends (what
   the launch hands over is the invariant before the first point; after the last point it gives that back). -/
import proofs.«127725_j2052994367817_2_alg».proof.Proof.K.R1Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

set_option maxHeartbeats 8000000 in
/-- The body at any point: the inputs' memrefs hold their blocks; the tile index says which case the point is in; the
    invariant hands the body the scratch at what the point before left (at anything at a batch entry's first tile) and
    takes it back at this point's contents; the output window is handed back untouched except at the last tile. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases hA : t.val % 16 = 0
  · -- the first tile of a batch entry
    rw [Dat.leavesExact_idle (dat1 V c) 5 t (idleAt1_5 t (nc4_of t (by omega))) (noFlush1_5 t (nc4_of t (by omega)))]
    rw [stAt_A V c t hA]
    unfold stA; (try dsimp only)
    by_cases hz : t.val = 0
    · rw [PhiS1_castSucc V c t, PhiS1_zero V c _ _ hz, PhiA1_eq]; unfold otherScoped
      iintro ⟨⟨⟨Q1, Q2, Q3, Q4, Q5, Q6, Q7, Q8, Q9, Q10, Q11, HS0, HS1, HS2⟩, Hg⟩, Ho, ⟨%d0, H0⟩, ⟨%d1, H1⟩, ⟨%d2, H2⟩, ⟨%d3, H3⟩, ⟨%d4, H4⟩, ⟨%d5, H5⟩⟩
      iapply ((runA_at c t (c1_of t hA) (c2_of t (by omega)) (nc3_of t (by omega)) (nc4_of t (by omega)) (iblk1 V c 0 t) (iblk1 V c 1 t) (iblk1 V c 2 t)).2.2.2 (iblk1 V c 3 t) (iblk1 V c 4 t) _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [Q1 Q2 Q3 Q4 Q5 Q6 Q7 Q8 Q9 Q10 Q11 HS0 HS1 HS2 Hg]
      · isplitl [Q1 Q2 Q3 Q4 Q5 Q6 Q7 Q8 Q9 Q10 Q11 HS0 HS1 HS2]
        · isplitl [Q1]; · iexact Q1
          isplitl [Q2]; · iexact Q2
          isplitl [Q3]; · iexact Q3
          isplitl [Q4]; · iexact Q4
          isplitl [Q5]; · iexact Q5
          isplitl [Q6]; · iexact Q6
          isplitl [Q7]; · iexact Q7
          isplitl [Q8]; · iexact Q8
          isplitl [Q9]; · iexact Q9
          isplitl [Q10]; · iexact Q10
          isplitl [Q11]; · iexact Q11
          isplitl [HS0]
          · unfold owns; iexists _; isplitr
            swap; · iexact HS0
            ipureintro; exact View.read_writes_of_cover _ _ _ _ _ (coverA_0 c t _ _ _ _ _ _ _)
          isplitl [HS1]
          · unfold owns; iexists _; isplitr
            swap; · iexact HS1
            ipureintro; exact View.read_writes_of_cover _ _ _ _ _ (coverA_1 c t _ _ _ _ _ _ _)
          unfold owns; iexists _; isplitr
          swap; · iexact HS2
          ipureintro; exact View.read_writes_of_cover _ _ _ _ _ (coverA_2 c t _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]; unfold otherScoped
      iintro ⟨⟨⟨Q1, Q2, Q3, Q4, Q5, Q6, Q7, Q8, Q9, Q10, Q11, HS0, HS1, HS2⟩, Hg⟩, Ho, ⟨%d0, H0⟩, ⟨%d1, H1⟩, ⟨%d2, H2⟩, ⟨%d3, H3⟩, ⟨%d4, H4⟩, ⟨%d5, H5⟩⟩
      iapply ((runA_at c t (c1_of t hA) (c2_of t (by omega)) (nc3_of t (by omega)) (nc4_of t (by omega)) (iblk1 V c 0 t) (iblk1 V c 1 t) (iblk1 V c 2 t)).2.2.2 (iblk1 V c 3 t) (iblk1 V c 4 t) _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      iintro ⟨H0, H1, H2, H3, H4, H5, ⟨%es0, HS0⟩, ⟨%es1, HS1⟩, ⟨%es2, HS2⟩⟩
      isplitl [Q1 Q2 Q3 Q4 Q5 Q6 Q7 Q8 Q9 Q10 Q11 HS0 HS1 HS2 Hg]
      · isplitl [Q1 Q2 Q3 Q4 Q5 Q6 Q7 Q8 Q9 Q10 Q11 HS0 HS1 HS2]
        · isplitl [Q1]; · iexact Q1
          isplitl [Q2]; · iexact Q2
          isplitl [Q3]; · iexact Q3
          isplitl [Q4]; · iexact Q4
          isplitl [Q5]; · iexact Q5
          isplitl [Q6]; · iexact Q6
          isplitl [Q7]; · iexact Q7
          isplitl [Q8]; · iexact Q8
          isplitl [Q9]; · iexact Q9
          isplitl [Q10]; · iexact Q10
          isplitl [Q11]; · iexact Q11
          isplitl [HS0]
          · unfold owns; iexists _; isplitr
            swap; · iexact HS0
            ipureintro; exact View.read_writes_of_cover _ _ _ _ _ (coverA_0 c t _ _ _ _ _ _ _)
          isplitl [HS1]
          · unfold owns; iexists _; isplitr
            swap; · iexact HS1
            ipureintro; exact View.read_writes_of_cover _ _ _ _ _ (coverA_1 c t _ _ _ _ _ _ _)
          unfold owns; iexists _; isplitr
          swap; · iexact HS2
          ipureintro; exact View.read_writes_of_cover _ _ _ _ _ (coverA_2 c t _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => hA (by rw [h])
    by_cases hB : t.val % 16 < 8
    · -- a later past tile
      rw [Dat.leavesExact_idle (dat1 V c) 5 t (idleAt1_5 t (nc4_of t (by omega))) (noFlush1_5 t (nc4_of t (by omega)))]
      rw [stAt_B V c t hA hB]
      unfold stB; (try dsimp only)
      rw [PhiS1_castSucc V c t, PhiS1_pos V c _ _ hz]; unfold otherScoped
      iintro ⟨⟨⟨Q1, Q2, Q3, Q4, Q5, Q6, Q7, Q8, Q9, Q10, Q11, HS0, HS1, HS2⟩, Hg⟩, Ho, ⟨%d0, H0⟩, ⟨%d1, H1⟩, ⟨%d2, H2⟩, ⟨%d3, H3⟩, ⟨%d4, H4⟩, ⟨%d5, H5⟩⟩
      iapply ((runB_at c t (nc1_of t hA) (c2_of t hB) (nc3_of t hB) (nc4_of t (by omega)) (iblk1 V c 0 t) (iblk1 V c 1 t) (iblk1 V c 2 t) (stPrev V c t)).2.2.2 (iblk1 V c 3 t) (iblk1 V c 4 t) _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [Q1 Q2 Q3 Q4 Q5 Q6 Q7 Q8 Q9 Q10 Q11 HS0 HS1 HS2 Hg]
      · isplitl [Q1 Q2 Q3 Q4 Q5 Q6 Q7 Q8 Q9 Q10 Q11 HS0 HS1 HS2]
        · isplitl [Q1]; · iexact Q1
          isplitl [Q2]; · iexact Q2
          isplitl [Q3]; · iexact Q3
          isplitl [Q4]; · iexact Q4
          isplitl [Q5]; · iexact Q5
          isplitl [Q6]; · iexact Q6
          isplitl [Q7]; · iexact Q7
          isplitl [Q8]; · iexact Q8
          isplitl [Q9]; · iexact Q9
          isplitl [Q10]; · iexact Q10
          isplitl [Q11]; · iexact Q11
          isplitl [HS0]
          · unfold owns; iexists _; isplitr
            swap; · iexact HS0
            ipureintro; exact View.read_writes_of_cover _ _ _ _ _ (coverB_0 c t _ _ _ _ _ _ _ _)
          isplitl [HS1]
          · unfold owns; iexists _; isplitr
            swap; · iexact HS1
            ipureintro; exact View.read_writes_of_cover _ _ _ _ _ (coverB_1 c t _ _ _ _ _ _ _ _)
          unfold owns; iexists _; isplitr
          swap; · iexact HS2
          ipureintro; exact View.read_writes_of_cover _ _ _ _ _ (coverB_2 c t _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · by_cases hD : t.val % 16 = 15
      · -- the last tile
        rw [show (dat1 V c).leavesExact 5 t = owns (c : Thread nD τ) (ms1_5 t) fullShare ((dat1 V c).after 5 t) from by
          unfold Dat.leavesExact; rw [liveAt1_5 t (c4_of t hD)], after1_5, outAt_D V c t hA hB hD]
        rw [stAt_D V c t hA hB hD]
        unfold stD outD; (try dsimp only)
        rw [PhiS1_castSucc V c t, PhiS1_pos V c _ _ hz]; unfold otherScoped
        iintro ⟨⟨⟨Q1, Q2, Q3, Q4, Q5, Q6, Q7, Q8, Q9, Q10, Q11, HS0, HS1, HS2⟩, Hg⟩, Ho, ⟨%d0, H0⟩, ⟨%d1, H1⟩, ⟨%d2, H2⟩, ⟨%d3, H3⟩, ⟨%d4, H4⟩, ⟨%d5, H5⟩⟩
        iapply ((runD_at c t (nc1_of t hA) (nc2_of t hB) (c3_of t hB) (c4_of t hD) (iblk1 V c 0 t) (iblk1 V c 3 t) (iblk1 V c 4 t) (stPrev V c t)).2.2.2.2 (iblk1 V c 1 t) (iblk1 V c 2 t) Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        iintro ⟨H0, H1, H2, H3, H4, ⟨%e5, H5⟩, ⟨%es0, HS0⟩, ⟨%es1, HS1⟩, ⟨%es2, HS2⟩⟩
        isplitl [Q1 Q2 Q3 Q4 Q5 Q6 Q7 Q8 Q9 Q10 Q11 HS0 HS1 HS2 Hg]
        · isplitl [Q1 Q2 Q3 Q4 Q5 Q6 Q7 Q8 Q9 Q10 Q11 HS0 HS1 HS2]
          · isplitl [Q1]; · iexact Q1
            isplitl [Q2]; · iexact Q2
            isplitl [Q3]; · iexact Q3
            isplitl [Q4]; · iexact Q4
            isplitl [Q5]; · iexact Q5
            isplitl [Q6]; · iexact Q6
            isplitl [Q7]; · iexact Q7
            isplitl [Q8]; · iexact Q8
            isplitl [Q9]; · iexact Q9
            isplitl [Q10]; · iexact Q10
            isplitl [Q11]; · iexact Q11
            isplitl [HS0]
            · unfold owns; iexists _; isplitr
              swap; · iexact HS0
              ipureintro; exact View.read_writes_of_cover _ _ _ _ _ (coverD_0 c t _ _ _ _ _ _ _ _)
            isplitl [HS1]
            · unfold owns; iexists _; isplitr
              swap; · iexact HS1
              ipureintro; exact View.read_writes_of_cover _ _ _ _ _ (coverD_1 c t _ _ _ _ _ _ _ _)
            unfold owns; iexists _; isplitr
            swap; · iexact HS2
            ipureintro; exact View.read_writes_of_cover _ _ _ _ _ (coverD_2 c t _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (coverD_5 c t _ _ _ _ _ _ _ _)
      · -- a middle new tile
        rw [Dat.leavesExact_idle (dat1 V c) 5 t (idleAt1_5 t (nc4_of t (by omega))) (noFlush1_5 t (nc4_of t (by omega)))]
        rw [stAt_C V c t hA hB hD]
        unfold stC; (try dsimp only)
        rw [PhiS1_castSucc V c t, PhiS1_pos V c _ _ hz]; unfold otherScoped
        iintro ⟨⟨⟨Q1, Q2, Q3, Q4, Q5, Q6, Q7, Q8, Q9, Q10, Q11, HS0, HS1, HS2⟩, Hg⟩, Ho, ⟨%d0, H0⟩, ⟨%d1, H1⟩, ⟨%d2, H2⟩, ⟨%d3, H3⟩, ⟨%d4, H4⟩, ⟨%d5, H5⟩⟩
        iapply ((runC_at c t (nc1_of t hA) (nc2_of t hB) (c3_of t hB) (nc4_of t hD) (iblk1 V c 0 t) (iblk1 V c 3 t) (iblk1 V c 4 t) (stPrev V c t)).2.2.2 (iblk1 V c 1 t) (iblk1 V c 2 t) _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%es0, HS0⟩, ⟨%es1, HS1⟩, ⟨%es2, HS2⟩⟩
        isplitl [Q1 Q2 Q3 Q4 Q5 Q6 Q7 Q8 Q9 Q10 Q11 HS0 HS1 HS2 Hg]
        · isplitl [Q1 Q2 Q3 Q4 Q5 Q6 Q7 Q8 Q9 Q10 Q11 HS0 HS1 HS2]
          · isplitl [Q1]; · iexact Q1
            isplitl [Q2]; · iexact Q2
            isplitl [Q3]; · iexact Q3
            isplitl [Q4]; · iexact Q4
            isplitl [Q5]; · iexact Q5
            isplitl [Q6]; · iexact Q6
            isplitl [Q7]; · iexact Q7
            isplitl [Q8]; · iexact Q8
            isplitl [Q9]; · iexact Q9
            isplitl [Q10]; · iexact Q10
            isplitl [Q11]; · iexact Q11
            isplitl [HS0]
            · unfold owns; iexists _; isplitr
              swap; · iexact HS0
              ipureintro; exact View.read_writes_of_cover _ _ _ _ _ (coverC_0 c t _ _ _ _ _ _ _ _)
            isplitl [HS1]
            · unfold owns; iexists _; isplitr
              swap; · iexact HS1
              ipureintro; exact View.read_writes_of_cover _ _ _ _ _ (coverC_1 c t _ _ _ _ _ _ _ _)
            unfold owns; iexists _; isplitr
            swap; · iexact HS2
            ipureintro; exact View.read_writes_of_cover _ _ _ _ _ (coverC_2 c t _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives that back: the scratch's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  unfold otherScoped
  iintro ⟨⟨Q1, Q2, Q3, Q4, Q5, Q6, Q7, Q8, Q9, Q10, Q11, HS0, HS1, HS2⟩, Hg⟩
  isplitl [Q1 Q2 Q3 Q4 Q5 Q6 Q7 Q8 Q9 Q10 Q11 HS0 HS1 HS2]
  · isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [HS0]; · iexists _; iexact HS0
    isplitl [HS1]; · iexists _; iexact HS1
    iexists _; iexact HS2
  iexact Hg

end Cert.Kernel.Hand

end
-- ==== Proof.K.Run.lean ====
import proofs.«127725_j2052994367817_2_alg».proof.Proof.K.R0Body
import proofs.«127725_j2052994367817_2_alg».proof.Proof.K.R1Body

/-! # The run of @main: two kernel regions among host stretches

@main is a stretch of host operations (three roundings to bf16 and a reshape), the projection kernel's region, a
second stretch (three reshapes), and the attention kernel's region. This file follows the TensorCore's buffer
contents through those four segments as a fold from the launch memory, instantiates each region's proof data at
the contents it is entered from, and runs the segments: every weakly fair execution terminates and the final memory
holds, at every unscoped buffer, the fold's last value (`run_all`). Read at the argument arrays — which no host
operation and no region writes — that is the frame claim (`frame`); read at the attention kernel's output array it
is what its pipeline leaves there (`run_v8`). -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host operation and no region writes one (region 1 reads two of them
    through input windows, whose arrays a pipeline leaves as entered), so the fold at an argument's buffer walks
    back to the launch memory -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 1).trans (((dat1 (V3 m ρ) c).arrAt_in 1 rfl _).trans (A_eq1 (V3 m ρ) c 1))
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := (W4_arr m ρ c 2).trans (((dat1 (V3 m ρ) c).arrAt_in 2 rfl _).trans (A_eq1 (V3 m ρ) c 2))
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first host stretch allocates a buffer. -/
theorem hostOps0_fresh : (hostOps0 : List (HloOp τ sig (Elt F))).Forall fun op => op.fresh = ∅ := by
  simp only [List.Forall]; repeat' constructor
/-- No operation of the second host stretch allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W4`, the
    generator register at some state. -/
abbrev Tₙ (c : Dev nD) : sProp 𝕄 := iprop(StableHlo.held (c : Thread nD τ) (Pipeline.ucRefs τ sig) (W4 m ρ c) ∗ ∃ r, prngReg c r)

/-! ## The regions as segments

Each region is entered from every unscoped buffer at its entry contents and left at its exit contents: its arrays
split out of the unscoped buffers and put back at what the pipeline leaves; the generator register and the scoped
buffers no window stages go into the pipeline's invariant at the first point and come back at the last (for region
1, whose invariant tracks the scratch buffers, through `hin1` / `hout1`); nothing owed; no semaphore of the
kernel's own. -/

-- `iapply` of a library lemma stated over `pin pcs a p` unifies with the pinned configuration only when unification may
-- unfold plain definitions in a metavariable's type
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show (Pipeline.ΦA spec1 c : sProp 𝕄) ⊢ (pdats m ρ 1 c).Φ 0 from hin1 (V3 m ρ) c)
    unfold Pipeline.ΦA
    iintro ⟨Hp, -, Hr⟩
    isplitl [Hr]; · iexact Hr
    iexact Hp
  hout c := by
    rw [Pipeline.ownSems0_none]
    refine (show (pdats m ρ 1 c).Φ (Fin.last _) ⊢ (Pipeline.ΦA spec1 c : sProp 𝕄) from hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state holds, at every unscoped buffer of every core, the
    fold's last value `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

/-- THE FRAME at any `F`: @main runs and every argument array ends as launched — `run_all` read at the arguments. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c)⟩) (run_all m ρ)

/-- @main runs, and the attention kernel's output array ends at what its pipeline leaves there from the contents
    region 1 is entered with (`V3`), every argument array as launched. -/
theorem run_v8 : θ_run defs (onTc (τ := τ) (main (F := F))) ⟨m, fun _ => 0, ρ⟩ (fun r => ∀ c : Dev nD,
      r.2.mem ((c.tc : Thread nD τ).loc main_v8) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v8 (by decide))).trans (W4_arr m ρ c 5),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c)⟩) (run_all m ρ)

end Cert.Kernel.Hand

end
-- ==== Proof.KI.R0Body.lean ====
import proofs.«127725_j2052994367817_2_alg».proof.Proof.Gen.KernelIdeal.Launch
import proofs.«127725_j2052994367817_2_alg».proof.Proof.Gen.KernelIdeal.Skeleton
import proofs.«127725_j2052994367817_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0 of @main (the projection kernel) at a parameter `V`

The first pallas_call of @main runs, on a grid of 16 points, a body that loads four input blocks whole (a row
block `x` of the activations and the three weight matrices), multiplies `x` (rounded to bf16) by each weight
matrix, and stores the three products whole, one per output window. This file states that half of the frame
argument at a PARAMETER `V` — the TensorCore's buffer contents when the region is entered —: each window's block
at a point, what the body leaves in each output window's buffer as a function of the input blocks, the body's
triple, the pipeline's proof data and its body obligation. -/

-- membership in a rectangle of large extents: the elaborator's structural look recurses once per coordinate of the
-- long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the activations' row block, fetched at every point): its current staging buffer holds its block
    at every point, for ANY proof data whose array is `V`'s (`hA`) and whose body leaves the block in place (`hafter`). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (a weight matrix, one block, fetched at the first point only): its staging buffer holds its block at
    every point, fetched there or not — where it is not fetched the block index has not moved and the body left the
    block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (a weight matrix, one block, fetched at the first point only): its staging buffer holds its block at
    every point, fetched there or not — where it is not fetched the block index has not moved and the body left the
    block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (a weight matrix, one block, fetched at the first point only): its staging buffer holds its block at
    every point, fetched there or not — where it is not fetched the block index has not moved and the body left the
    block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole row block (512 × 2048): what the body loads of window 0 and of each output window, and where it stores. -/
abbrev r0_0 : Rect S512x2048 := Rect.unit (s := S512x2048) ![0, 0] S512x2048.size inb_S512x2048_S512x2048_0_0
/-- The whole weight matrix (2048 × 2048): what the body loads of windows 1, 2, 3. -/
abbrev r0_1 : Rect S2048x2048 := Rect.unit (s := S2048x2048) ![0, 0] S2048x2048.size inb_S2048x2048_S2048x2048_0_0

/-! ## What the body leaves in each output window's buffer -/

/-- Window 4's staging buffer after the body, from the blocks of windows 0 and 1: its one store, of the product of the
    row block (rounded) by the first weight matrix. -/
def out0_4 (x0 : Vec F S512x2048 .f32) (x1 : Vec F S2048x2048 .bf16) : Vec F S512x2048 .bf16 :=
  View.canon [⟨r0_0, k0_pay2 (View.ld x0 r0_0) (View.ld x1 r0_1)⟩]
/-- Window 5's staging buffer after the body, from the blocks of windows 0 and 2: the product by the second weight matrix. -/
def out0_5 (x0 : Vec F S512x2048 .f32) (x2 : Vec F S2048x2048 .bf16) : Vec F S512x2048 .bf16 :=
  View.canon [⟨r0_0, k0_pay3 (View.ld x0 r0_0) (View.ld x2 r0_1)⟩]
/-- Window 6's staging buffer after the body, from the blocks of windows 0 and 3: the product by the third weight matrix. -/
def out0_6 (x0 : Vec F S512x2048 .f32) (x3 : Vec F S2048x2048 .bf16) : Vec F S512x2048 .bf16 :=
  View.canon [⟨r0_0, k0_pay4 (View.ld x0 r0_0) (View.ld x3 r0_1)⟩]

/-- One whole-block store tiles the buffer (checked by evaluation), so it covers it: the same for the three outputs. -/
theorem cover0_out (p0 : Vec F S512x2048 .bf16) (y : S512x2048.Idx) :
    ∃ pc ∈ ([⟨r0_0, p0⟩] : List (View.Piece (Elt F) S512x2048 .bf16)), y ∈ pc.1.set :=
  View.cover_of_tiled [⟨r0_0, p0⟩] S512x2048.size (by rfl) y

/-! ## The body's triple -/

set_option maxHeartbeats 1000000 in
/-- The kernel body on whole staging memrefs, the inputs' at read contents `x0 … x3` and the outputs' at anything, runs to
    the continuation holding the inputs' as they were and each output's at `out0_W` of the inputs'. -/
theorem sound_kernel0 (c : Dev nD) (E : Set ℕ) (i : grid0.Coords)
    (arg1 : Memref sig .tc .vmem S512x2048 .f32) (harg1 : arg1.IsWhole) (arg2 : Memref sig .tc .vmem S2048x2048 .bf16) (harg2 : arg2.IsWhole)
    (arg3 : Memref sig .tc .vmem S2048x2048 .bf16) (harg3 : arg3.IsWhole) (arg4 : Memref sig .tc .vmem S2048x2048 .bf16) (harg4 : arg4.IsWhole)
    (arg5 : Memref sig .tc .vmem S512x2048 .bf16) (harg5 : arg5.IsWhole) (arg6 : Memref sig .tc .vmem S512x2048 .bf16) (harg6 : arg6.IsWhole)
    (arg7 : Memref sig .tc .vmem S512x2048 .bf16) (harg7 : arg7.IsWhole)
    (x0 : Vec F S512x2048 .f32) (x1 : Vec F S2048x2048 .bf16) (x2 : Vec F S2048x2048 .bf16) (x3 : Vec F S2048x2048 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out0_4 x0 x1) ∗ owns (c : Thread nD τ) arg6 fullShare (out0_5 x0 x2)
            ∗ owns (c : Thread nD τ) arg7 fullShare (out0_6 x0 x3)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_out _)
  isplitl [H5]
  · iexists _; isplitr
    swap; · iexact H5
    ipureintro
    exact View.read_writes_eq_canon _ _ _ (cover0_out _)
  iexists _; isplitr
  swap; · iexact H6
  ipureintro
  exact View.read_writes_eq_canon _ _ _ (cover0_out _)

/-! ## The pipeline's proof data -/

/-- The proof data of pipeline 0 on core `c`: the arrays as the region finds them (`V`); after the body at
    point `t` each input's buffer at its block and each output's at `out0_W` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The proof data's arrays are the region-entry contents (the proof data's definition projected). -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Defs.lean ====
/- The attention region (the second kernel launch) at the contents `V` its core's buffers hold when the region is entered:
   each window's block at a grid point, the body's four branch conditions in closed form over the 4 × 16 grid
   (the key/value tile index is the point's position modulo 16: tile 0 resets the running maximum, denominator
   and numerator; tiles 0–7 read the past keys and values, tiles 8–15 the new ones; tile 15 divides, rounds and
   stores the output block), where the output window is idle, and the three scratch buffers as memrefs. -/
import proofs.«127725_j2052994367817_2_alg».proof.Proof.Gen.KernelIdeal.Launch
import proofs.«127725_j2052994367817_2_alg».proof.Proof.Gen.KernelIdeal.Skeleton
import proofs.«127725_j2052994367817_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (a window whose
    block index has not moved since the last fetch still holds that block). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions, from the grid coordinates -/

/-- "This is the first key/value tile": the scratch is reset. -/
abbrev cond1_1 (i : grid1.Coords) : Prop := (Scalar.cmpi .ne (Scalar.extui (Scalar.cmpi .eq (BitVec.ofNat 32 (i 1).val) 0#32)) 0#32) = 1#1
/-- "This tile is one of the past ones" (tiles 0–7). -/
abbrev cond1_2 (i : grid1.Coords) : Prop := (Scalar.cmpi .ne (Scalar.extui (Scalar.cmpi .slt (BitVec.ofNat 32 (i 1).val) 8#32)) 0#32) = 1#1
/-- "This tile is one of the new ones" (tiles 8–15). -/
abbrev cond1_3 (i : grid1.Coords) : Prop := (Scalar.cmpi .ne (Scalar.extui (Scalar.cmpi .sge (BitVec.ofNat 32 (i 1).val) 8#32)) 0#32) = 1#1
/-- "This is the last tile": the output is produced. -/
abbrev cond1_4 (i : grid1.Coords) : Prop := k1_cond4 i = 1#1

theorem hcond1_1 : ∀ t : Fin cfg1.N, cond1_1 (grid1.coords t) ↔ t.val % 16 = 0 :=
  (by decide +kernel : ∀ t : Fin grid1.N, cond1_1 (grid1.coords t) ↔ t.val % 16 = 0)
theorem hcond1_2 : ∀ t : Fin cfg1.N, cond1_2 (grid1.coords t) ↔ t.val % 16 < 8 :=
  (by decide +kernel : ∀ t : Fin grid1.N, cond1_2 (grid1.coords t) ↔ t.val % 16 < 8)
theorem hcond1_3 : ∀ t : Fin cfg1.N, cond1_3 (grid1.coords t) ↔ 8 ≤ t.val % 16 :=
  (by decide +kernel : ∀ t : Fin grid1.N, cond1_3 (grid1.coords t) ↔ 8 ≤ t.val % 16)
theorem hcond1_4 : ∀ t : Fin cfg1.N, cond1_4 (grid1.coords t) ↔ t.val % 16 = 15 :=
  (by decide +kernel : ∀ t : Fin grid1.N, cond1_4 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Before the last tile the output window is idle: the body stores nothing into it, -/
theorem idleAt1_5 : ∀ t : Fin cfg1.N, ¬cond1_4 (grid1.coords t) → cfg1.idle 5 (grid1.coords t) = true := by decide +kernel
/-- and its block is not written back there. -/
theorem noFlush1_5 : ∀ t : Fin cfg1.N, ¬cond1_4 (grid1.coords t) → (cfg1.win 5).flush t = false := by decide +kernel
/-- At the last tile it is live. -/
theorem liveAt1_5 : ∀ t : Fin cfg1.N, cond1_4 (grid1.coords t) → cfg1.idle 5 (grid1.coords t) = false := by decide +kernel

/-! ## The memrefs the body is called with -/

abbrev ms1_0 (t : Fin cfg1.N) : Memref sig .tc .vmem S1x2048x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256x2048 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256x2048 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x2048x2048 .f32 := win1_5.stage (cfg1.slots t 5)
abbrev hs1_5 (t : Fin cfg1.N) : (ms1_5 t).IsWhole := hstage1_5 ((cfg1.slots t 5).cast nbuf1_5)
/-- The scratch operands: the running maximum, the running denominator, the running numerator. -/
abbrev scM1_0 : Memref sig .tc .vmem S2048x1 .f32 := Memref.whole cc1_scratch0
abbrev scM1_1 : Memref sig .tc .vmem S2048x1 .f32 := Memref.whole cc1_scratch1
abbrev scM1_2 : Memref sig .tc .vmem S2048x2048 .f32 := Memref.whole cc1_scratch2
abbrev VS1_0 : View sig .tc .vmem S2048x1 .f32 := scM1_0.view
abbrev VS1_1 : View sig .tc .vmem S2048x1 .f32 := scM1_1.view
abbrev VS1_2 : View sig .tc .vmem S2048x2048 .f32 := scM1_2.view
/-- One staging buffer of the output window, through which its contents are stated. -/
abbrev VO1_5 : View sig .tc .vmem S1x2048x2048 .f32 := (Memref.whole cc1_stg5_0 : Memref sig .tc .vmem S1x2048x2048 .f32).view

/-- The scoped buffers the region does not stage (the first launch's staging buffers), each whole at some contents. -/
def otherScoped (c : Dev nD) (P : sProp 𝕄) : sProp 𝕄 :=
  iprop((∃ d, owns (c : Thread nD τ) (Memref.whole cc0_stg0_0) fullShare d) ∗ (∃ d, owns (c : Thread nD τ) (Memref.whole cc0_stg0_1) fullShare d)
    ∗ (∃ d, owns (c : Thread nD τ) (Memref.whole cc0_stg1_0) fullShare d) ∗ (∃ d, owns (c : Thread nD τ) (Memref.whole cc0_stg2_0) fullShare d)
    ∗ (∃ d, owns (c : Thread nD τ) (Memref.whole cc0_stg3_0) fullShare d) ∗ (∃ d, owns (c : Thread nD τ) (Memref.whole cc0_stg4_0) fullShare d)
    ∗ (∃ d, owns (c : Thread nD τ) (Memref.whole cc0_stg4_1) fullShare d) ∗ (∃ d, owns (c : Thread nD τ) (Memref.whole cc0_stg5_0) fullShare d)
    ∗ (∃ d, owns (c : Thread nD τ) (Memref.whole cc0_stg5_1) fullShare d) ∗ (∃ d, owns (c : Thread nD τ) (Memref.whole cc0_stg6_0) fullShare d)
    ∗ (∃ d, owns (c : Thread nD τ) (Memref.whole cc0_stg6_1) fullShare d) ∗ P)

/-- The launch's invariant with the scratch operands as memrefs owned at some contents. -/
theorem PhiA1_eq (c : Dev nD) :
    (Pipeline.ΦA spec1 c : sProp 𝕄)
      = iprop(otherScoped c iprop((∃ d, owns (c : Thread nD τ) scM1_0 fullShare d) ∗ (∃ d, owns (c : Thread nD τ) scM1_1 fullShare d)
          ∗ (∃ d, owns (c : Thread nD τ) scM1_2 fullShare d)) ∗ (∃ r, prngReg c r)) := by
  unfold Pipeline.ΦA otherScoped; rw [scopedRest1_eq]; simp only [scM1_0, scM1_1, scM1_2, owns_whole]; try rfl

end Cert.KernelIdeal.Hand

end
-- ==== Proof.KI.R1RunA.lean ====
/- The attention kernel's body at a grid point whose key/value tile is the first (tile 0 of a batch entry): the three
   scratch buffers are reset (running maximum to −∞, denominator and numerator to 0) and the online-softmax step
   over the first past tile follows; no output. The body's triple on whole memrefs: what each scratch buffer ends
   with is the list of pieces the symbolic run finds. -/
import proofs.«127725_j2052994367817_2_alg».proof.Proof.KI.R1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The run at the first tile: the query block and the past key and value blocks at given contents, the scratch at
    anything; every window handed back as found; each scratch buffer with its pieces written. -/
noncomputable def kernelRun1_A (c : Dev nD) (i : grid1.Coords) (arg2 : Memref sig .tc .vmem S1x2048x2048 .bf16) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S1x2048x2048 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x2048 .f32) (harg10 : arg10.IsWhole)
    (hc1 : cond1_1 i) (hc2 : cond1_2 i) (hc3 : ¬cond1_3 i) (hc4 : ¬cond1_4 i)
    (x0 : Vec F S1x2048x2048 .bf16) (x1 x2 : Vec F S1x256x2048 .f32) :
    Σ' (LS0 : List (View.Piece (Elt F) S2048x1 .f32)) (LS1 : List (View.Piece (Elt F) S2048x1 .f32)), { LS2 : List (View.Piece (Elt F) S2048x2048 .f32) //
      ∀ (x3 x4 : Vec F S1x256x2048 .bf16) (xi5 : Vec F S1x2048x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10) K } := by
  refine ⟨?_, ?_, ?_, fun x3 x4 xi5 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; iexact HS0
    isplitl [HS1]
    · iexists _; iexact HS1
    iexists _; iexact HS2

end Cert.KernelIdeal.Hand

end
-- ==== Proof.KI.R1RunB.lean ====
/- The attention kernel's body at a grid point whose key/value tile is one of the past tiles 1–7: no reset, the
   online-softmax step over the past keys and values, no output. The body's triple on whole memrefs: what each scratch
   buffer ends with is the list of pieces the symbolic run finds. -/
import proofs.«127725_j2052994367817_2_alg».proof.Proof.KI.R1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The run at a middle past tile: the query block, the past key and value blocks and the three scratch buffers at given
    contents; every window handed back as found; each scratch buffer with its pieces written. -/
noncomputable def kernelRun1_B (c : Dev nD) (i : grid1.Coords) (arg2 : Memref sig .tc .vmem S1x2048x2048 .bf16) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S1x2048x2048 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x2048 .f32) (harg10 : arg10.IsWhole)
    (hc1 : ¬cond1_1 i) (hc2 : cond1_2 i) (hc3 : ¬cond1_3 i) (hc4 : ¬cond1_4 i)
    (x0 : Vec F S1x2048x2048 .bf16) (x1 x2 : Vec F S1x256x2048 .f32) (xs0 xs1 : Vec F S2048x1 .f32) (xs2 : Vec F S2048x2048 .f32) :
    Σ' (LS0 : List (View.Piece (Elt F) S2048x1 .f32)) (LS1 : List (View.Piece (Elt F) S2048x1 .f32)), { LS2 : List (View.Piece (Elt F) S2048x2048 .f32) //
      ∀ (x3 x4 : Vec F S1x256x2048 .bf16) (xi5 : Vec F S1x2048x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10) K } := by
  refine ⟨?_, ?_, ?_, fun x3 x4 xi5 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1; obtain rfl := harg10.eq_unread hfs2
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; iexact HS0
    isplitl [HS1]
    · iexists _; iexact HS1
    iexists _; iexact HS2

end Cert.KernelIdeal.Hand

end
-- ==== Proof.KI.R1RunC.lean ====
/- The attention kernel's body at a grid point whose key/value tile is one of the new tiles 8–14: no reset, the
   online-softmax step over the newly projected keys and values, no output. The body's triple on whole memrefs:
   what each scratch buffer ends with is the list of pieces the symbolic run finds. -/
import proofs.«127725_j2052994367817_2_alg».proof.Proof.KI.R1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The run at a middle new tile: the query block, the new key and value blocks and the three scratch buffers at given
    contents; every window handed back as found; each scratch buffer with its pieces written. -/
noncomputable def kernelRun1_C (c : Dev nD) (i : grid1.Coords) (arg2 : Memref sig .tc .vmem S1x2048x2048 .bf16) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S1x2048x2048 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x2048 .f32) (harg10 : arg10.IsWhole)
    (hc1 : ¬cond1_1 i) (hc2 : ¬cond1_2 i) (hc3 : cond1_3 i) (hc4 : ¬cond1_4 i)
    (x0 : Vec F S1x2048x2048 .bf16) (x3 x4 : Vec F S1x256x2048 .bf16) (xs0 xs1 : Vec F S2048x1 .f32) (xs2 : Vec F S2048x2048 .f32) :
    Σ' (LS0 : List (View.Piece (Elt F) S2048x1 .f32)) (LS1 : List (View.Piece (Elt F) S2048x1 .f32)), { LS2 : List (View.Piece (Elt F) S2048x2048 .f32) //
      ∀ (x1 x2 : Vec F S1x256x2048 .f32) (xi5 : Vec F S1x2048x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10) K } := by
  refine ⟨?_, ?_, ?_, fun x1 x2 xi5 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1; obtain rfl := harg10.eq_unread hfs2
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; iexact HS0
    isplitl [HS1]
    · iexists _; iexact HS1
    iexists _; iexact HS2

end Cert.KernelIdeal.Hand

end
-- ==== Proof.KI.R1RunD.lean ====
/- The attention kernel's body at a grid point whose key/value tile is the last (tile 15): the online-softmax step
   over the last new tile, then the numerator divided by the denominator, rounded to four decimals, stored into the
   output block. The body's triple on whole memrefs: what the output buffer and each scratch buffer end with is
   the list of pieces the symbolic run finds. -/
import proofs.«127725_j2052994367817_2_alg».proof.Proof.KI.R1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The run at the last tile: the query block, the new key and value blocks and the three scratch buffers at given
    contents, the output buffer at anything; the inputs handed back as found; the output buffer and each scratch
    buffer with its pieces written. -/
noncomputable def kernelRun1_D (c : Dev nD) (i : grid1.Coords) (arg2 : Memref sig .tc .vmem S1x2048x2048 .bf16) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S1x2048x2048 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x2048 .f32) (harg10 : arg10.IsWhole)
    (hc1 : ¬cond1_1 i) (hc2 : ¬cond1_2 i) (hc3 : cond1_3 i) (hc4 : cond1_4 i)
    (x0 : Vec F S1x2048x2048 .bf16) (x3 x4 : Vec F S1x256x2048 .bf16) (xs0 xs1 : Vec F S2048x1 .f32) (xs2 : Vec F S2048x2048 .f32) :
    Σ' (L5 : List (View.Piece (Elt F) S1x2048x2048 .f32)) (LS0 : List (View.Piece (Elt F) S2048x1 .f32)) (LS1 : List (View.Piece (Elt F) S2048x1 .f32)), { LS2 : List (View.Piece (Elt F) S2048x2048 .f32) //
      ∀ (x1 x2 : Vec F S1x256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10) K } := by
  refine ⟨?_, ?_, ?_, ?_, fun x1 x2 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs0; obtain rfl := harg9.eq_unread hfs1; obtain rfl := harg10.eq_unread hfs2
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [HS0]
    · iexists _; iexact HS0
    isplitl [HS1]
    · iexists _; iexact HS1
    iexists _; iexact HS2

end Cert.KernelIdeal.Hand

end
-- ==== Proof.KI.R1Cases.lean ====
/- The attention region's proof data at the region-entry contents `V`: what the three scratch buffers (running maximum,
   running denominator, running numerator) hold after each grid point, by recursion on the point — the first tile of a
   batch entry starts afresh, every other tile continues from what the point before left —; what the output block
   holds after the last tile; the invariant that carries the scratch between points; and the body obligation, by cases
   on the tile index. -/
import proofs.«127725_j2052994367817_2_alg».proof.Proof.KI.R1RunA
import proofs.«127725_j2052994367817_2_alg».proof.Proof.KI.R1RunB
import proofs.«127725_j2052994367817_2_alg».proof.Proof.KI.R1RunC
import proofs.«127725_j2052994367817_2_alg».proof.Proof.KI.R1RunD

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The three scratch buffers' contents: running maximum, running denominator, running numerator. -/
abbrev St (F : FTy → Type) [FloatOps F] : Type := Vec F S2048x1 .f32 × Vec F S2048x1 .f32 × Vec F S2048x2048 .f32

/-! ## The four cases' runs at a grid point's own memrefs -/

abbrev runA_at (c : Dev nD) (t : Fin cfg1.N) (h1 : cond1_1 (grid1.coords t)) (h2 : cond1_2 (grid1.coords t)) (h3 : ¬cond1_3 (grid1.coords t)) (h4 : ¬cond1_4 (grid1.coords t))
    (x0 : Vec F S1x2048x2048 .bf16) (x1 x2 : Vec F S1x256x2048 .f32) :=
  kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) h1 h2 h3 h4 x0 x1 x2
abbrev runB_at (c : Dev nD) (t : Fin cfg1.N) (h1 : ¬cond1_1 (grid1.coords t)) (h2 : cond1_2 (grid1.coords t)) (h3 : ¬cond1_3 (grid1.coords t)) (h4 : ¬cond1_4 (grid1.coords t))
    (x0 : Vec F S1x2048x2048 .bf16) (x1 x2 : Vec F S1x256x2048 .f32) (s : St F) :=
  kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) h1 h2 h3 h4 x0 x1 x2 s.1 s.2.1 s.2.2
abbrev runC_at (c : Dev nD) (t : Fin cfg1.N) (h1 : ¬cond1_1 (grid1.coords t)) (h2 : ¬cond1_2 (grid1.coords t)) (h3 : cond1_3 (grid1.coords t)) (h4 : ¬cond1_4 (grid1.coords t))
    (x0 : Vec F S1x2048x2048 .bf16) (x3 x4 : Vec F S1x256x2048 .bf16) (s : St F) :=
  kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) h1 h2 h3 h4 x0 x3 x4 s.1 s.2.1 s.2.2
abbrev runD_at (c : Dev nD) (t : Fin cfg1.N) (h1 : ¬cond1_1 (grid1.coords t)) (h2 : ¬cond1_2 (grid1.coords t)) (h3 : cond1_3 (grid1.coords t)) (h4 : cond1_4 (grid1.coords t))
    (x0 : Vec F S1x2048x2048 .bf16) (x3 x4 : Vec F S1x256x2048 .bf16) (s : St F) :=
  kernelRun1_D c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) h1 h2 h3 h4 x0 x3 x4 s.1 s.2.1 s.2.2

/-! ## What each case leaves in the scratch (its pieces read back), and that the pieces cover each buffer -/

def stA (c : Dev nD) (t : Fin cfg1.N) (h1 : cond1_1 (grid1.coords t)) (h2 : cond1_2 (grid1.coords t)) (h3 : ¬cond1_3 (grid1.coords t)) (h4 : ¬cond1_4 (grid1.coords t))
    (x0 : Vec F S1x2048x2048 .bf16) (x1 x2 : Vec F S1x256x2048 .f32) : St F :=
  (VS1_0.read (Elt F) (VS1_0.writes (Elt F) VS1_0.junk (runA_at c t h1 h2 h3 h4 x0 x1 x2).1), VS1_1.read (Elt F) (VS1_1.writes (Elt F) VS1_1.junk (runA_at c t h1 h2 h3 h4 x0 x1 x2).2.1), VS1_2.read (Elt F) (VS1_2.writes (Elt F) VS1_2.junk (runA_at c t h1 h2 h3 h4 x0 x1 x2).2.2.1))
def stB (c : Dev nD) (t : Fin cfg1.N) (h1 : ¬cond1_1 (grid1.coords t)) (h2 : cond1_2 (grid1.coords t)) (h3 : ¬cond1_3 (grid1.coords t)) (h4 : ¬cond1_4 (grid1.coords t))
    (x0 : Vec F S1x2048x2048 .bf16) (x1 x2 : Vec F S1x256x2048 .f32) (s : St F) : St F :=
  (VS1_0.read (Elt F) (VS1_0.writes (Elt F) VS1_0.junk (runB_at c t h1 h2 h3 h4 x0 x1 x2 s).1), VS1_1.read (Elt F) (VS1_1.writes (Elt F) VS1_1.junk (runB_at c t h1 h2 h3 h4 x0 x1 x2 s).2.1), VS1_2.read (Elt F) (VS1_2.writes (Elt F) VS1_2.junk (runB_at c t h1 h2 h3 h4 x0 x1 x2 s).2.2.1))
def stC (c : Dev nD) (t : Fin cfg1.N) (h1 : ¬cond1_1 (grid1.coords t)) (h2 : ¬cond1_2 (grid1.coords t)) (h3 : cond1_3 (grid1.coords t)) (h4 : ¬cond1_4 (grid1.coords t))
    (x0 : Vec F S1x2048x2048 .bf16) (x3 x4 : Vec F S1x256x2048 .bf16) (s : St F) : St F :=
  (VS1_0.read (Elt F) (VS1_0.writes (Elt F) VS1_0.junk (runC_at c t h1 h2 h3 h4 x0 x3 x4 s).1), VS1_1.read (Elt F) (VS1_1.writes (Elt F) VS1_1.junk (runC_at c t h1 h2 h3 h4 x0 x3 x4 s).2.1), VS1_2.read (Elt F) (VS1_2.writes (Elt F) VS1_2.junk (runC_at c t h1 h2 h3 h4 x0 x3 x4 s).2.2.1))
def stD (c : Dev nD) (t : Fin cfg1.N) (h1 : ¬cond1_1 (grid1.coords t)) (h2 : ¬cond1_2 (grid1.coords t)) (h3 : cond1_3 (grid1.coords t)) (h4 : cond1_4 (grid1.coords t))
    (x0 : Vec F S1x2048x2048 .bf16) (x3 x4 : Vec F S1x256x2048 .bf16) (s : St F) : St F :=
  (VS1_0.read (Elt F) (VS1_0.writes (Elt F) VS1_0.junk (runD_at c t h1 h2 h3 h4 x0 x3 x4 s).2.1), VS1_1.read (Elt F) (VS1_1.writes (Elt F) VS1_1.junk (runD_at c t h1 h2 h3 h4 x0 x3 x4 s).2.2.1), VS1_2.read (Elt F) (VS1_2.writes (Elt F) VS1_2.junk (runD_at c t h1 h2 h3 h4 x0 x3 x4 s).2.2.2.1))
/-- What the last tile leaves in the output block's staging buffer. -/
def outD (c : Dev nD) (t : Fin cfg1.N) (h1 : ¬cond1_1 (grid1.coords t)) (h2 : ¬cond1_2 (grid1.coords t)) (h3 : cond1_3 (grid1.coords t)) (h4 : cond1_4 (grid1.coords t))
    (x0 : Vec F S1x2048x2048 .bf16) (x3 x4 : Vec F S1x256x2048 .bf16) (s : St F) : Vec F S1x2048x2048 .f32 :=
  VO1_5.read (Elt F) (VO1_5.writes (Elt F) VO1_5.junk (runD_at c t h1 h2 h3 h4 x0 x3 x4 s).1)

section covers
variable (c : Dev nD) (t : Fin cfg1.N)
theorem coverA_0 (h1 h2 h3 h4) (x0 : Vec F S1x2048x2048 .bf16) (x1 x2 : Vec F S1x256x2048 .f32) (y : S2048x1.Idx) : ∃ pc ∈ (runA_at c t h1 h2 h3 h4 x0 x1 x2).1, y ∈ pc.1.set :=
  View.cover_of_tiledL _ S2048x1.size (by sl_kernel_rfl) y
theorem coverA_1 (h1 h2 h3 h4) (x0 : Vec F S1x2048x2048 .bf16) (x1 x2 : Vec F S1x256x2048 .f32) (y : S2048x1.Idx) : ∃ pc ∈ (runA_at c t h1 h2 h3 h4 x0 x1 x2).2.1, y ∈ pc.1.set :=
  View.cover_of_tiledL _ S2048x1.size (by sl_kernel_rfl) y
theorem coverA_2 (h1 h2 h3 h4) (x0 : Vec F S1x2048x2048 .bf16) (x1 x2 : Vec F S1x256x2048 .f32) (y : S2048x2048.Idx) : ∃ pc ∈ (runA_at c t h1 h2 h3 h4 x0 x1 x2).2.2.1, y ∈ pc.1.set :=
  View.cover_of_tiledL _ S2048x2048.size (by sl_kernel_rfl) y
theorem coverB_0 (h1 h2 h3 h4) (x0 : Vec F S1x2048x2048 .bf16) (x1 x2 : Vec F S1x256x2048 .f32) (s : St F) (y : S2048x1.Idx) : ∃ pc ∈ (runB_at c t h1 h2 h3 h4 x0 x1 x2 s).1, y ∈ pc.1.set :=
  View.cover_of_tiledL _ S2048x1.size (by sl_kernel_rfl) y
theorem coverB_1 (h1 h2 h3 h4) (x0 : Vec F S1x2048x2048 .bf16) (x1 x2 : Vec F S1x256x2048 .f32) (s : St F) (y : S2048x1.Idx) : ∃ pc ∈ (runB_at c t h1 h2 h3 h4 x0 x1 x2 s).2.1, y ∈ pc.1.set :=
  View.cover_of_tiledL _ S2048x1.size (by sl_kernel_rfl) y
theorem coverB_2 (h1 h2 h3 h4) (x0 : Vec F S1x2048x2048 .bf16) (x1 x2 : Vec F S1x256x2048 .f32) (s : St F) (y : S2048x2048.Idx) : ∃ pc ∈ (runB_at c t h1 h2 h3 h4 x0 x1 x2 s).2.2.1, y ∈ pc.1.set :=
  View.cover_of_tiledL _ S2048x2048.size (by sl_kernel_rfl) y
theorem coverC_0 (h1 h2 h3 h4) (x0 : Vec F S1x2048x2048 .bf16) (x3 x4 : Vec F S1x256x2048 .bf16) (s : St F) (y : S2048x1.Idx) : ∃ pc ∈ (runC_at c t h1 h2 h3 h4 x0 x3 x4 s).1, y ∈ pc.1.set :=
  View.cover_of_tiledL _ S2048x1.size (by sl_kernel_rfl) y
theorem coverC_1 (h1 h2 h3 h4) (x0 : Vec F S1x2048x2048 .bf16) (x3 x4 : Vec F S1x256x2048 .bf16) (s : St F) (y : S2048x1.Idx) : ∃ pc ∈ (runC_at c t h1 h2 h3 h4 x0 x3 x4 s).2.1, y ∈ pc.1.set :=
  View.cover_of_tiledL _ S2048x1.size (by sl_kernel_rfl) y
theorem coverC_2 (h1 h2 h3 h4) (x0 : Vec F S1x2048x2048 .bf16) (x3 x4 : Vec F S1x256x2048 .bf16) (s : St F) (y : S2048x2048.Idx) : ∃ pc ∈ (runC_at c t h1 h2 h3 h4 x0 x3 x4 s).2.2.1, y ∈ pc.1.set :=
  View.cover_of_tiledL _ S2048x2048.size (by sl_kernel_rfl) y
theorem coverD_5 (h1 h2 h3 h4) (x0 : Vec F S1x2048x2048 .bf16) (x3 x4 : Vec F S1x256x2048 .bf16) (s : St F) (y : S1x2048x2048.Idx) : ∃ pc ∈ (runD_at c t h1 h2 h3 h4 x0 x3 x4 s).1, y ∈ pc.1.set :=
  View.cover_of_tiledL _ S1x2048x2048.size (by sl_kernel_rfl) y
theorem coverD_0 (h1 h2 h3 h4) (x0 : Vec F S1x2048x2048 .bf16) (x3 x4 : Vec F S1x256x2048 .bf16) (s : St F) (y : S2048x1.Idx) : ∃ pc ∈ (runD_at c t h1 h2 h3 h4 x0 x3 x4 s).2.1, y ∈ pc.1.set :=
  View.cover_of_tiledL _ S2048x1.size (by sl_kernel_rfl) y
theorem coverD_1 (h1 h2 h3 h4) (x0 : Vec F S1x2048x2048 .bf16) (x3 x4 : Vec F S1x256x2048 .bf16) (s : St F) (y : S2048x1.Idx) : ∃ pc ∈ (runD_at c t h1 h2 h3 h4 x0 x3 x4 s).2.2.1, y ∈ pc.1.set :=
  View.cover_of_tiledL _ S2048x1.size (by sl_kernel_rfl) y
theorem coverD_2 (h1 h2 h3 h4) (x0 : Vec F S1x2048x2048 .bf16) (x3 x4 : Vec F S1x256x2048 .bf16) (s : St F) (y : S2048x2048.Idx) : ∃ pc ∈ (runD_at c t h1 h2 h3 h4 x0 x3 x4 s).2.2.2.1, y ∈ pc.1.set :=
  View.cover_of_tiledL _ S2048x2048.size (by sl_kernel_rfl) y
end covers

end Cert.KernelIdeal.Hand

end
-- ==== Proof.KI.R1Dat.lean ====
/- The attention region's proof data: the scratch after each grid point by recursion on the point, the invariant that
   carries it, the proof data record, and the body obligation by cases on the key/value tile index (the point's
   position modulo 16): tile 0, tiles 1–7, tiles 8–14, tile 15. -/
import proofs.«127725_j2052994367817_2_alg».proof.Proof.KI.R1Cases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions at a point from its tile index -/

section conds
variable (t : Fin cfg1.N)
theorem c1_of (h : t.val % 16 = 0) : cond1_1 (grid1.coords t) := (hcond1_1 t).mpr h
theorem nc1_of (h : ¬t.val % 16 = 0) : ¬cond1_1 (grid1.coords t) := fun h' => h ((hcond1_1 t).mp h')
theorem c2_of (h : t.val % 16 < 8) : cond1_2 (grid1.coords t) := (hcond1_2 t).mpr h
theorem nc2_of (h : ¬t.val % 16 < 8) : ¬cond1_2 (grid1.coords t) := fun h' => h ((hcond1_2 t).mp h')
theorem c3_of (h : ¬t.val % 16 < 8) : cond1_3 (grid1.coords t) := (hcond1_3 t).mpr (by omega)
theorem nc3_of (h : t.val % 16 < 8) : ¬cond1_3 (grid1.coords t) := fun h' => by have := (hcond1_3 t).mp h'; omega
theorem c4_of (h : t.val % 16 = 15) : cond1_4 (grid1.coords t) := (hcond1_4 t).mpr h
theorem nc4_of (h : ¬t.val % 16 = 15) : ¬cond1_4 (grid1.coords t) := fun h' => h ((hcond1_4 t).mp h')
end conds

/-! ## The scratch after each point -/

/-- THE RECURRENCE. What the three scratch buffers hold after the body at position `n`: tile 0 of a batch entry starts from
    the reset; every other tile continues from what position `n - 1` left, over the past blocks (tiles 1–7) or the new
    blocks (tiles 8–15). -/
def stAt (c : Dev nD) : (n : ℕ) → n < cfg1.N → St F
  | 0, hn => stA c ⟨0, hn⟩ (c1_of _ (Nat.zero_mod _)) (c2_of _ (by show 0 % 16 < 8; omega)) (nc3_of _ (by show 0 % 16 < 8; omega)) (nc4_of _ (by show ¬(0 % 16 = 15); omega))
      (iblk1 V c 0 ⟨0, hn⟩) (iblk1 V c 1 ⟨0, hn⟩) (iblk1 V c 2 ⟨0, hn⟩)
  | n + 1, hn =>
    if hA : (n + 1) % 16 = 0 then
      stA c ⟨n + 1, hn⟩ (c1_of _ hA) (c2_of _ (by show (n + 1) % 16 < 8; omega)) (nc3_of _ (by show (n + 1) % 16 < 8; omega)) (nc4_of _ (by show ¬((n + 1) % 16 = 15); omega))
        (iblk1 V c 0 ⟨n + 1, hn⟩) (iblk1 V c 1 ⟨n + 1, hn⟩) (iblk1 V c 2 ⟨n + 1, hn⟩)
    else if hB : (n + 1) % 16 < 8 then
      stB c ⟨n + 1, hn⟩ (nc1_of _ hA) (c2_of _ hB) (nc3_of _ hB) (nc4_of _ (by show ¬((n + 1) % 16 = 15); omega))
        (iblk1 V c 0 ⟨n + 1, hn⟩) (iblk1 V c 1 ⟨n + 1, hn⟩) (iblk1 V c 2 ⟨n + 1, hn⟩) (stAt c n (Nat.lt_of_succ_lt hn))
    else if hD : (n + 1) % 16 = 15 then
      stD c ⟨n + 1, hn⟩ (nc1_of _ hA) (nc2_of _ hB) (c3_of _ hB) (c4_of _ hD)
        (iblk1 V c 0 ⟨n + 1, hn⟩) (iblk1 V c 3 ⟨n + 1, hn⟩) (iblk1 V c 4 ⟨n + 1, hn⟩) (stAt c n (Nat.lt_of_succ_lt hn))
    else
      stC c ⟨n + 1, hn⟩ (nc1_of _ hA) (nc2_of _ hB) (c3_of _ hB) (nc4_of _ hD)
        (iblk1 V c 0 ⟨n + 1, hn⟩) (iblk1 V c 3 ⟨n + 1, hn⟩) (iblk1 V c 4 ⟨n + 1, hn⟩) (stAt c n (Nat.lt_of_succ_lt hn))

/-- The scratch before position `n` when `n` is not the first tile of a batch entry: what position `n - 1` left. -/
abbrev stPrev (c : Dev nD) (t : Fin cfg1.N) : St F := stAt V c (t.val - 1) (Nat.lt_of_le_of_lt (Nat.sub_le _ _) t.isLt)

theorem stAt_A (c : Dev nD) (t : Fin cfg1.N) (hA : t.val % 16 = 0) :
    stAt V c t.val t.isLt = stA c t (c1_of t hA) (c2_of t (by omega)) (nc3_of t (by omega)) (nc4_of t (by omega)) (iblk1 V c 0 t) (iblk1 V c 1 t) (iblk1 V c 2 t) := by
  obtain ⟨n, hn⟩ := t
  cases n with
  | zero => exact rfl
  | succ n => exact (dif_pos hA).trans rfl
theorem stAt_B (c : Dev nD) (t : Fin cfg1.N) (hA : ¬t.val % 16 = 0) (hB : t.val % 16 < 8) :
    stAt V c t.val t.isLt = stB c t (nc1_of t hA) (c2_of t hB) (nc3_of t hB) (nc4_of t (by omega)) (iblk1 V c 0 t) (iblk1 V c 1 t) (iblk1 V c 2 t) (stPrev V c t) := by
  obtain ⟨n, hn⟩ := t
  cases n with
  | zero => exact absurd (Nat.zero_mod _) hA
  | succ n => exact (dif_neg hA).trans ((dif_pos hB).trans rfl)
theorem stAt_C (c : Dev nD) (t : Fin cfg1.N) (hA : ¬t.val % 16 = 0) (hB : ¬t.val % 16 < 8) (hD : ¬t.val % 16 = 15) :
    stAt V c t.val t.isLt = stC c t (nc1_of t hA) (nc2_of t hB) (c3_of t hB) (nc4_of t hD) (iblk1 V c 0 t) (iblk1 V c 3 t) (iblk1 V c 4 t) (stPrev V c t) := by
  obtain ⟨n, hn⟩ := t
  cases n with
  | zero => exact absurd (Nat.zero_mod _) hA
  | succ n => exact (dif_neg hA).trans ((dif_neg hB).trans ((dif_neg hD).trans rfl))
theorem stAt_D (c : Dev nD) (t : Fin cfg1.N) (hA : ¬t.val % 16 = 0) (hB : ¬t.val % 16 < 8) (hD : t.val % 16 = 15) :
    stAt V c t.val t.isLt = stD c t (nc1_of t hA) (nc2_of t hB) (c3_of t hB) (c4_of t hD) (iblk1 V c 0 t) (iblk1 V c 3 t) (iblk1 V c 4 t) (stPrev V c t) := by
  obtain ⟨n, hn⟩ := t
  cases n with
  | zero => exact absurd (Nat.zero_mod _) hA
  | succ n => exact (dif_neg hA).trans ((dif_neg hB).trans ((dif_pos hD).trans rfl))

/-- What the output block's staging buffer holds after the body at position `n`: at the last tile of a batch entry the
    rounded quotient; elsewhere nothing is stored (a placeholder nothing consults: the window is idle there). -/
def outAt (c : Dev nD) (n : ℕ) (hn : n < cfg1.N) : Vec F S1x2048x2048 .f32 :=
  if hD : n % 16 = 15 then
    outD c ⟨n, hn⟩ (nc1_of _ (by show ¬(n % 16 = 0); omega)) (nc2_of _ (by show ¬(n % 16 < 8); omega)) (c3_of _ (by show ¬(n % 16 < 8); omega)) (c4_of _ hD)
      (iblk1 V c 0 ⟨n, hn⟩) (iblk1 V c 3 ⟨n, hn⟩) (iblk1 V c 4 ⟨n, hn⟩) (stAt V c (n - 1) (Nat.lt_of_le_of_lt (Nat.sub_le _ _) hn))
  else VO1_5.read (Elt F) (VO1_5.writes (Elt F) VO1_5.junk [])

theorem outAt_D (c : Dev nD) (t : Fin cfg1.N) (hA : ¬t.val % 16 = 0) (hB : ¬t.val % 16 < 8) (hD : t.val % 16 = 15) :
    outAt V c t.val t.isLt = outD c t (nc1_of t hA) (nc2_of t hB) (c3_of t hB) (c4_of t hD) (iblk1 V c 0 t) (iblk1 V c 3 t) (iblk1 V c 4 t) (stPrev V c t) :=
  (dif_pos hD).trans rfl

/-! ## The invariant -/

/-- Before position `n`: before the first point what the launch hands over (every scratch buffer at anything);
    afterwards the three scratch buffers at what the point before left, the other scoped buffers at anything, the
    generator register at some state. -/
def PhiS1 (c : Dev nD) : (n : ℕ) → n ≤ cfg1.N → sProp 𝕄
  | 0, _ => Pipeline.ΦA spec1 c
  | n + 1, hn => iprop(otherScoped c iprop(owns (c : Thread nD τ) scM1_0 fullShare (stAt V c n hn).1 ∗ owns (c : Thread nD τ) scM1_1 fullShare (stAt V c n hn).2.1
      ∗ owns (c : Thread nD τ) scM1_2 fullShare (stAt V c n hn).2.2) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(otherScoped c iprop(owns (c : Thread nD τ) scM1_0 fullShare (stAt V c n hn).1 ∗ owns (c : Thread nD τ) scM1_1 fullShare (stAt V c n hn).2.1
      ∗ owns (c : Thread nD τ) scM1_2 fullShare (stAt V c n hn).2.2) ∗ (∃ r, prngReg c r)) := rfl
theorem PhiS1_pos (c : Dev nD) (n : ℕ) (h : n ≤ cfg1.N) (hz : n ≠ 0) :
    PhiS1 V c n h = iprop(otherScoped c iprop(owns (c : Thread nD τ) scM1_0 fullShare (stAt V c (n - 1) (by omega)).1 ∗ owns (c : Thread nD τ) scM1_1 fullShare (stAt V c (n - 1) (by omega)).2.1
      ∗ owns (c : Thread nD τ) scM1_2 fullShare (stAt V c (n - 1) (by omega)).2.2) ∗ (∃ r, prngReg c r)) := by
  cases n with
  | zero => exact absurd rfl hz
  | succ n => rfl

/-! ## The proof data -/

/-- The proof data of the attention pipeline on core `c`: the arrays as the region finds them; after the body at point
    `t` each input's buffer at its block and the output's at `outAt`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt V c t.val t.isLt := by dsimp only [dat1]
theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d
theorem before1_3 (c : Dev nD) (t : Fin cfg1.N) (d) : (dat1 V c).before 3 t d = iblk1 V c 3 t := before1_3_of V (dat1 V c) (A_eq1 V c 3) (after1_3 V c) t d
theorem before1_4 (c : Dev nD) (t : Fin cfg1.N) (d) : (dat1 V c).before 4 t d = iblk1 V c 4 t := before1_4_of V (dat1 V c) (A_eq1 V c 4) (after1_4 V c) t d

end Cert.KernelIdeal.Hand

end
-- ==== Proof.KI.R1Body.lean ====
/- The attention region's body obligation: at every grid point, from the invariant and every window's current staging
   buffer at what it then holds, the body runs to the invariant at the next point and every buffer at what the body
   leaves — by cases on the key/value tile index, each case its own symbolic run; and the invariant's two ends (what
   the launch hands over is the invariant before the first point; after the last point it gives that back). -/
import proofs.«127725_j2052994367817_2_alg».proof.Proof.KI.R1Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

set_option maxHeartbeats 8000000 in
/-- The body at any point: the inputs' memrefs hold their blocks; the tile index says which case the point is in; the
    invariant hands the body the scratch at what the point before left (at anything at a batch entry's first tile) and
    takes it back at this point's contents; the output window is handed back untouched except at the last tile. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases hA : t.val % 16 = 0
  · -- the first tile of a batch entry
    rw [Dat.leavesExact_idle (dat1 V c) 5 t (idleAt1_5 t (nc4_of t (by omega))) (noFlush1_5 t (nc4_of t (by omega)))]
    rw [stAt_A V c t hA]
    unfold stA; (try dsimp only)
    by_cases hz : t.val = 0
    · rw [PhiS1_castSucc V c t, PhiS1_zero V c _ _ hz, PhiA1_eq]; unfold otherScoped
      iintro ⟨⟨⟨Q1, Q2, Q3, Q4, Q5, Q6, Q7, Q8, Q9, Q10, Q11, HS0, HS1, HS2⟩, Hg⟩, Ho, ⟨%d0, H0⟩, ⟨%d1, H1⟩, ⟨%d2, H2⟩, ⟨%d3, H3⟩, ⟨%d4, H4⟩, ⟨%d5, H5⟩⟩
      iapply ((runA_at c t (c1_of t hA) (c2_of t (by omega)) (nc3_of t (by omega)) (nc4_of t (by omega)) (iblk1 V c 0 t) (iblk1 V c 1 t) (iblk1 V c 2 t)).2.2.2 (iblk1 V c 3 t) (iblk1 V c 4 t) _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [Q1 Q2 Q3 Q4 Q5 Q6 Q7 Q8 Q9 Q10 Q11 HS0 HS1 HS2 Hg]
      · isplitl [Q1 Q2 Q3 Q4 Q5 Q6 Q7 Q8 Q9 Q10 Q11 HS0 HS1 HS2]
        · isplitl [Q1]; · iexact Q1
          isplitl [Q2]; · iexact Q2
          isplitl [Q3]; · iexact Q3
          isplitl [Q4]; · iexact Q4
          isplitl [Q5]; · iexact Q5
          isplitl [Q6]; · iexact Q6
          isplitl [Q7]; · iexact Q7
          isplitl [Q8]; · iexact Q8
          isplitl [Q9]; · iexact Q9
          isplitl [Q10]; · iexact Q10
          isplitl [Q11]; · iexact Q11
          isplitl [HS0]
          · unfold owns; iexists _; isplitr
            swap; · iexact HS0
            ipureintro; exact View.read_writes_of_cover _ _ _ _ _ (coverA_0 c t _ _ _ _ _ _ _)
          isplitl [HS1]
          · unfold owns; iexists _; isplitr
            swap; · iexact HS1
            ipureintro; exact View.read_writes_of_cover _ _ _ _ _ (coverA_1 c t _ _ _ _ _ _ _)
          unfold owns; iexists _; isplitr
          swap; · iexact HS2
          ipureintro; exact View.read_writes_of_cover _ _ _ _ _ (coverA_2 c t _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]; unfold otherScoped
      iintro ⟨⟨⟨Q1, Q2, Q3, Q4, Q5, Q6, Q7, Q8, Q9, Q10, Q11, HS0, HS1, HS2⟩, Hg⟩, Ho, ⟨%d0, H0⟩, ⟨%d1, H1⟩, ⟨%d2, H2⟩, ⟨%d3, H3⟩, ⟨%d4, H4⟩, ⟨%d5, H5⟩⟩
      iapply ((runA_at c t (c1_of t hA) (c2_of t (by omega)) (nc3_of t (by omega)) (nc4_of t (by omega)) (iblk1 V c 0 t) (iblk1 V c 1 t) (iblk1 V c 2 t)).2.2.2 (iblk1 V c 3 t) (iblk1 V c 4 t) _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      iintro ⟨H0, H1, H2, H3, H4, H5, ⟨%es0, HS0⟩, ⟨%es1, HS1⟩, ⟨%es2, HS2⟩⟩
      isplitl [Q1 Q2 Q3 Q4 Q5 Q6 Q7 Q8 Q9 Q10 Q11 HS0 HS1 HS2 Hg]
      · isplitl [Q1 Q2 Q3 Q4 Q5 Q6 Q7 Q8 Q9 Q10 Q11 HS0 HS1 HS2]
        · isplitl [Q1]; · iexact Q1
          isplitl [Q2]; · iexact Q2
          isplitl [Q3]; · iexact Q3
          isplitl [Q4]; · iexact Q4
          isplitl [Q5]; · iexact Q5
          isplitl [Q6]; · iexact Q6
          isplitl [Q7]; · iexact Q7
          isplitl [Q8]; · iexact Q8
          isplitl [Q9]; · iexact Q9
          isplitl [Q10]; · iexact Q10
          isplitl [Q11]; · iexact Q11
          isplitl [HS0]
          · unfold owns; iexists _; isplitr
            swap; · iexact HS0
            ipureintro; exact View.read_writes_of_cover _ _ _ _ _ (coverA_0 c t _ _ _ _ _ _ _)
          isplitl [HS1]
          · unfold owns; iexists _; isplitr
            swap; · iexact HS1
            ipureintro; exact View.read_writes_of_cover _ _ _ _ _ (coverA_1 c t _ _ _ _ _ _ _)
          unfold owns; iexists _; isplitr
          swap; · iexact HS2
          ipureintro; exact View.read_writes_of_cover _ _ _ _ _ (coverA_2 c t _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => hA (by rw [h])
    by_cases hB : t.val % 16 < 8
    · -- a later past tile
      rw [Dat.leavesExact_idle (dat1 V c) 5 t (idleAt1_5 t (nc4_of t (by omega))) (noFlush1_5 t (nc4_of t (by omega)))]
      rw [stAt_B V c t hA hB]
      unfold stB; (try dsimp only)
      rw [PhiS1_castSucc V c t, PhiS1_pos V c _ _ hz]; unfold otherScoped
      iintro ⟨⟨⟨Q1, Q2, Q3, Q4, Q5, Q6, Q7, Q8, Q9, Q10, Q11, HS0, HS1, HS2⟩, Hg⟩, Ho, ⟨%d0, H0⟩, ⟨%d1, H1⟩, ⟨%d2, H2⟩, ⟨%d3, H3⟩, ⟨%d4, H4⟩, ⟨%d5, H5⟩⟩
      iapply ((runB_at c t (nc1_of t hA) (c2_of t hB) (nc3_of t hB) (nc4_of t (by omega)) (iblk1 V c 0 t) (iblk1 V c 1 t) (iblk1 V c 2 t) (stPrev V c t)).2.2.2 (iblk1 V c 3 t) (iblk1 V c 4 t) _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [Q1 Q2 Q3 Q4 Q5 Q6 Q7 Q8 Q9 Q10 Q11 HS0 HS1 HS2 Hg]
      · isplitl [Q1 Q2 Q3 Q4 Q5 Q6 Q7 Q8 Q9 Q10 Q11 HS0 HS1 HS2]
        · isplitl [Q1]; · iexact Q1
          isplitl [Q2]; · iexact Q2
          isplitl [Q3]; · iexact Q3
          isplitl [Q4]; · iexact Q4
          isplitl [Q5]; · iexact Q5
          isplitl [Q6]; · iexact Q6
          isplitl [Q7]; · iexact Q7
          isplitl [Q8]; · iexact Q8
          isplitl [Q9]; · iexact Q9
          isplitl [Q10]; · iexact Q10
          isplitl [Q11]; · iexact Q11
          isplitl [HS0]
          · unfold owns; iexists _; isplitr
            swap; · iexact HS0
            ipureintro; exact View.read_writes_of_cover _ _ _ _ _ (coverB_0 c t _ _ _ _ _ _ _ _)
          isplitl [HS1]
          · unfold owns; iexists _; isplitr
            swap; · iexact HS1
            ipureintro; exact View.read_writes_of_cover _ _ _ _ _ (coverB_1 c t _ _ _ _ _ _ _ _)
          unfold owns; iexists _; isplitr
          swap; · iexact HS2
          ipureintro; exact View.read_writes_of_cover _ _ _ _ _ (coverB_2 c t _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · by_cases hD : t.val % 16 = 15
      · -- the last tile
        rw [show (dat1 V c).leavesExact 5 t = owns (c : Thread nD τ) (ms1_5 t) fullShare ((dat1 V c).after 5 t) from by
          unfold Dat.leavesExact; rw [liveAt1_5 t (c4_of t hD)], after1_5, outAt_D V c t hA hB hD]
        rw [stAt_D V c t hA hB hD]
        unfold stD outD; (try dsimp only)
        rw [PhiS1_castSucc V c t, PhiS1_pos V c _ _ hz]; unfold otherScoped
        iintro ⟨⟨⟨Q1, Q2, Q3, Q4, Q5, Q6, Q7, Q8, Q9, Q10, Q11, HS0, HS1, HS2⟩, Hg⟩, Ho, ⟨%d0, H0⟩, ⟨%d1, H1⟩, ⟨%d2, H2⟩, ⟨%d3, H3⟩, ⟨%d4, H4⟩, ⟨%d5, H5⟩⟩
        iapply ((runD_at c t (nc1_of t hA) (nc2_of t hB) (c3_of t hB) (c4_of t hD) (iblk1 V c 0 t) (iblk1 V c 3 t) (iblk1 V c 4 t) (stPrev V c t)).2.2.2.2 (iblk1 V c 1 t) (iblk1 V c 2 t) Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        iintro ⟨H0, H1, H2, H3, H4, ⟨%e5, H5⟩, ⟨%es0, HS0⟩, ⟨%es1, HS1⟩, ⟨%es2, HS2⟩⟩
        isplitl [Q1 Q2 Q3 Q4 Q5 Q6 Q7 Q8 Q9 Q10 Q11 HS0 HS1 HS2 Hg]
        · isplitl [Q1 Q2 Q3 Q4 Q5 Q6 Q7 Q8 Q9 Q10 Q11 HS0 HS1 HS2]
          · isplitl [Q1]; · iexact Q1
            isplitl [Q2]; · iexact Q2
            isplitl [Q3]; · iexact Q3
            isplitl [Q4]; · iexact Q4
            isplitl [Q5]; · iexact Q5
            isplitl [Q6]; · iexact Q6
            isplitl [Q7]; · iexact Q7
            isplitl [Q8]; · iexact Q8
            isplitl [Q9]; · iexact Q9
            isplitl [Q10]; · iexact Q10
            isplitl [Q11]; · iexact Q11
            isplitl [HS0]
            · unfold owns; iexists _; isplitr
              swap; · iexact HS0
              ipureintro; exact View.read_writes_of_cover _ _ _ _ _ (coverD_0 c t _ _ _ _ _ _ _ _)
            isplitl [HS1]
            · unfold owns; iexists _; isplitr
              swap; · iexact HS1
              ipureintro; exact View.read_writes_of_cover _ _ _ _ _ (coverD_1 c t _ _ _ _ _ _ _ _)
            unfold owns; iexists _; isplitr
            swap; · iexact HS2
            ipureintro; exact View.read_writes_of_cover _ _ _ _ _ (coverD_2 c t _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (coverD_5 c t _ _ _ _ _ _ _ _)
      · -- a middle new tile
        rw [Dat.leavesExact_idle (dat1 V c) 5 t (idleAt1_5 t (nc4_of t (by omega))) (noFlush1_5 t (nc4_of t (by omega)))]
        rw [stAt_C V c t hA hB hD]
        unfold stC; (try dsimp only)
        rw [PhiS1_castSucc V c t, PhiS1_pos V c _ _ hz]; unfold otherScoped
        iintro ⟨⟨⟨Q1, Q2, Q3, Q4, Q5, Q6, Q7, Q8, Q9, Q10, Q11, HS0, HS1, HS2⟩, Hg⟩, Ho, ⟨%d0, H0⟩, ⟨%d1, H1⟩, ⟨%d2, H2⟩, ⟨%d3, H3⟩, ⟨%d4, H4⟩, ⟨%d5, H5⟩⟩
        iapply ((runC_at c t (nc1_of t hA) (nc2_of t hB) (c3_of t hB) (nc4_of t hD) (iblk1 V c 0 t) (iblk1 V c 3 t) (iblk1 V c 4 t) (stPrev V c t)).2.2.2 (iblk1 V c 1 t) (iblk1 V c 2 t) _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%es0, HS0⟩, ⟨%es1, HS1⟩, ⟨%es2, HS2⟩⟩
        isplitl [Q1 Q2 Q3 Q4 Q5 Q6 Q7 Q8 Q9 Q10 Q11 HS0 HS1 HS2 Hg]
        · isplitl [Q1 Q2 Q3 Q4 Q5 Q6 Q7 Q8 Q9 Q10 Q11 HS0 HS1 HS2]
          · isplitl [Q1]; · iexact Q1
            isplitl [Q2]; · iexact Q2
            isplitl [Q3]; · iexact Q3
            isplitl [Q4]; · iexact Q4
            isplitl [Q5]; · iexact Q5
            isplitl [Q6]; · iexact Q6
            isplitl [Q7]; · iexact Q7
            isplitl [Q8]; · iexact Q8
            isplitl [Q9]; · iexact Q9
            isplitl [Q10]; · iexact Q10
            isplitl [Q11]; · iexact Q11
            isplitl [HS0]
            · unfold owns; iexists _; isplitr
              swap; · iexact HS0
              ipureintro; exact View.read_writes_of_cover _ _ _ _ _ (coverC_0 c t _ _ _ _ _ _ _ _)
            isplitl [HS1]
            · unfold owns; iexists _; isplitr
              swap; · iexact HS1
              ipureintro; exact View.read_writes_of_cover _ _ _ _ _ (coverC_1 c t _ _ _ _ _ _ _ _)
            unfold owns; iexists _; isplitr
            swap; · iexact HS2
            ipureintro; exact View.read_writes_of_cover _ _ _ _ _ (coverC_2 c t _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives that back: the scratch's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  unfold otherScoped
  iintro ⟨⟨Q1, Q2, Q3, Q4, Q5, Q6, Q7, Q8, Q9, Q10, Q11, HS0, HS1, HS2⟩, Hg⟩
  isplitl [Q1 Q2 Q3 Q4 Q5 Q6 Q7 Q8 Q9 Q10 Q11 HS0 HS1 HS2]
  · isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [HS0]; · iexists _; iexact HS0
    isplitl [HS1]; · iexists _; iexact HS1
    iexists _; iexact HS2
  iexact Hg

end Cert.KernelIdeal.Hand

end
-- ==== Proof.KI.Run.lean ====
import proofs.«127725_j2052994367817_2_alg».proof.Proof.KI.R0Body
import proofs.«127725_j2052994367817_2_alg».proof.Proof.KI.R1Body

/-! # The run of @main: two kernel regions among host stretches

@main is a stretch of host operations (three roundings to bf16 and a reshape), the projection kernel's region, a
second stretch (three reshapes), and the attention kernel's region. This file follows the TensorCore's buffer
contents through those four segments as a fold from the launch memory, instantiates each region's proof data at
the contents it is entered from, and runs the segments: every weakly fair execution terminates and the final memory
holds, at every unscoped buffer, the fold's last value (`run_all`). Read at the argument arrays — which no host
operation and no region writes — that is the frame claim (`frame`); read at the attention kernel's output array it
is what its pipeline leaves there (`run_v8`). -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host operation and no region writes one (region 1 reads two of them
    through input windows, whose arrays a pipeline leaves as entered), so the fold at an argument's buffer walks
    back to the launch memory -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 1).trans (((dat1 (V3 m ρ) c).arrAt_in 1 rfl _).trans (A_eq1 (V3 m ρ) c 1))
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := (W4_arr m ρ c 2).trans (((dat1 (V3 m ρ) c).arrAt_in 2 rfl _).trans (A_eq1 (V3 m ρ) c 2))
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first host stretch allocates a buffer. -/
theorem hostOps0_fresh : (hostOps0 : List (HloOp τ sig (Elt F))).Forall fun op => op.fresh = ∅ := by
  simp only [List.Forall]; repeat' constructor
/-- No operation of the second host stretch allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W4`, the
    generator register at some state. -/
abbrev Tₙ (c : Dev nD) : sProp 𝕄 := iprop(StableHlo.held (c : Thread nD τ) (Pipeline.ucRefs τ sig) (W4 m ρ c) ∗ ∃ r, prngReg c r)

/-! ## The regions as segments

Each region is entered from every unscoped buffer at its entry contents and left at its exit contents: its arrays
split out of the unscoped buffers and put back at what the pipeline leaves; the generator register and the scoped
buffers no window stages go into the pipeline's invariant at the first point and come back at the last (for region
1, whose invariant tracks the scratch buffers, through `hin1` / `hout1`); nothing owed; no semaphore of the
kernel's own. -/

-- `iapply` of a library lemma stated over `pin pcs a p` unifies with the pinned configuration only when unification may
-- unfold plain definitions in a metavariable's type
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show (Pipeline.ΦA spec1 c : sProp 𝕄) ⊢ (pdats m ρ 1 c).Φ 0 from hin1 (V3 m ρ) c)
    unfold Pipeline.ΦA
    iintro ⟨Hp, -, Hr⟩
    isplitl [Hr]; · iexact Hr
    iexact Hp
  hout c := by
    rw [Pipeline.ownSems0_none]
    refine (show (pdats m ρ 1 c).Φ (Fin.last _) ⊢ (Pipeline.ΦA spec1 c : sProp 𝕄) from hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state holds, at every unscoped buffer of every core, the
    fold's last value `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

/-- THE FRAME at any `F`: @main runs and every argument array ends as launched — `run_all` read at the arguments. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c)⟩) (run_all m ρ)

/-- @main runs, and the attention kernel's output array ends at what its pipeline leaves there from the contents
    region 1 is entered with (`V3`), every argument array as launched. -/
theorem run_v8 : θ_run defs (onTc (τ := τ) (main (F := F))) ⟨m, fun _ => 0, ρ⟩ (fun r => ∀ c : Dev nD,
      r.2.mem ((c.tc : Thread nD τ).loc main_v8) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v8 (by decide))).trans (W4_arr m ρ c 5),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c)⟩) (run_all m ρ)

end Cert.KernelIdeal.Hand

end
-- ==== Proof.KI.Val0.lean ====
/- The projection kernel's value at the ideal instance: each of its three output arrays, after the grid's sixteen
   points have written their row blocks back, is the product of the activations (as the region finds them, one row
   per (batch, position) pair) by a weight matrix transposed — entry (r, e') is the sum over e of x[r, e] · W[e', e]. -/
import proofs.«127725_j2052994367817_2_alg».proof.Proof.KI.R0Body
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! ## The body's products at an index -/

theorem lhs0_0 (i : S512x2048.Idx) (q : (dot_S512x2048_S2048x2048_S512x2048_1_1_0_0_n_n).contr.Idx) :
    ((dot_S512x2048_S2048x2048_S512x2048_1_1_0_0_n_n).lhsIdx i q 0).val = (i 0).val := by
  unfold DotDims.lhsIdx
  rw [dif_neg (show ¬(0 : Fin S512x2048.rank) ∈ (dot_S512x2048_S2048x2048_S512x2048_1_1_0_0_n_n).lhsBatch by decide),
    dif_pos (show (0 : Fin S512x2048.rank) ∈ (dot_S512x2048_S2048x2048_S512x2048_1_1_0_0_n_n).lhsNonContracting by decide)]
  rfl
theorem lhs0_1 (i : S512x2048.Idx) (q : (dot_S512x2048_S2048x2048_S512x2048_1_1_0_0_n_n).contr.Idx) :
    ((dot_S512x2048_S2048x2048_S512x2048_1_1_0_0_n_n).lhsIdx i q 1).val = (q ⟨0, by decide⟩).val :=
  (dot_S512x2048_S2048x2048_S512x2048_1_1_0_0_n_n).lhsIdx_val_of_single rfl i q
theorem rhs0_0 (i : S512x2048.Idx) (q : (dot_S512x2048_S2048x2048_S512x2048_1_1_0_0_n_n).contr.Idx) :
    ((dot_S512x2048_S2048x2048_S512x2048_1_1_0_0_n_n).rhsIdx i q 0).val = (i 1).val := by
  unfold DotDims.rhsIdx
  rw [dif_neg (show ¬(0 : Fin S2048x2048.rank) ∈ (dot_S512x2048_S2048x2048_S512x2048_1_1_0_0_n_n).rhsBatch by decide),
    dif_pos (show (0 : Fin S2048x2048.rank) ∈ (dot_S512x2048_S2048x2048_S512x2048_1_1_0_0_n_n).rhsNonContracting by decide)]
  rfl
theorem rhs0_1 (i : S512x2048.Idx) (q : (dot_S512x2048_S2048x2048_S512x2048_1_1_0_0_n_n).contr.Idx) :
    ((dot_S512x2048_S2048x2048_S512x2048_1_1_0_0_n_n).rhsIdx i q 1).val = (q ⟨0, by decide⟩).val :=
  (dot_S512x2048_S2048x2048_S512x2048_1_1_0_0_n_n).rhsIdx_val_of_single rfl i q

/-- The matrix product into a zero accumulator, at (p, j): both operands are contracted along their second axis, so
    the entry is the sum over e of x[p, e] · w[j, e]. -/
theorem mm0_apply (x : FVec Ideal S512x2048 .bf16) (w : FVec Ideal S2048x2048 .bf16) (p : Fin 512) (j : Fin 2048) :
    FloatOps.matmul dot_S512x2048_S2048x2048_S512x2048_1_1_0_0_n_n none x w (constant S512x2048 .f32 0x00000000#32) (ix2 p j)
      = ∑ e : Fin 2048, x (ix2 p e) * w (ix2 j e) := by
  rw [Ideal.matmul_constant_zero_apply, ← Equiv.sum_comp (contrEquiv1 dot_S512x2048_S2048x2048_S512x2048_1_1_0_0_n_n 2048 rfl rfl).symm]
  refine Finset.sum_congr rfl fun k _ => ?_
  have hk := contrEquiv1_symm_val dot_S512x2048_S2048x2048_S512x2048_1_1_0_0_n_n 2048 rfl rfl k
  have el : (dot_S512x2048_S2048x2048_S512x2048_1_1_0_0_n_n).lhsIdx (ix2 p j) ((contrEquiv1 dot_S512x2048_S2048x2048_S512x2048_1_1_0_0_n_n 2048 rfl rfl).symm k) = ix2 p k := funext fun a => Fin.ext (by
    match a with
    | ⟨0, _⟩ => exact lhs0_0 _ _
    | ⟨1, _⟩ => exact (lhs0_1 _ _).trans hk)
  have er : (dot_S512x2048_S2048x2048_S512x2048_1_1_0_0_n_n).rhsIdx (ix2 p j) ((contrEquiv1 dot_S512x2048_S2048x2048_S512x2048_1_1_0_0_n_n 2048 rfl rfl).symm k) = ix2 j k := funext fun a => Fin.ext (by
    match a with
    | ⟨0, _⟩ => exact rhs0_0 _ _
    | ⟨1, _⟩ => exact (rhs0_1 _ _).trans hk)
  rw [el, er]

/-- The first stored product at an index: the changes of format are the identity at the ideal values. -/
theorem pay2_at (x0 : Vec Ideal S512x2048 .f32) (w : Vec Ideal S2048x2048 .bf16) (y : S512x2048.Idx) :
    k0_pay2 (F := Ideal) x0 w y = ∑ e : Fin 2048, x0 (ix2 (y 0) e) * w (ix2 (y 1) e) := by
  obtain ⟨p, q, rfl⟩ : ∃ (p : Fin 512) (q : Fin 2048), y = ix2 p q := ⟨y 0, y 1, eq_ix2 y⟩
  unfold k0_pay2 k0_pay1
  simp only [shapeCast_self]
  exact mm0_apply x0 w p q
/-- The second stored product at an index. -/
theorem pay3_at (x0 : Vec Ideal S512x2048 .f32) (w : Vec Ideal S2048x2048 .bf16) (y : S512x2048.Idx) :
    k0_pay3 (F := Ideal) x0 w y = ∑ e : Fin 2048, x0 (ix2 (y 0) e) * w (ix2 (y 1) e) := by
  obtain ⟨p, q, rfl⟩ : ∃ (p : Fin 512) (q : Fin 2048), y = ix2 p q := ⟨y 0, y 1, eq_ix2 y⟩
  unfold k0_pay3 k0_pay1
  simp only [shapeCast_self]
  exact mm0_apply x0 w p q
/-- The third stored product at an index. -/
theorem pay4_at (x0 : Vec Ideal S512x2048 .f32) (w : Vec Ideal S2048x2048 .bf16) (y : S512x2048.Idx) :
    k0_pay4 (F := Ideal) x0 w y = ∑ e : Fin 2048, x0 (ix2 (y 0) e) * w (ix2 (y 1) e) := by
  obtain ⟨p, q, rfl⟩ : ∃ (p : Fin 512) (q : Fin 2048), y = ix2 p q := ⟨y 0, y 1, eq_ix2 y⟩
  unfold k0_pay4 k0_pay1
  simp only [shapeCast_self]
  exact mm0_apply x0 w p q

/-! ## The blocks -/

-- the TensorCore's buffer contents when the region is entered, at the ideal values
variable (V : (c : Dev nD) → (b : Ref sig .tc) → Buf (Elt Ideal) ((c : Thread nD τ).loc b))

theorem hz0 : (![0, 0] : Fin 2 → Nat) = fun _ => 0 := funext fun a => by fin_cases a <;> rfl

/-- The index maps, decided over the sixteen points: the activations' and each output's block index is the point
    on the row axis and zero on the column axis; each weight matrix is its one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The product of the row array X by W transposed: entry (r, e') is the sum over e of X[r, e] · W[e', e]. -/
def projT (X : S8192x2048.Idx → EReal) (W : S2048x2048.Idx → EReal) : S8192x2048.Idx → EReal :=
  fun i => ∑ e : Fin 2048, X (ix2 (i 0) e) * W (ix2 (i 1) e)

/-- The activations' block at point t is rows 512 t … 512 t + 511 of the array. -/
theorem iblk0_0_apply (c : Dev nD) (t : Fin cfg0.N) (x : S512x2048.Idx) (k : S8192x2048.Idx)
    (hk0 : (k 0).val = 512 * t.val + (x 0).val) (hk1 : (k 1).val = (x 1).val) :
    (iblk0 V c 0 t : Vec Ideal S512x2048 .f32) x = (V c main_v3 : S8192x2048.Idx → EReal) k := by
  obtain ⟨e0, e1, -⟩ := idx_facts0 t
  unfold iblk0
  rw [View.read_apply]
  show V c main_v3 _ = V c main_v3 _
  refine congrArg (V c main_v3) (funext fun a => Fin.ext ?_)
  match a with
  | ⟨0, _⟩ => show win0_0.index t (0 : Fin 2) * 512 + 1 * (x 0).val = (k 0).val; rw [e0, hk0]; omega
  | ⟨1, _⟩ => show win0_0.index t (1 : Fin 2) * 2048 + 1 * (x 1).val = (k 1).val; rw [e1, hk1]; omega

/-- Each weight matrix's one block is the matrix. -/
theorem iblk0_1_apply (c : Dev nD) (t : Fin cfg0.N) (x k : S2048x2048.Idx)
    (hk0 : (k 0).val = (x 0).val) (hk1 : (k 1).val = (x 1).val) :
    (iblk0 V c 1 t : Vec Ideal S2048x2048 .bf16) x = (V c main_v0 : S2048x2048.Idx → EReal) k := by
  obtain ⟨-, -, e0, e1, -⟩ := idx_facts0 t
  unfold iblk0
  rw [View.read_apply]
  show V c main_v0 _ = V c main_v0 _
  refine congrArg (V c main_v0) (funext fun a => Fin.ext ?_)
  match a with
  | ⟨0, _⟩ => show win0_1.index t (0 : Fin 2) * 2048 + 1 * (x 0).val = (k 0).val; rw [e0, hk0]; omega
  | ⟨1, _⟩ => show win0_1.index t (1 : Fin 2) * 2048 + 1 * (x 1).val = (k 1).val; rw [e1, hk1]; omega
theorem iblk0_2_apply (c : Dev nD) (t : Fin cfg0.N) (x k : S2048x2048.Idx)
    (hk0 : (k 0).val = (x 0).val) (hk1 : (k 1).val = (x 1).val) :
    (iblk0 V c 2 t : Vec Ideal S2048x2048 .bf16) x = (V c main_v1 : S2048x2048.Idx → EReal) k := by
  obtain ⟨-, -, -, -, e0, e1, -⟩ := idx_facts0 t
  unfold iblk0
  rw [View.read_apply]
  show V c main_v1 _ = V c main_v1 _
  refine congrArg (V c main_v1) (funext fun a => Fin.ext ?_)
  match a with
  | ⟨0, _⟩ => show win0_2.index t (0 : Fin 2) * 2048 + 1 * (x 0).val = (k 0).val; rw [e0, hk0]; omega
  | ⟨1, _⟩ => show win0_2.index t (1 : Fin 2) * 2048 + 1 * (x 1).val = (k 1).val; rw [e1, hk1]; omega
theorem iblk0_3_apply (c : Dev nD) (t : Fin cfg0.N) (x k : S2048x2048.Idx)
    (hk0 : (k 0).val = (x 0).val) (hk1 : (k 1).val = (x 1).val) :
    (iblk0 V c 3 t : Vec Ideal S2048x2048 .bf16) x = (V c main_v2 : S2048x2048.Idx → EReal) k := by
  obtain ⟨-, -, -, -, -, -, e0, e1, -⟩ := idx_facts0 t
  unfold iblk0
  rw [View.read_apply]
  show V c main_v2 _ = V c main_v2 _
  refine congrArg (V c main_v2) (funext fun a => Fin.ext ?_)
  match a with
  | ⟨0, _⟩ => show win0_3.index t (0 : Fin 2) * 2048 + 1 * (x 0).val = (k 0).val; rw [e0, hk0]; omega
  | ⟨1, _⟩ => show win0_3.index t (1 : Fin 2) * 2048 + 1 * (x 1).val = (k 1).val; rw [e1, hk1]; omega

/-! ## What a point writes back, and the arrays after the grid -/

/-- What point t writes back to the first output is block t of the product by the first weight matrix. -/
theorem flushed0_4_eq (c : Dev nD) (t : Fin cfg0.N) :
    (dat0 (F := Ideal) V c).flushed 4 t
      = ((cfg0.win 4).blk t).view.read (Elt Ideal) (projT (V c main_v3) (V c main_v0)) := by
  show (cfg0.win 4).cut (grid0.coords t) ((dat0 V c).after 4 t) = _
  rw [after0_4]
  unfold out0_4
  rw [View.canon_unit_zero hz0]
  simp only [View.ld_unit_zero (S := S512x2048) hz0, View.ld_unit_zero (S := S2048x2048) hz0]
  obtain ⟨-, -, -, -, -, -, -, -, e0, e1, -⟩ := idx_facts0 t
  funext j
  show k0_pay2 (F := Ideal) (iblk0 V c 0 t) (iblk0 V c 1 t) j
    = projT (V c main_v3) (V c main_v0) (((cfg0.win 4).blk t).view.emb j)
  refine (pay2_at _ _ j).trans ?_
  unfold projT
  refine Finset.sum_congr rfl fun e _ => ?_
  have hj0 : (j 0).val < 512 := (j 0).isLt
  have hj1 : (j 1).val < 2048 := (j 1).isLt
  refine congrArg₂ (· * ·) (iblk0_0_apply V c t _ _ ?_ rfl) (iblk0_1_apply V c t _ _ ?_ rfl)
  · show win0_4.index t (0 : Fin 2) * 512 + 1 * (j 0).val = 512 * t.val + (j 0).val
    rw [e0]; omega
  · show win0_4.index t (1 : Fin 2) * 2048 + 1 * (j 1).val = (j 1).val
    rw [e1]; omega

/-- What point t writes back to the second output is block t of the product by the second weight matrix. -/
theorem flushed0_5_eq (c : Dev nD) (t : Fin cfg0.N) :
    (dat0 (F := Ideal) V c).flushed 5 t
      = ((cfg0.win 5).blk t).view.read (Elt Ideal) (projT (V c main_v3) (V c main_v1)) := by
  show (cfg0.win 5).cut (grid0.coords t) ((dat0 V c).after 5 t) = _
  rw [after0_5]
  unfold out0_5
  rw [View.canon_unit_zero hz0]
  simp only [View.ld_unit_zero (S := S512x2048) hz0, View.ld_unit_zero (S := S2048x2048) hz0]
  obtain ⟨-, -, -, -, -, -, -, -, -, -, e0, e1, -⟩ := idx_facts0 t
  funext j
  show k0_pay3 (F := Ideal) (iblk0 V c 0 t) (iblk0 V c 2 t) j
    = projT (V c main_v3) (V c main_v1) (((cfg0.win 5).blk t).view.emb j)
  refine (pay3_at _ _ j).trans ?_
  unfold projT
  refine Finset.sum_congr rfl fun e _ => ?_
  have hj0 : (j 0).val < 512 := (j 0).isLt
  have hj1 : (j 1).val < 2048 := (j 1).isLt
  refine congrArg₂ (· * ·) (iblk0_0_apply V c t _ _ ?_ rfl) (iblk0_2_apply V c t _ _ ?_ rfl)
  · show win0_5.index t (0 : Fin 2) * 512 + 1 * (j 0).val = 512 * t.val + (j 0).val
    rw [e0]; omega
  · show win0_5.index t (1 : Fin 2) * 2048 + 1 * (j 1).val = (j 1).val
    rw [e1]; omega

/-- What point t writes back to the third output is block t of the product by the third weight matrix. -/
theorem flushed0_6_eq (c : Dev nD) (t : Fin cfg0.N) :
    (dat0 (F := Ideal) V c).flushed 6 t
      = ((cfg0.win 6).blk t).view.read (Elt Ideal) (projT (V c main_v3) (V c main_v2)) := by
  show (cfg0.win 6).cut (grid0.coords t) ((dat0 V c).after 6 t) = _
  rw [after0_6]
  unfold out0_6
  rw [View.canon_unit_zero hz0]
  simp only [View.ld_unit_zero (S := S512x2048) hz0, View.ld_unit_zero (S := S2048x2048) hz0]
  obtain ⟨-, -, -, -, -, -, -, -, -, -, -, -, e0, e1⟩ := idx_facts0 t
  funext j
  show k0_pay4 (F := Ideal) (iblk0 V c 0 t) (iblk0 V c 3 t) j
    = projT (V c main_v3) (V c main_v2) (((cfg0.win 6).blk t).view.emb j)
  refine (pay4_at _ _ j).trans ?_
  unfold projT
  refine Finset.sum_congr rfl fun e _ => ?_
  have hj0 : (j 0).val < 512 := (j 0).isLt
  have hj1 : (j 1).val < 2048 := (j 1).isLt
  refine congrArg₂ (· * ·) (iblk0_0_apply V c t _ _ ?_ rfl) (iblk0_3_apply V c t _ _ ?_ rfl)
  · show win0_6.index t (0 : Fin 2) * 512 + 1 * (j 0).val = 512 * t.val + (j 0).val
    rw [e0]; omega
  · show win0_6.index t (1 : Fin 2) * 2048 + 1 * (j 1).val = (j 1).val
    rw [e1]; omega

/-- An index of an output array is in point t's block iff each coordinate is in the block's range on its axis. -/
theorem mem_blk0_4 (t : Fin cfg0.N) (i : S8192x2048.Idx) :
    i ∈ ((cfg0.win 4).blk t).view.set ↔ ∀ a : Fin 2, win0_4.index t a * S512x2048.size a ≤ (i a).val
      ∧ (i a).val < win0_4.index t a * S512x2048.size a + S512x2048.size a := by
  show i ∈ ((View.whole main_v4_0).slice (win0_4.rect t)).set ↔ _
  rw [View.set_slice_whole, Rect.mem_set_unit]
  exact Iff.rfl
theorem mem_blk0_5 (t : Fin cfg0.N) (i : S8192x2048.Idx) :
    i ∈ ((cfg0.win 5).blk t).view.set ↔ ∀ a : Fin 2, win0_5.index t a * S512x2048.size a ≤ (i a).val
      ∧ (i a).val < win0_5.index t a * S512x2048.size a + S512x2048.size a := by
  show i ∈ ((View.whole main_v4_1).slice (win0_5.rect t)).set ↔ _
  rw [View.set_slice_whole, Rect.mem_set_unit]
  exact Iff.rfl
theorem mem_blk0_6 (t : Fin cfg0.N) (i : S8192x2048.Idx) :
    i ∈ ((cfg0.win 6).blk t).view.set ↔ ∀ a : Fin 2, win0_6.index t a * S512x2048.size a ≤ (i a).val
      ∧ (i a).val < win0_6.index t a * S512x2048.size a + S512x2048.size a := by
  show i ∈ ((View.whole main_v4_2).slice (win0_6.rect t)).set ↔ _
  rw [View.set_slice_whole, Rect.mem_set_unit]
  exact Iff.rfl

/-- Row r of an output array is in the block of point r / 512: the sixteen row blocks cover the array. -/
theorem cover0_4 (i : S8192x2048.Idx) :
    ∃ t : Fin cfg0.N, (cfg0.win 4).flush t = true ∧ i ∈ ((cfg0.win 4).blk t).view.set := by
  have hi0 : (i 0).val < 8192 := (i 0).isLt
  have hi1 : (i 1).val < 2048 := (i 1).isLt
  have hN : cfg0.N = 16 := N_0
  refine ⟨⟨(i 0).val / 512, by rw [hN]; omega⟩, flush0_4 _, ?_⟩
  rw [mem_blk0_4]
  obtain ⟨-, -, -, -, -, -, -, -, e0, e1, -⟩ := idx_facts0 ⟨(i 0).val / 512, by rw [hN]; omega⟩
  intro a
  match a with
  | ⟨0, _⟩ =>
    show win0_4.index _ (0 : Fin 2) * 512 ≤ (i 0).val ∧ (i 0).val < win0_4.index _ (0 : Fin 2) * 512 + 512
    rw [e0]; show (i 0).val / 512 * 512 ≤ (i 0).val ∧ (i 0).val < (i 0).val / 512 * 512 + 512; omega
  | ⟨1, _⟩ =>
    show win0_4.index _ (1 : Fin 2) * 2048 ≤ (i 1).val ∧ (i 1).val < win0_4.index _ (1 : Fin 2) * 2048 + 2048
    rw [e1]; omega
theorem cover0_5 (i : S8192x2048.Idx) :
    ∃ t : Fin cfg0.N, (cfg0.win 5).flush t = true ∧ i ∈ ((cfg0.win 5).blk t).view.set := by
  have hi0 : (i 0).val < 8192 := (i 0).isLt
  have hi1 : (i 1).val < 2048 := (i 1).isLt
  have hN : cfg0.N = 16 := N_0
  refine ⟨⟨(i 0).val / 512, by rw [hN]; omega⟩, flush0_5 _, ?_⟩
  rw [mem_blk0_5]
  obtain ⟨-, -, -, -, -, -, -, -, -, -, e0, e1, -⟩ := idx_facts0 ⟨(i 0).val / 512, by rw [hN]; omega⟩
  intro a
  match a with
  | ⟨0, _⟩ =>
    show win0_5.index _ (0 : Fin 2) * 512 ≤ (i 0).val ∧ (i 0).val < win0_5.index _ (0 : Fin 2) * 512 + 512
    rw [e0]; show (i 0).val / 512 * 512 ≤ (i 0).val ∧ (i 0).val < (i 0).val / 512 * 512 + 512; omega
  | ⟨1, _⟩ =>
    show win0_5.index _ (1 : Fin 2) * 2048 ≤ (i 1).val ∧ (i 1).val < win0_5.index _ (1 : Fin 2) * 2048 + 2048
    rw [e1]; omega
theorem cover0_6 (i : S8192x2048.Idx) :
    ∃ t : Fin cfg0.N, (cfg0.win 6).flush t = true ∧ i ∈ ((cfg0.win 6).blk t).view.set := by
  have hi0 : (i 0).val < 8192 := (i 0).isLt
  have hi1 : (i 1).val < 2048 := (i 1).isLt
  have hN : cfg0.N = 16 := N_0
  refine ⟨⟨(i 0).val / 512, by rw [hN]; omega⟩, flush0_6 _, ?_⟩
  rw [mem_blk0_6]
  obtain ⟨-, -, -, -, -, -, -, -, -, -, -, -, e0, e1⟩ := idx_facts0 ⟨(i 0).val / 512, by rw [hN]; omega⟩
  intro a
  match a with
  | ⟨0, _⟩ =>
    show win0_6.index _ (0 : Fin 2) * 512 ≤ (i 0).val ∧ (i 0).val < win0_6.index _ (0 : Fin 2) * 512 + 512
    rw [e0]; show (i 0).val / 512 * 512 ≤ (i 0).val ∧ (i 0).val < (i 0).val / 512 * 512 + 512; omega
  | ⟨1, _⟩ =>
    show win0_6.index _ (1 : Fin 2) * 2048 ≤ (i 1).val ∧ (i 1).val < win0_6.index _ (1 : Fin 2) * 2048 + 2048
    rw [e1]; omega

/-- After the grid the first output array is the product of the activations by the first weight matrix transposed. -/
theorem final0_4 (c : Dev nD) : (dat0 (F := Ideal) V c).arrAt 4 cfg0.N = projT (V c main_v3) (V c main_v0) :=
  (dat0 (F := Ideal) V c).arrAt_eq_of_cover 4 (projT (V c main_v3) (V c main_v0)) (fun t _ => flushed0_4_eq V c t) cover0_4
/-- The second output array: the product by the second weight matrix transposed. -/
theorem final0_5 (c : Dev nD) : (dat0 (F := Ideal) V c).arrAt 5 cfg0.N = projT (V c main_v3) (V c main_v1) :=
  (dat0 (F := Ideal) V c).arrAt_eq_of_cover 5 (projT (V c main_v3) (V c main_v1)) (fun t _ => flushed0_5_eq V c t) cover0_5
/-- The third output array: the product by the third weight matrix transposed. -/
theorem final0_6 (c : Dev nD) : (dat0 (F := Ideal) V c).arrAt 6 cfg0.N = projT (V c main_v3) (V c main_v2) :=
  (dat0 (F := Ideal) V c).arrAt_eq_of_cover 6 (projT (V c main_v3) (V c main_v2)) (fun t _ => flushed0_6_eq V c t) cover0_6

/-- The product read at row r and column e'. -/
theorem projT_apply (X : S8192x2048.Idx → EReal) (W : S2048x2048.Idx → EReal) (r : Fin 8192) (e' : Fin 2048) :
    projT X W (ix2 r e') = ∑ e : Fin 2048, X (ix2 r e) * W (ix2 e' e) := rfl

end Cert.KernelIdeal.Hand

end
-- ==== Proof.Spec.lean ====
/- The specification both programs are compared with: single-head attention of the projected queries over a
   key/value cache made of the past rows followed by the newly projected rows, as ONE function of the six
   argument arrays, entry by entry, over the extended reals. Nothing here mentions a program. -/
import Idealize.ShloMosaic.PureOps.Ideal
import Idealize.ShloMosaic.Lib.ValueIdx

noncomputable section

namespace Cert.Spec

open Idealize.ShloMosaic Idealize.ShloMosaic.ValueIdx

/-- A [4, 2048, 2048] array of extended reals (the activations, the past keys, the past values). -/
abbrev A3 : Type := (⟨3, ![4, 2048, 2048]⟩ : Shape).Idx → EReal
/-- A [2048, 2048] array of extended reals (a projection's weights, stored [out, in]). -/
abbrev A2 : Type := (⟨2, ![2048, 2048]⟩ : Shape).Idx → EReal

/-- The factor 2048^(-1/2) as both programs spell it: one binary32 word. -/
def scale : EReal := Ideal.ofBits .f32 0x3CB504F3#32
/-- Ten thousand, as a binary32 word. -/
def tenK : EReal := Ideal.ofBits .f32 0x461C4000#32

/-- The projection x Wᵀ: its entry (b, t, e) is the sum over d of x[b, t, d] · W[e, d]. -/
def proj (x : A3) (W : A2) (b : Fin 4) (t : Fin 2048) (e : Fin 2048) : EReal :=
  ∑ d : Fin 2048, x (ix3 b t d) * W (ix2 e d)

/-- Row kk of batch b's cache: rows 0 … 2047 are the past ones, rows 2048 … 4095 the new ones. -/
def cat (past : A3) (new : Fin 4 → Fin 2048 → Fin 2048 → EReal) (b : Fin 4) (kk : Fin 4096) (d : Fin 2048) : EReal :=
  if h : kk.val < 2048 then past (ix3 b ⟨kk.val, h⟩ d) else new b ⟨kk.val - 2048, by omega⟩ d

/-- The scaled score of query row q against cache row kk. -/
def score (x pk : A3) (Wq Wk : A2) (b : Fin 4) (q : Fin 2048) (kk : Fin 4096) : EReal :=
  (∑ d : Fin 2048, proj x Wq b q d * cat pk (proj x Wk) b kk d) * scale

/-- The cache's value row kk. -/
def value (x pv : A3) (Wv : A2) (b : Fin 4) (kk : Fin 4096) (d : Fin 2048) : EReal :=
  cat pv (proj x Wv) b kk d

/-- Rounding to four decimals: times ten thousand, to the nearest integer (ties to even), over ten thousand. -/
def round4 (y : EReal) : EReal :=
  Ideal.div (Ideal.liftRound Ideal.roundHalfEven (y * tenK)) tenK

/-- The attention output entry (b, q, d) in the plain softmax form: the weights are exp (s − max s) over their sum,
    and the output is the weighted sum of the value rows, rounded to four decimals. -/
def attn (x pk pv : A3) (Wq Wk Wv : A2) (b : Fin 4) (q : Fin 2048) (d : Fin 2048) : EReal :=
  round4 (∑ kk : Fin 4096,
    Ideal.div (Ideal.exp (score x pk Wq Wk b q kk - max ⊥ (Finset.univ.sup (score x pk Wq Wk b q))))
        (0 + ∑ k' : Fin 4096, Ideal.exp (score x pk Wq Wk b q k' - max ⊥ (Finset.univ.sup (score x pk Wq Wk b q))))
      * value x pv Wv b kk d)

end Cert.Spec

end
-- ==== Proof.KI.Val0Host.lean ====
/- The projection kernel's operands as the first host operations leave them, read back to the launch memory: the
   weights are the arguments (a change of format is the identity at the ideal values), the activations' row array is
   the [4, 2048, 2048] argument with its first two axes merged (row 2048 b + t is position t of batch b). So each
   output array of the projection kernel, entry by entry, is the specification's projection of the arguments. -/
import proofs.«127725_j2052994367817_2_alg».proof.Proof.KI.Val0
import proofs.«127725_j2052994367817_2_alg».proof.Proof.Spec
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx Idealize.ShloMosaic.StableHlo

-- the TensorCore's unscoped buffers at launch, at the ideal values
variable (U : Valuation τ sig (Elt Ideal))

/-- The first weight matrix as the projection kernel finds it is the argument. -/
theorem host0_v0 : (StableHlo.after (hostOps0 (F := Ideal)) U (Proc.devRef .tc main_v0) : S2048x2048.Idx → EReal)
    = (U (Proc.devRef .tc main_arg3) : S2048x2048.Idx → EReal) := by
  dsimp only [hostOps0]; after_results; rfl
/-- The second weight matrix likewise. -/
theorem host0_v1 : (StableHlo.after (hostOps0 (F := Ideal)) U (Proc.devRef .tc main_v1) : S2048x2048.Idx → EReal)
    = (U (Proc.devRef .tc main_arg4) : S2048x2048.Idx → EReal) := by
  dsimp only [hostOps0]; after_results; rfl
/-- The third weight matrix likewise. -/
theorem host0_v2 : (StableHlo.after (hostOps0 (F := Ideal)) U (Proc.devRef .tc main_v2) : S2048x2048.Idx → EReal)
    = (U (Proc.devRef .tc main_arg5) : S2048x2048.Idx → EReal) := by
  dsimp only [hostOps0]; after_results; rfl

/-- Row r of the activations' row array is position r mod 2048 of batch r / 2048. -/
theorem host0_v3_apply (r : Fin 8192) (e : Fin 2048) :
    (StableHlo.after (hostOps0 (F := Ideal)) U (Proc.devRef .tc main_v3) : S8192x2048.Idx → EReal) (ix2 r e)
      = (U (Proc.devRef .tc main_arg0) : S4x2048x2048.Idx → EReal)
          (ix3 (⟨r.val / 2048, by have := r.isLt; omega⟩ : Fin 4) (⟨r.val % 2048, Nat.mod_lt _ (by decide)⟩ : Fin 2048) e) := by
  have h : (StableHlo.after (hostOps0 (F := Ideal)) U (Proc.devRef .tc main_v3) : S8192x2048.Idx → EReal)
      = shapeCast S8192x2048 (U (Proc.devRef .tc main_arg0) : S4x2048x2048.Idx → EReal) shapeCasts_S4x2048x2048_S8192x2048 := by
    dsimp only [hostOps0]; after_results; rfl
  rw [h]
  refine shapeCast_apply (s := S4x2048x2048) (t := S8192x2048) _ _ _ _ ?_
  show (S4x2048x2048.rowMajor (ix3 (⟨r.val / 2048, by have := r.isLt; omega⟩ : Fin 4) (⟨r.val % 2048, Nat.mod_lt _ (by decide)⟩ : Fin 2048) e)).val
    = (S8192x2048.rowMajor (ix2 r e)).val
  rw [Shape.rowMajor_val_three, Shape.rowMajor_val_two]
  show (r.val / 2048 * 2048 + r.val % 2048) * 2048 + e.val = r.val * 2048 + e.val
  have := Nat.div_add_mod r.val 2048
  omega

/-- The product of the activations' row array by a weight matrix transposed, at row 2048 b + t, is the specification's
    projection at (b, t): the same sum over the model dimension. -/
theorem projT_host (X : S8192x2048.Idx → EReal) (A : S4x2048x2048.Idx → EReal) (W : S2048x2048.Idx → EReal)
    (hX : ∀ (r : Fin 8192) (e : Fin 2048), X (ix2 r e)
      = A (ix3 (⟨r.val / 2048, by have := r.isLt; omega⟩ : Fin 4) (⟨r.val % 2048, Nat.mod_lt _ (by decide)⟩ : Fin 2048) e))
    (b : Fin 4) (t e' : Fin 2048) :
    projT X W (ix2 (⟨2048 * b.val + t.val, by have := b.isLt; have := t.isLt; omega⟩ : Fin 8192) e') = Cert.Spec.proj A W b t e' := by
  rw [projT_apply]
  unfold Cert.Spec.proj
  refine Finset.sum_congr rfl fun e _ => ?_
  rw [hX]
  refine congrArg (fun i => A i * W (ix2 e' e)) ?_
  have hb := b.isLt
  have ht := t.isLt
  refine funext fun a => Fin.ext ?_
  match a with
  | ⟨0, _⟩ => show (2048 * b.val + t.val) / 2048 = b.val; omega
  | ⟨1, _⟩ => show (2048 * b.val + t.val) % 2048 = t.val; omega
  | ⟨2, _⟩ => rfl

/-- The query projection as the kernel computes it, at row 2048 b + t, is the specification's. -/
theorem q2_eq (b : Fin 4) (t e' : Fin 2048) :
    projT (StableHlo.after (hostOps0 (F := Ideal)) U (Proc.devRef .tc main_v3)) (StableHlo.after (hostOps0 (F := Ideal)) U (Proc.devRef .tc main_v0))
        (ix2 (⟨2048 * b.val + t.val, by have := b.isLt; have := t.isLt; omega⟩ : Fin 8192) e')
      = Cert.Spec.proj (U (Proc.devRef .tc main_arg0)) (U (Proc.devRef .tc main_arg3)) b t e' := by
  rw [host0_v0]
  exact projT_host _ _ _ (host0_v3_apply U) b t e'
/-- The key projection likewise. -/
theorem k2_eq (b : Fin 4) (t e' : Fin 2048) :
    projT (StableHlo.after (hostOps0 (F := Ideal)) U (Proc.devRef .tc main_v3)) (StableHlo.after (hostOps0 (F := Ideal)) U (Proc.devRef .tc main_v1))
        (ix2 (⟨2048 * b.val + t.val, by have := b.isLt; have := t.isLt; omega⟩ : Fin 8192) e')
      = Cert.Spec.proj (U (Proc.devRef .tc main_arg0)) (U (Proc.devRef .tc main_arg4)) b t e' := by
  rw [host0_v1]
  exact projT_host _ _ _ (host0_v3_apply U) b t e'
/-- The value projection likewise. -/
theorem v2_eq (b : Fin 4) (t e' : Fin 2048) :
    projT (StableHlo.after (hostOps0 (F := Ideal)) U (Proc.devRef .tc main_v3)) (StableHlo.after (hostOps0 (F := Ideal)) U (Proc.devRef .tc main_v2))
        (ix2 (⟨2048 * b.val + t.val, by have := b.isLt; have := t.isLt; omega⟩ : Fin 8192) e')
      = Cert.Spec.proj (U (Proc.devRef .tc main_arg0)) (U (Proc.devRef .tc main_arg5)) b t e' := by
  rw [host0_v2]
  exact projT_host _ _ _ (host0_v3_apply U) b t e'

/-! ## The second host stretch: the three products re-read as [4, 2048, 2048] arrays -/

-- the TensorCore's unscoped buffers when the projection kernel has finished
variable (U2 : Valuation τ sig (Elt Ideal))

/-- Entry (b, t, e) of the query array the attention kernel reads is row 2048 b + t of the first product. -/
theorem host1_v5_apply (b : Fin 4) (t e : Fin 2048) :
    (StableHlo.after (hostOps1 (F := Ideal)) U2 (Proc.devRef .tc main_v5) : S4x2048x2048.Idx → EReal) (ix3 b t e)
      = (U2 (Proc.devRef .tc main_v4_0) : S8192x2048.Idx → EReal)
          (ix2 (⟨2048 * b.val + t.val, by have := b.isLt; have := t.isLt; omega⟩ : Fin 8192) e) := by
  have h : (StableHlo.after (hostOps1 (F := Ideal)) U2 (Proc.devRef .tc main_v5) : S4x2048x2048.Idx → EReal)
      = shapeCast S4x2048x2048 (U2 (Proc.devRef .tc main_v4_0) : S8192x2048.Idx → EReal) shapeCasts_S8192x2048_S4x2048x2048 := by
    dsimp only [hostOps1]; after_results; rfl
  rw [h]
  refine shapeCast_apply (s := S8192x2048) (t := S4x2048x2048) _ _ _ _ ?_
  show (S8192x2048.rowMajor (ix2 (⟨2048 * b.val + t.val, by have := b.isLt; have := t.isLt; omega⟩ : Fin 8192) e)).val
    = (S4x2048x2048.rowMajor (ix3 b t e)).val
  rw [Shape.rowMajor_val_three, Shape.rowMajor_val_two]
  show (2048 * b.val + t.val) * 2048 + e.val = (b.val * 2048 + t.val) * 2048 + e.val
  omega
/-- Entry (b, t, e) of the new-key array is row 2048 b + t of the second product. -/
theorem host1_v6_apply (b : Fin 4) (t e : Fin 2048) :
    (StableHlo.after (hostOps1 (F := Ideal)) U2 (Proc.devRef .tc main_v6) : S4x2048x2048.Idx → EReal) (ix3 b t e)
      = (U2 (Proc.devRef .tc main_v4_1) : S8192x2048.Idx → EReal)
          (ix2 (⟨2048 * b.val + t.val, by have := b.isLt; have := t.isLt; omega⟩ : Fin 8192) e) := by
  have h : (StableHlo.after (hostOps1 (F := Ideal)) U2 (Proc.devRef .tc main_v6) : S4x2048x2048.Idx → EReal)
      = shapeCast S4x2048x2048 (U2 (Proc.devRef .tc main_v4_1) : S8192x2048.Idx → EReal) shapeCasts_S8192x2048_S4x2048x2048 := by
    dsimp only [hostOps1]; after_results; rfl
  rw [h]
  refine shapeCast_apply (s := S8192x2048) (t := S4x2048x2048) _ _ _ _ ?_
  show (S8192x2048.rowMajor (ix2 (⟨2048 * b.val + t.val, by have := b.isLt; have := t.isLt; omega⟩ : Fin 8192) e)).val
    = (S4x2048x2048.rowMajor (ix3 b t e)).val
  rw [Shape.rowMajor_val_three, Shape.rowMajor_val_two]
  show (2048 * b.val + t.val) * 2048 + e.val = (b.val * 2048 + t.val) * 2048 + e.val
  omega
/-- Entry (b, t, e) of the new-value array is row 2048 b + t of the third product. -/
theorem host1_v7_apply (b : Fin 4) (t e : Fin 2048) :
    (StableHlo.after (hostOps1 (F := Ideal)) U2 (Proc.devRef .tc main_v7) : S4x2048x2048.Idx → EReal) (ix3 b t e)
      = (U2 (Proc.devRef .tc main_v4_2) : S8192x2048.Idx → EReal)
          (ix2 (⟨2048 * b.val + t.val, by have := b.isLt; have := t.isLt; omega⟩ : Fin 8192) e) := by
  have h : (StableHlo.after (hostOps1 (F := Ideal)) U2 (Proc.devRef .tc main_v7) : S4x2048x2048.Idx → EReal)
      = shapeCast S4x2048x2048 (U2 (Proc.devRef .tc main_v4_2) : S8192x2048.Idx → EReal) shapeCasts_S8192x2048_S4x2048x2048 := by
    dsimp only [hostOps1]; after_results; rfl
  rw [h]
  refine shapeCast_apply (s := S8192x2048) (t := S4x2048x2048) _ _ _ _ ?_
  show (S8192x2048.rowMajor (ix2 (⟨2048 * b.val + t.val, by have := b.isLt; have := t.isLt; omega⟩ : Fin 8192) e)).val
    = (S4x2048x2048.rowMajor (ix3 b t e)).val
  rw [Shape.rowMajor_val_three, Shape.rowMajor_val_two]
  show (2048 * b.val + t.val) * 2048 + e.val = (b.val * 2048 + t.val) * 2048 + e.val
  omega

/-- So, when the projection kernel left its first output at the product by the first weight matrix, the query array
    the attention kernel reads is the specification's query projection of the arguments. -/
theorem q_entry (h4 : (U2 (Proc.devRef .tc main_v4_0) : S8192x2048.Idx → EReal)
      = projT (StableHlo.after (hostOps0 (F := Ideal)) U (Proc.devRef .tc main_v3)) (StableHlo.after (hostOps0 (F := Ideal)) U (Proc.devRef .tc main_v0)))
    (b : Fin 4) (t e : Fin 2048) :
    (StableHlo.after (hostOps1 (F := Ideal)) U2 (Proc.devRef .tc main_v5) : S4x2048x2048.Idx → EReal) (ix3 b t e)
      = Cert.Spec.proj (U (Proc.devRef .tc main_arg0)) (U (Proc.devRef .tc main_arg3)) b t e := by
  rw [host1_v5_apply, h4, q2_eq]
/-- The new-key array likewise is the specification's key projection. -/
theorem k_entry (h5 : (U2 (Proc.devRef .tc main_v4_1) : S8192x2048.Idx → EReal)
      = projT (StableHlo.after (hostOps0 (F := Ideal)) U (Proc.devRef .tc main_v3)) (StableHlo.after (hostOps0 (F := Ideal)) U (Proc.devRef .tc main_v1)))
    (b : Fin 4) (t e : Fin 2048) :
    (StableHlo.after (hostOps1 (F := Ideal)) U2 (Proc.devRef .tc main_v6) : S4x2048x2048.Idx → EReal) (ix3 b t e)
      = Cert.Spec.proj (U (Proc.devRef .tc main_arg0)) (U (Proc.devRef .tc main_arg4)) b t e := by
  rw [host1_v6_apply, h5, k2_eq]
/-- The new-value array likewise is the specification's value projection. -/
theorem v_entry (h6 : (U2 (Proc.devRef .tc main_v4_2) : S8192x2048.Idx → EReal)
      = projT (StableHlo.after (hostOps0 (F := Ideal)) U (Proc.devRef .tc main_v3)) (StableHlo.after (hostOps0 (F := Ideal)) U (Proc.devRef .tc main_v2)))
    (b : Fin 4) (t e : Fin 2048) :
    (StableHlo.after (hostOps1 (F := Ideal)) U2 (Proc.devRef .tc main_v7) : S4x2048x2048.Idx → EReal) (ix3 b t e)
      = Cert.Spec.proj (U (Proc.devRef .tc main_arg0)) (U (Proc.devRef .tc main_arg5)) b t e := by
  rw [host1_v7_apply, h6, v2_eq]

end Cert.KernelIdeal.Hand

end
-- ==== Proof.KI.Val1Entry.lean ====
/- What the attention kernel finds in its operands when it is entered, read back to the launch memory: the query,
   new-key and new-value arrays are the specification's three projections of the arguments, and the past keys and
   past values are the arguments themselves (nothing before the attention kernel writes them). -/
import proofs.«127725_j2052994367817_2_alg».proof.Proof.KI.Run
import proofs.«127725_j2052994367817_2_alg».proof.Proof.KI.Val0Host

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The query array at the attention kernel's entry is the specification's query projection. -/
theorem entry_q (c : Dev nD) (b : Fin 4) (t e : Fin 2048) :
    (V3 m ρ c main_v5 : S4x2048x2048.Idx → EReal) (ix3 b t e)
      = Cert.Spec.proj (m ((c : Thread nD τ).loc main_arg0)) (m ((c : Thread nD τ).loc main_arg3)) b t e :=
  q_entry (W0 m ρ c) (W2 m ρ c) ((W2_arr m ρ c 4).trans (final0_4 (V1 m ρ) c)) b t e
/-- The new-key array at the attention kernel's entry is the specification's key projection. -/
theorem entry_k (c : Dev nD) (b : Fin 4) (t e : Fin 2048) :
    (V3 m ρ c main_v6 : S4x2048x2048.Idx → EReal) (ix3 b t e)
      = Cert.Spec.proj (m ((c : Thread nD τ).loc main_arg0)) (m ((c : Thread nD τ).loc main_arg4)) b t e :=
  k_entry (W0 m ρ c) (W2 m ρ c) ((W2_arr m ρ c 5).trans (final0_5 (V1 m ρ) c)) b t e
/-- The new-value array at the attention kernel's entry is the specification's value projection. -/
theorem entry_v (c : Dev nD) (b : Fin 4) (t e : Fin 2048) :
    (V3 m ρ c main_v7 : S4x2048x2048.Idx → EReal) (ix3 b t e)
      = Cert.Spec.proj (m ((c : Thread nD τ).loc main_arg0)) (m ((c : Thread nD τ).loc main_arg5)) b t e :=
  v_entry (W0 m ρ c) (W2 m ρ c) ((W2_arr m ρ c 6).trans (final0_6 (V1 m ρ) c)) b t e

/-- The past keys at the attention kernel's entry are the argument. -/
theorem entry_pk (c : Dev nD) : V3 m ρ c main_arg1 = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.Forall, StableHlo.reshape_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg1) := rfl
/-- The past values at the attention kernel's entry are the argument. -/
theorem entry_pv (c : Dev nD) : V3 m ρ c main_arg2 = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.Forall, StableHlo.reshape_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg2) := rfl

end Cert.KernelIdeal.Hand

end
-- ==== Proof.LibOnlineSoftmax.lean ====
import Idealize.ShloMosaic.PureOps.Ideal

/-!
# The online softmax recurrence equals the plain softmax-weighted sum

Float operations are read on the extended reals: a float is an `EReal`, sums, differences and
products are `EReal`'s, the exponential is `Ideal.exp` (it maps `⊥` to `0`) and the quotient is
`Ideal.div`.

Attention over a long row of keys can be computed tile by tile. Per query row one carries a running
maximum `m`, a running denominator `l` and a running numerator `a`, starting from `(⊥, 0, 0)`, and
for each tile of keys with scores `s k` and values `v k` one replaces them by

  m' = max m (sup_k s k),   α = exp (m - m'),
  l' = α * l + (0 + ∑ k, exp (s k - m')),
  a' = α * a + ∑ k, exp (s k - m') * v k,

and answers `a / l` at the end. When every score and value is finite this is the softmax-weighted sum
`∑ p, softmax(S) p * V p` over all keys at once: rescaling a partial sum of `exp (S p - m)` by
`exp (m - m')` gives the partial sum of `exp (S p - m')`, because `exp x * exp y = exp (x + y)`.
-/

namespace Cert.Lib.OnlineSoftmax

open Idealize.ShloMosaic
open scoped BigOperators

/-! ### The recurrence -/

section Defs
variable {τ : Type} [Fintype τ]

/-- One tile of the online recurrence on a state `(m, l, a)`: the new maximum is the old one joined
with the tile's scores, the old denominator and numerator are rescaled by `exp (m - m')` and the
tile's terms `exp (s k - m')`, respectively `exp (s k - m') * v k`, are added. -/
noncomputable def step (st : EReal × EReal × EReal) (s v : τ → EReal) : EReal × EReal × EReal :=
  (max st.1 (Finset.univ.sup s),
   Ideal.exp (st.1 - max st.1 (Finset.univ.sup s)) * st.2.1
     + (0 + ∑ k, Ideal.exp (s k - max st.1 (Finset.univ.sup s))),
   Ideal.exp (st.1 - max st.1 (Finset.univ.sup s)) * st.2.2
     + ∑ k, Ideal.exp (s k - max st.1 (Finset.univ.sup s)) * v k)

/-- The state before tile `j`: start from `(⊥, 0, 0)` and take one `step` per tile. -/
noncomputable def run {n : ℕ} (s v : Fin n → τ → EReal) : (j : ℕ) → j ≤ n → EReal × EReal × EReal
  | 0, _ => (⊥, 0, 0)
  | j + 1, h => step (run s v j (Nat.le_of_succ_le h)) (s ⟨j, h⟩) (v ⟨j, h⟩)

/-- Before the first tile the state is `(⊥, 0, 0)`. -/
theorem run_zero {n : ℕ} (s v : Fin n → τ → EReal) (h : 0 ≤ n) : run s v 0 h = (⊥, 0, 0) := rfl

/-- The state before tile `j + 1` is one step, on tile `j`, from the state before tile `j`. -/
theorem run_succ {n : ℕ} (s v : Fin n → τ → EReal) (j : ℕ) (h : j + 1 ≤ n) :
    run s v (j + 1) h = step (run s v j (Nat.le_of_succ_le h)) (s ⟨j, h⟩) (v ⟨j, h⟩) := rfl

end Defs

/-! ### The state that a finite set of keys determines -/

section Summary
variable {κ : Type}

/-- The state that the keys of a finite set `P` determine: the supremum `M` of their scores (`⊥` for no
key), the sum of `exp (S p - M)`, and the sum of `exp (S p - M) * V p`. For no key this is the initial
state `(⊥, 0, 0)` of the recurrence. -/
noncomputable def summary (P : Finset κ) (S V : κ → ℝ) : EReal × EReal × EReal :=
  (P.sup (fun p => (S p : EReal)),
   ∑ p ∈ P, Ideal.exp ((S p : EReal) - P.sup (fun p => (S p : EReal))),
   ∑ p ∈ P, Ideal.exp ((S p : EReal) - P.sup (fun p => (S p : EReal))) * (V p : EReal))

/-- No key: the initial state. -/
theorem summary_empty (S V : κ → ℝ) : summary (∅ : Finset κ) S V = (⊥, 0, 0) := by
  simp [summary]

/-- The coercion of a finite sum of reals is the sum of the coercions. -/
theorem coe_finset_sum (P : Finset κ) (f : κ → ℝ) :
    ((∑ p ∈ P, f p : ℝ) : EReal) = ∑ p ∈ P, (f p : EReal) := by
  classical
  refine Finset.induction_on P (by simp) ?_
  intro a s ha ih
  rw [Finset.sum_insert ha, Finset.sum_insert ha, EReal.coe_add, ih]

/-- Over a nonempty finite set the supremum of finite scores is finite: it is the real maximum. -/
theorem sup_coe (P : Finset κ) (hP : P.Nonempty) (S : κ → ℝ) :
    P.sup (fun p => (S p : EReal)) = ((P.sup' hP S : ℝ) : EReal) := by
  rw [← Finset.sup'_eq_sup hP]
  exact (Finset.comp_sup'_eq_sup'_comp hP (fun x : ℝ => (x : EReal))
    (fun x y => EReal.coe_strictMono.monotone.map_max)).symm

/-- Over a nonempty set of keys the state is finite: the real maximum `M`, the real sum of
`exp (S p - M)` and the real sum of `exp (S p - M) * V p`. -/
theorem summary_of_nonempty (P : Finset κ) (hP : P.Nonempty) (S V : κ → ℝ) :
    summary P S V =
      (((P.sup' hP S : ℝ) : EReal),
       ((∑ p ∈ P, Real.exp (S p - P.sup' hP S) : ℝ) : EReal),
       ((∑ p ∈ P, Real.exp (S p - P.sup' hP S) * V p : ℝ) : EReal)) := by
  unfold summary
  rw [sup_coe P hP S]
  refine Prod.ext rfl (Prod.ext ?_ ?_)
  · show _ = ((∑ p ∈ P, Real.exp (S p - P.sup' hP S) : ℝ) : EReal)
    rw [coe_finset_sum]
    refine Finset.sum_congr rfl (fun p _ => ?_)
    rw [← EReal.coe_sub, Ideal.exp_coe]
  · show _ = ((∑ p ∈ P, Real.exp (S p - P.sup' hP S) * V p : ℝ) : EReal)
    rw [coe_finset_sum]
    refine Finset.sum_congr rfl (fun p _ => ?_)
    rw [← EReal.coe_sub, Ideal.exp_coe, EReal.coe_mul]

/-- Rescaling: a partial sum taken relative to its own maximum `M`, times `exp (M - M')`, is the
partial sum relative to `M'` (for no key both sides are `0`). -/
theorem rescale (P : Finset κ) (S f : κ → ℝ) (M' : ℝ) :
    Ideal.exp (P.sup (fun p => (S p : EReal)) - (M' : EReal))
        * ∑ p ∈ P, Ideal.exp ((S p : EReal) - P.sup (fun p => (S p : EReal))) * (f p : EReal)
      = ∑ p ∈ P, Ideal.exp ((S p : EReal) - (M' : EReal)) * (f p : EReal) := by
  rcases P.eq_empty_or_nonempty with rfl | hP
  · simp
  · rw [sup_coe P hP S]
    have h1 : ∀ p, Ideal.exp ((S p : EReal) - ((P.sup' hP S : ℝ) : EReal)) * (f p : EReal)
        = ((Real.exp (S p - P.sup' hP S) * f p : ℝ) : EReal) := fun p => by
      rw [← EReal.coe_sub, Ideal.exp_coe, EReal.coe_mul]
    have h2 : ∀ p, Ideal.exp ((S p : EReal) - (M' : EReal)) * (f p : EReal)
        = ((Real.exp (S p - M') * f p : ℝ) : EReal) := fun p => by
      rw [← EReal.coe_sub, Ideal.exp_coe, EReal.coe_mul]
    simp only [h1, h2]
    rw [← coe_finset_sum, ← coe_finset_sum, ← EReal.coe_sub, Ideal.exp_coe, ← EReal.coe_mul]
    congr 1
    rw [Finset.mul_sum]
    refine Finset.sum_congr rfl (fun p _ => ?_)
    rw [← mul_assoc, ← Real.exp_add]
    congr 2
    ring

/-- One step of the recurrence, on a tile whose keys `ι k` are new, takes the state of `P` to the
state of `P` together with the tile. -/
theorem step_summary {τ : Type} [Fintype τ] [Nonempty τ] [DecidableEq κ] (P : Finset κ) (S V : κ → ℝ)
    (ι : τ ↪ κ) (hd : Disjoint P (Finset.univ.map ι)) :
    step (summary P S V) (fun k => (S (ι k) : EReal)) (fun k => (V (ι k) : EReal))
      = summary (P ∪ Finset.univ.map ι) S V := by
  have hP' : (P ∪ Finset.univ.map ι).Nonempty :=
    ⟨ι (Classical.arbitrary τ), Finset.mem_union_right _ (Finset.mem_map_of_mem _ (Finset.mem_univ _))⟩
  have hmax : max (P.sup (fun p => (S p : EReal))) (Finset.univ.sup (fun k => (S (ι k) : EReal)))
      = (P ∪ Finset.univ.map ι).sup (fun p => (S p : EReal)) := by
    rw [Finset.sup_union, Finset.sup_map]
    rfl
  simp only [step, summary]
  rw [hmax, sup_coe _ hP' S]
  refine Prod.ext rfl (Prod.ext ?_ ?_)
  · have h := rescale P S (fun _ => 1) ((P ∪ Finset.univ.map ι).sup' hP' S)
    simp only [EReal.coe_one, mul_one] at h
    simp only []
    rw [h, zero_add, Finset.sum_union hd, Finset.sum_map]
  · simp only []
    rw [rescale P S V, Finset.sum_union hd, Finset.sum_map]

/-- The quotient of the state's numerator by its denominator, over a nonempty set of keys, is the
real softmax-weighted sum. -/
theorem div_summary (P : Finset κ) (hP : P.Nonempty) (S V : κ → ℝ) :
    Ideal.div (summary P S V).2.2 (summary P S V).2.1
      = (((∑ p ∈ P, Real.exp (S p - P.sup' hP S) * V p)
            / (∑ p ∈ P, Real.exp (S p - P.sup' hP S)) : ℝ) : EReal) := by
  have hne : (∑ p ∈ P, Real.exp (S p - P.sup' hP S)) ≠ 0 :=
    (Finset.sum_pos (fun p _ => Real.exp_pos _) hP).ne'
  rw [summary_of_nonempty P hP S V]
  simp only []
  rw [Ideal.div_coe hne, ← EReal.coe_mul]
  congr 1
  rw [one_div, div_eq_mul_inv]

end Summary

/-! ### The recurrence computes the state of the keys seen so far -/

section Online
variable {n : ℕ} {τ : Type} [Fintype τ] [Nonempty τ]

/-- Before tile `j` the recurrence holds the state of the keys of the tiles before `j`. -/
theorem run_eq (s v : Fin n → τ → ℝ) (j : ℕ) (hj : j ≤ n) :
    run (fun i k => (s i k : EReal)) (fun i k => (v i k : EReal)) j hj
      = summary (Finset.univ.filter (fun p : Fin n × τ => p.1.val < j))
          (fun p => s p.1 p.2) (fun p => v p.1 p.2) := by
  induction j with
  | zero =>
    rw [run_zero]
    have h0 : Finset.univ.filter (fun p : Fin n × τ => p.1.val < 0) = ∅ :=
      Finset.filter_false_of_mem (fun p _ => Nat.not_lt_zero _)
    rw [h0, summary_empty]
  | succ j ih =>
    classical
    rw [run_succ, ih]
    let ι : τ ↪ Fin n × τ := ⟨fun k => (⟨j, hj⟩, k), fun a b h => (Prod.ext_iff.mp h).2⟩
    have hset : Finset.univ.filter (fun p : Fin n × τ => p.1.val < j + 1)
        = Finset.univ.filter (fun p : Fin n × τ => p.1.val < j) ∪ Finset.univ.map ι := by
      ext p
      simp only [Finset.mem_filter, Finset.mem_univ, true_and, Finset.mem_union, Finset.mem_map,
        Function.Embedding.coeFn_mk, ι]
      constructor
      · intro h
        rcases Nat.lt_succ_iff_lt_or_eq.mp h with h | h
        · exact Or.inl h
        · exact Or.inr ⟨p.2, Prod.ext (Fin.ext h.symm) rfl⟩
      · rintro (h | ⟨k, rfl⟩)
        · exact Nat.lt_succ_of_lt h
        · exact Nat.lt_succ_self j
    have hd : Disjoint (Finset.univ.filter (fun p : Fin n × τ => p.1.val < j)) (Finset.univ.map ι) := by
      rw [Finset.disjoint_left]
      intro p hp hq
      simp only [Finset.mem_filter, Finset.mem_univ, true_and] at hp
      simp only [Finset.mem_map, Finset.mem_univ, true_and, Function.Embedding.coeFn_mk, ι] at hq
      obtain ⟨k, rfl⟩ := hq
      exact Nat.lt_irrefl _ hp
    rw [hset]
    exact step_summary _ (fun p => s p.1 p.2) (fun p => v p.1 p.2) ι hd

/-- After at least one tile the state is finite: the real maximum `M` of the scores seen so far, the
real sum of `exp (s - M)` and the real sum of `exp (s - M) * v` over the keys seen so far. -/
theorem run_eq_real (s v : Fin n → τ → ℝ) (j : ℕ) (hj : j ≤ n)
    (hP : (Finset.univ.filter (fun p : Fin n × τ => p.1.val < j)).Nonempty) :
    run (fun i k => (s i k : EReal)) (fun i k => (v i k : EReal)) j hj
      = ((((Finset.univ.filter (fun p : Fin n × τ => p.1.val < j)).sup' hP
              (fun p => s p.1 p.2) : ℝ) : EReal),
         ((∑ p ∈ Finset.univ.filter (fun p : Fin n × τ => p.1.val < j),
              Real.exp (s p.1 p.2 - (Finset.univ.filter (fun p : Fin n × τ => p.1.val < j)).sup' hP
                (fun p => s p.1 p.2)) : ℝ) : EReal),
         ((∑ p ∈ Finset.univ.filter (fun p : Fin n × τ => p.1.val < j),
              Real.exp (s p.1 p.2 - (Finset.univ.filter (fun p : Fin n × τ => p.1.val < j)).sup' hP
                (fun p => s p.1 p.2)) * v p.1 p.2 : ℝ) : EReal)) := by
  rw [run_eq, summary_of_nonempty _ hP]

/-- After at least one tile some key has been seen. -/
theorem prefix_nonempty (j : ℕ) (hj : 0 < j) (hjn : j ≤ n) :
    (Finset.univ.filter (fun p : Fin n × τ => p.1.val < j)).Nonempty := by
  refine ⟨(⟨0, Nat.lt_of_lt_of_le hj hjn⟩, Classical.arbitrary τ), ?_⟩
  simp only [Finset.mem_filter, Finset.mem_univ, true_and]
  exact hj

/-- After all tiles, numerator over denominator is the softmax-weighted sum over all keys. -/
theorem online_final [NeZero n] (s v : Fin n → τ → ℝ) :
    Ideal.div (run (fun i k => (s i k : EReal)) (fun i k => (v i k : EReal)) n le_rfl).2.2
        (run (fun i k => (s i k : EReal)) (fun i k => (v i k : EReal)) n le_rfl).2.1
      = (((∑ p : Fin n × τ, Real.exp (s p.1 p.2
              - Finset.univ.sup' Finset.univ_nonempty (fun p : Fin n × τ => s p.1 p.2)) * v p.1 p.2)
            / (∑ p : Fin n × τ, Real.exp (s p.1 p.2
              - Finset.univ.sup' Finset.univ_nonempty (fun p : Fin n × τ => s p.1 p.2))) : ℝ) : EReal) := by
  have hall : Finset.univ.filter (fun p : Fin n × τ => p.1.val < n) = Finset.univ :=
    Finset.filter_true_of_mem (fun p _ => p.1.isLt)
  rw [run_eq, hall]
  exact div_summary Finset.univ Finset.univ_nonempty (fun p : Fin n × τ => s p.1 p.2) (fun p => v p.1 p.2)

end Online

/-! ### The plain softmax-weighted sum -/

section Reference
variable {κ : Type} [Fintype κ] [Nonempty κ]

/-- The maximum the reference takes, `max ⊥ (sup S)`, is the real maximum of the scores. -/
theorem ref_max (S : κ → ℝ) :
    max (⊥ : EReal) (Finset.univ.sup (fun kk => (S kk : EReal)))
      = ((Finset.univ.sup' Finset.univ_nonempty S : ℝ) : EReal) := by
  rw [max_eq_right bot_le, sup_coe _ Finset.univ_nonempty]

/-- The reference: weights `exp (S - M) / (0 + ∑ exp (S - M))` with `M = max ⊥ (sup S)`, times the
values, summed over all keys, is the real softmax-weighted sum. -/
theorem softmax_ref (S V : κ → ℝ) :
    ∑ kk, Ideal.div
          (Ideal.exp ((S kk : EReal) - max (⊥ : EReal) (Finset.univ.sup (fun kk => (S kk : EReal)))))
          (0 + ∑ kk', Ideal.exp ((S kk' : EReal)
              - max (⊥ : EReal) (Finset.univ.sup (fun kk => (S kk : EReal)))))
        * (V kk : EReal)
      = (((∑ kk, Real.exp (S kk - Finset.univ.sup' Finset.univ_nonempty S) * V kk)
            / (∑ kk, Real.exp (S kk - Finset.univ.sup' Finset.univ_nonempty S)) : ℝ) : EReal) := by
  rw [ref_max]
  generalize Finset.univ.sup' Finset.univ_nonempty S = M
  have hL : (0 : EReal) + ∑ kk', Ideal.exp ((S kk' : EReal) - (M : EReal))
      = ((∑ kk, Real.exp (S kk - M) : ℝ) : EReal) := by
    rw [zero_add, coe_finset_sum]
    refine Finset.sum_congr rfl (fun p _ => ?_)
    rw [← EReal.coe_sub, Ideal.exp_coe]
  have hne : (∑ kk, Real.exp (S kk - M)) ≠ 0 :=
    (Finset.sum_pos (fun p _ => Real.exp_pos _) Finset.univ_nonempty).ne'
  have hterm : ∀ kk, Ideal.div (Ideal.exp ((S kk : EReal) - (M : EReal)))
        ((∑ kk, Real.exp (S kk - M) : ℝ) : EReal) * (V kk : EReal)
      = ((Real.exp (S kk - M) * V kk / (∑ kk, Real.exp (S kk - M)) : ℝ) : EReal) := fun kk => by
    rw [Ideal.div_coe hne, ← EReal.coe_sub, Ideal.exp_coe, ← EReal.coe_mul, ← EReal.coe_mul]
    congr 1
    ring
  rw [hL]
  simp only [hterm]
  rw [← coe_finset_sum, ← Finset.sum_div]

end Reference

/-- The online recurrence over all tiles answers what the reference answers over all keys. -/
theorem online_eq_softmax {n : ℕ} {τ : Type} [Fintype τ] [Nonempty τ] [NeZero n] (s v : Fin n → τ → ℝ) :
    Ideal.div (run (fun i k => (s i k : EReal)) (fun i k => (v i k : EReal)) n le_rfl).2.2
        (run (fun i k => (s i k : EReal)) (fun i k => (v i k : EReal)) n le_rfl).2.1
      = ∑ p : Fin n × τ, Ideal.div
          (Ideal.exp ((s p.1 p.2 : EReal)
              - max (⊥ : EReal) (Finset.univ.sup (fun q : Fin n × τ => (s q.1 q.2 : EReal)))))
          (0 + ∑ q : Fin n × τ, Ideal.exp ((s q.1 q.2 : EReal)
              - max (⊥ : EReal) (Finset.univ.sup (fun q : Fin n × τ => (s q.1 q.2 : EReal)))))
        * (v p.1 p.2 : EReal) := by
  rw [online_final, softmax_ref (fun p : Fin n × τ => s p.1 p.2) (fun p => v p.1 p.2)]

/-! ### Keys indexed by another finite type -/

/-- The same when the keys are indexed by any finite type `κ` that the pairs (tile, position in the
tile) enumerate through a bijection `e`: the recurrence over the tiles `k ↦ S (e (i, k))` answers the
softmax-weighted sum over `κ`. -/
theorem online_eq_softmax_equiv {n : ℕ} {τ κ : Type} [Fintype τ] [Nonempty τ] [NeZero n] [Fintype κ]
    (e : Fin n × τ ≃ κ) (S V : κ → ℝ) :
    Ideal.div
        (run (fun i k => (S (e (i, k)) : EReal)) (fun i k => (V (e (i, k)) : EReal)) n le_rfl).2.2
        (run (fun i k => (S (e (i, k)) : EReal)) (fun i k => (V (e (i, k)) : EReal)) n le_rfl).2.1
      = ∑ kk : κ, Ideal.div
          (Ideal.exp ((S kk : EReal)
              - max (⊥ : EReal) (Finset.univ.sup (fun kk : κ => (S kk : EReal)))))
          (0 + ∑ kk' : κ, Ideal.exp ((S kk' : EReal)
              - max (⊥ : EReal) (Finset.univ.sup (fun kk : κ => (S kk : EReal)))))
        * (V kk : EReal) := by
  have hsup : Finset.univ.sup (fun q : Fin n × τ => (S (e (q.1, q.2)) : EReal))
      = Finset.univ.sup (fun kk : κ => (S kk : EReal)) := by
    rw [← Finset.map_univ_equiv e, Finset.sup_map]
    rfl
  refine (online_eq_softmax (fun i k => S (e (i, k))) (fun i k => V (e (i, k)))).trans ?_
  rw [hsup]
  have hden : ∑ q : Fin n × τ, Ideal.exp ((S (e (q.1, q.2)) : EReal)
        - max (⊥ : EReal) (Finset.univ.sup (fun kk : κ => (S kk : EReal))))
      = ∑ kk' : κ, Ideal.exp ((S kk' : EReal)
        - max (⊥ : EReal) (Finset.univ.sup (fun kk : κ => (S kk : EReal)))) :=
    Fintype.sum_equiv e _ _ (fun _ => rfl)
  rw [hden]
  exact Fintype.sum_equiv e _ _ (fun _ => rfl)

/-- The same with the keys on one flat axis of `N = n * T` positions, tile `i` holding the keys
`T * i + k` for `k < T`. -/
theorem online_eq_softmax_flat {n T N : ℕ} [NeZero n] [NeZero T] (hN : N = n * T) (S V : Fin N → ℝ)
    (s v : Fin n → Fin T → ℝ)
    (hs : ∀ (i : Fin n) (k : Fin T) (kk : Fin N), kk.val = T * i.val + k.val → s i k = S kk)
    (hv : ∀ (i : Fin n) (k : Fin T) (kk : Fin N), kk.val = T * i.val + k.val → v i k = V kk) :
    Ideal.div (run (fun i k => (s i k : EReal)) (fun i k => (v i k : EReal)) n le_rfl).2.2
        (run (fun i k => (s i k : EReal)) (fun i k => (v i k : EReal)) n le_rfl).2.1
      = ∑ kk : Fin N, Ideal.div
          (Ideal.exp ((S kk : EReal)
              - max (⊥ : EReal) (Finset.univ.sup (fun kk : Fin N => (S kk : EReal)))))
          (0 + ∑ kk' : Fin N, Ideal.exp ((S kk' : EReal)
              - max (⊥ : EReal) (Finset.univ.sup (fun kk : Fin N => (S kk : EReal)))))
        * (V kk : EReal) := by
  have hval : ∀ (i : Fin n) (k : Fin T),
      ((finProdFinEquiv.trans (finCongr hN.symm)) (i, k) : Fin N).val = T * i.val + k.val := by
    intro i k
    show k.val + T * i.val = T * i.val + k.val
    exact Nat.add_comm _ _
  have hs' : s = fun i k => S ((finProdFinEquiv.trans (finCongr hN.symm)) (i, k)) := by
    funext i k
    exact hs i k _ (hval i k)
  have hv' : v = fun i k => V ((finProdFinEquiv.trans (finCongr hN.symm)) (i, k)) := by
    funext i k
    exact hv i k _ (hval i k)
  rw [hs', hv']
  exact online_eq_softmax_equiv (finProdFinEquiv.trans (finCongr hN.symm)) S V

end Cert.Lib.OnlineSoftmax
-- ==== Proof.SpecBridge.lean ====
/- The bridge between the tile-by-tile recurrence and the specification: when every entry of the six argument
   arrays is a real number, every score and every cache value is a real number, so the online recurrence over the
   sixteen tiles of 256 cache rows answers the plain softmax-weighted sum of the specification. -/
import proofs.«127725_j2052994367817_2_alg».proof.Proof.Spec
import proofs.«127725_j2052994367817_2_alg».proof.Proof.LibOnlineSoftmax

noncomputable section

namespace Cert.SpecBridge

open Idealize.ShloMosaic Idealize.ShloMosaic.ValueIdx Cert.Spec Cert.Lib.OnlineSoftmax

/-! ## Real-valued arrays give real-valued projections, caches, scores and values -/

/-- A product of two reals is a real. -/
theorem mul_real {a b : EReal} (ha : ∃ r : ℝ, a = (r : EReal)) (hb : ∃ r : ℝ, b = (r : EReal)) :
    ∃ r : ℝ, a * b = (r : EReal) := by
  obtain ⟨ra, rfl⟩ := ha
  obtain ⟨rb, rfl⟩ := hb
  exact ⟨ra * rb, (EReal.coe_mul ra rb).symm⟩

/-- A finite sum of reals is a real. -/
theorem sum_real {ι : Type} [Fintype ι] (f : ι → EReal) (h : ∀ i, ∃ r : ℝ, f i = (r : EReal)) :
    ∃ r : ℝ, ∑ i, f i = (r : EReal) := by
  choose g hg using h
  refine ⟨∑ i, g i, ?_⟩
  rw [coe_finset_sum]
  exact Finset.sum_congr rfl fun i _ => hg i

/-- The scale factor's binary32 word denotes a real number (a normal number: its exponent field is neither all
    ones nor zero). -/
theorem scale_real : ∃ r : ℝ, scale = (r : EReal) := by
  unfold scale Ideal.ofBits Ideal.ieee
  dsimp only
  rw [if_neg (by decide), if_neg (by decide)]
  exact ⟨_, rfl⟩

/-- A projection of real-valued activations by real-valued weights is real-valued. -/
theorem proj_real (x : A3) (W : A2) (hx : ∀ i, ∃ r : ℝ, x i = (r : EReal)) (hW : ∀ i, ∃ r : ℝ, W i = (r : EReal))
    (b : Fin 4) (t e : Fin 2048) : ∃ r : ℝ, proj x W b t e = (r : EReal) :=
  sum_real _ fun d => mul_real (hx _) (hW _)

/-- A cache of real-valued past rows and real-valued new rows is real-valued. -/
theorem cat_real (past : A3) (new : Fin 4 → Fin 2048 → Fin 2048 → EReal) (hpast : ∀ i, ∃ r : ℝ, past i = (r : EReal))
    (hnew : ∀ b t e, ∃ r : ℝ, new b t e = (r : EReal)) (b : Fin 4) (kk : Fin 4096) (d : Fin 2048) :
    ∃ r : ℝ, cat past new b kk d = (r : EReal) := by
  unfold cat
  split
  · exact hpast _
  · exact hnew _ _ _

/-- Every scaled score of real-valued arguments is a real. -/
theorem score_real (x pk : A3) (Wq Wk : A2) (hx : ∀ i, ∃ r : ℝ, x i = (r : EReal)) (hpk : ∀ i, ∃ r : ℝ, pk i = (r : EReal))
    (hWq : ∀ i, ∃ r : ℝ, Wq i = (r : EReal)) (hWk : ∀ i, ∃ r : ℝ, Wk i = (r : EReal))
    (b : Fin 4) (q : Fin 2048) (kk : Fin 4096) : ∃ r : ℝ, score x pk Wq Wk b q kk = (r : EReal) :=
  mul_real (sum_real _ fun d => mul_real (proj_real x Wq hx hWq b q d)
    (cat_real pk (proj x Wk) hpk (fun b t e => proj_real x Wk hx hWk b t e) b kk d)) scale_real

/-- Every cache value of real-valued arguments is a real. -/
theorem value_real (x pv : A3) (Wv : A2) (hx : ∀ i, ∃ r : ℝ, x i = (r : EReal)) (hpv : ∀ i, ∃ r : ℝ, pv i = (r : EReal))
    (hWv : ∀ i, ∃ r : ℝ, Wv i = (r : EReal)) (b : Fin 4) (kk : Fin 4096) (d : Fin 2048) :
    ∃ r : ℝ, value x pv Wv b kk d = (r : EReal) :=
  cat_real pv (proj x Wv) hpv (fun b t e => proj_real x Wv hx hWv b t e) b kk d

/-! ## The online recurrence answers the specification -/

/-- Over real-valued arguments, the recurrence run over the sixteen tiles of 256 cache rows (tile j holding rows
    256 j … 256 j + 255), its numerator over its denominator, rounded to four decimals, is the specification's
    attention output. -/
theorem attn_online (x pk pv : A3) (Wq Wk Wv : A2)
    (hx : ∀ i, ∃ r : ℝ, x i = (r : EReal)) (hpk : ∀ i, ∃ r : ℝ, pk i = (r : EReal)) (hpv : ∀ i, ∃ r : ℝ, pv i = (r : EReal))
    (hWq : ∀ i, ∃ r : ℝ, Wq i = (r : EReal)) (hWk : ∀ i, ∃ r : ℝ, Wk i = (r : EReal)) (hWv : ∀ i, ∃ r : ℝ, Wv i = (r : EReal))
    (b : Fin 4) (q d : Fin 2048) :
    round4 (Ideal.div
        (run (fun (j : Fin 16) (k : Fin 256) => score x pk Wq Wk b q ⟨256 * j.val + k.val, by omega⟩)
          (fun (j : Fin 16) (k : Fin 256) => value x pv Wv b ⟨256 * j.val + k.val, by omega⟩ d) 16 le_rfl).2.2
        (run (fun (j : Fin 16) (k : Fin 256) => score x pk Wq Wk b q ⟨256 * j.val + k.val, by omega⟩)
          (fun (j : Fin 16) (k : Fin 256) => value x pv Wv b ⟨256 * j.val + k.val, by omega⟩ d) 16 le_rfl).2.1)
      = attn x pk pv Wq Wk Wv b q d := by
  have hS := fun kk => score_real x pk Wq Wk hx hpk hWq hWk b q kk
  have hV := fun kk => value_real x pv Wv hx hpv hWv b kk d
  choose S hS using hS
  choose Vr hV using hV
  have e1 : (fun (j : Fin 16) (k : Fin 256) => score x pk Wq Wk b q ⟨256 * j.val + k.val, by omega⟩)
      = fun (j : Fin 16) (k : Fin 256) => ((S ⟨256 * j.val + k.val, by omega⟩ : ℝ) : EReal) :=
    funext fun j => funext fun k => hS _
  have e2 : (fun (j : Fin 16) (k : Fin 256) => value x pv Wv b ⟨256 * j.val + k.val, by omega⟩ d)
      = fun (j : Fin 16) (k : Fin 256) => ((Vr ⟨256 * j.val + k.val, by omega⟩ : ℝ) : EReal) :=
    funext fun j => funext fun k => hV _
  rw [e1, e2]
  rw [online_eq_softmax_flat (n := 16) (T := 256) (N := 4096) (by norm_num) S Vr
    (fun j k => S ⟨256 * j.val + k.val, by omega⟩) (fun j k => Vr ⟨256 * j.val + k.val, by omega⟩)
    (fun i k kk h => congrArg S (Fin.ext h.symm)) (fun i k kk h => congrArg Vr (Fin.ext h.symm))]
  unfold attn
  simp only [← hS, ← hV]

end Cert.SpecBridge

end
-- ==== Proof.SpecTiles.lean ====
/- The cache read tile by tile: the sixteen tiles of 256 cache rows are eight tiles of past rows followed by eight
   tiles of newly projected rows. So a recurrence whose tile functions are spelt through the two halves is the
   recurrence over the specification's scores and values, and answers the specification's attention output. -/
import proofs.«127725_j2052994367817_2_alg».proof.Proof.Spec
import proofs.«127725_j2052994367817_2_alg».proof.Proof.SpecBridge

noncomputable section

namespace Cert.SpecBridge

open Idealize.ShloMosaic Idealize.ShloMosaic.ValueIdx Cert.Spec Cert.Lib.OnlineSoftmax

/-- Row k of one of the first eight tiles is past row 256 j + k. -/
theorem cat_tile_lo (past : A3) (new : Fin 4 → Fin 2048 → Fin 2048 → EReal) (b : Fin 4) (j : Fin 16) (k : Fin 256)
    (e : Fin 2048) (h : j.val < 8) :
    cat past new b ⟨256 * j.val + k.val, by omega⟩ e = past (ix3 b (⟨256 * j.val + k.val, by omega⟩ : Fin 2048) e) := by
  unfold cat
  rw [dif_pos (show (⟨256 * j.val + k.val, by omega⟩ : Fin 4096).val < 2048 by show 256 * j.val + k.val < 2048; omega)]

/-- Row k of one of the last eight tiles is new row 256 (j − 8) + k. -/
theorem cat_tile_hi (past : A3) (new : Fin 4 → Fin 2048 → Fin 2048 → EReal) (b : Fin 4) (j : Fin 16) (k : Fin 256)
    (e : Fin 2048) (h : ¬ j.val < 8) :
    cat past new b ⟨256 * j.val + k.val, by omega⟩ e = new b (⟨256 * (j.val - 8) + k.val, by omega⟩ : Fin 2048) e := by
  unfold cat
  rw [dif_neg (show ¬ (⟨256 * j.val + k.val, by omega⟩ : Fin 4096).val < 2048 by show ¬ 256 * j.val + k.val < 2048; omega)]
  exact congrArg (fun r => new b r e) (Fin.ext (by show 256 * j.val + k.val - 2048 = 256 * (j.val - 8) + k.val; omega))

/-- The recurrence over tile functions that ARE the specification's — queries Q the query projection, tile keys Kt
    and tile values Vt the two caches read tile by tile — answers the specification's attention output, over
    real-valued arguments. -/
theorem attn_tiles (x pk pv : A3) (Wq Wk Wv : A2)
    (hx : ∀ i, ∃ r : ℝ, x i = (r : EReal)) (hpk : ∀ i, ∃ r : ℝ, pk i = (r : EReal)) (hpv : ∀ i, ∃ r : ℝ, pv i = (r : EReal))
    (hWq : ∀ i, ∃ r : ℝ, Wq i = (r : EReal)) (hWk : ∀ i, ∃ r : ℝ, Wk i = (r : EReal)) (hWv : ∀ i, ∃ r : ℝ, Wv i = (r : EReal))
    (Q : Fin 4 → Fin 2048 → Fin 2048 → EReal) (Kt Vt : Fin 4 → Fin 16 → Fin 256 → Fin 2048 → EReal)
    (hQ : ∀ b q e, Q b q e = proj x Wq b q e)
    (hKt : ∀ b (j : Fin 16) (k : Fin 256) e, Kt b j k e = cat pk (proj x Wk) b ⟨256 * j.val + k.val, by omega⟩ e)
    (hVt : ∀ b (j : Fin 16) (k : Fin 256) d, Vt b j k d = value x pv Wv b ⟨256 * j.val + k.val, by omega⟩ d)
    (b : Fin 4) (q d : Fin 2048) :
    round4 (Ideal.div
        (run (fun (j : Fin 16) (k : Fin 256) => (∑ e : Fin 2048, Q b q e * Kt b j k e) * Ideal.ofBits .f32 0x3CB504F3#32)
          (fun (j : Fin 16) (k : Fin 256) => Vt b j k d) 16 le_rfl).2.2
        (run (fun (j : Fin 16) (k : Fin 256) => (∑ e : Fin 2048, Q b q e * Kt b j k e) * Ideal.ofBits .f32 0x3CB504F3#32)
          (fun (j : Fin 16) (k : Fin 256) => Vt b j k d) 16 le_rfl).2.1)
      = attn x pk pv Wq Wk Wv b q d := by
  have e1 : (fun (j : Fin 16) (k : Fin 256) => (∑ e : Fin 2048, Q b q e * Kt b j k e) * Ideal.ofBits .f32 0x3CB504F3#32)
      = fun (j : Fin 16) (k : Fin 256) => score x pk Wq Wk b q ⟨256 * j.val + k.val, by omega⟩ := by
    funext j k
    unfold score scale
    exact congrArg (· * Ideal.ofBits .f32 0x3CB504F3#32) (Finset.sum_congr rfl fun e _ => by rw [hQ, hKt])
  have e2 : (fun (j : Fin 16) (k : Fin 256) => Vt b j k d)
      = fun (j : Fin 16) (k : Fin 256) => value x pv Wv b ⟨256 * j.val + k.val, by omega⟩ d :=
    funext fun j => funext fun k => hVt b j k d
  rw [e1, e2]
  exact attn_online x pk pv Wq Wk Wv hx hpk hpv hWq hWk hWv b q d

end Cert.SpecBridge

end
-- ==== Proof.KI.R1Pieces.lean ====
/- What each of the attention body's four cases leaves in the three scratch buffers and in the output block, as the
   kernel's arithmetic applied to the blocks and scratch contents it read: every store covers its whole buffer, so each
   buffer ends at ONE payload; a load through a whole buffer reads its contents, and a load after a whole-buffer store
   reads that store's payload. -/
import proofs.«127725_j2052994367817_2_alg».proof.Proof.KI.R1Cases
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 whole-buffer access, however spelt. -/
theorem hz2 : (![0, 0] : Fin 2 → Nat) = fun _ => 0 := funext fun a => by fin_cases a <;> rfl
/-- The zero offsets of a rank-3 whole-buffer access. -/
theorem hz3 : (![0, 0, 0] : Fin 3 → Nat) = fun _ => 0 := funext fun a => by fin_cases a <;> rfl

variable (c : Dev nD) (t : Fin cfg1.N)

/-- At a middle past tile the running maximum is left at one whole-buffer store's payload, whose loads read whole buffers. -/
theorem stB_0 (h1 h2 h3 h4) (x0 : Vec F S1x2048x2048 .bf16) (x1 x2 : Vec F S1x256x2048 .f32) (s : St F) :
    (stB c t h1 h2 h3 h4 x0 x1 x2 s).1 = k1_pay5 (k1_pay9 (k1_pay4 x0) x1 s.1) := by
  unfold stB
  dsimp only
  rw [View.read_writes_eq_canon _ _ _ (coverB_0 c t h1 h2 h3 h4 x0 x1 x2 s)]
  unfold runB_at kernelRun1_B
  dsimp only
  sl_unfold_words
  rw [View.canon_unit_zero (S := S2048x1) hz2]
  simp only [View.readAt_eq_ld, (hs1_0 t).read_unread, (hs1_1 t).read_unread, (hs1_2 t).read_unread, (hs1_3 t).read_unread,
    (hs1_4 t).read_unread, (Memref.isWhole_whole cc1_scratch0).read_unread, (Memref.isWhole_whole cc1_scratch1).read_unread,
    (Memref.isWhole_whole cc1_scratch2).read_unread, View.ld_unit_zero (S := S1x2048x2048) hz3,
    View.ld_unit_zero (S := S1x256x2048) hz3, View.ld_unit_zero (S := S2048x1) hz2, View.ld_unit_zero (S := S2048x2048) hz2]

/-- At a middle past tile the running denominator is left at one whole-buffer store's payload, whose loads read whole buffers. -/
theorem stB_1 (h1 h2 h3 h4) (x0 : Vec F S1x2048x2048 .bf16) (x1 x2 : Vec F S1x256x2048 .f32) (s : St F) :
    (stB c t h1 h2 h3 h4 x0 x1 x2 s).2.1 = k1_pay12 (k1_pay4 x0) x1 s.1 s.1 s.2.1 := by
  unfold stB
  dsimp only
  rw [View.read_writes_eq_canon _ _ _ (coverB_1 c t h1 h2 h3 h4 x0 x1 x2 s)]
  unfold runB_at kernelRun1_B
  dsimp only
  sl_unfold_words
  rw [View.canon_unit_zero (S := S2048x1) hz2]
  simp only [View.readAt_eq_ld, (hs1_0 t).read_unread, (hs1_1 t).read_unread, (hs1_2 t).read_unread, (hs1_3 t).read_unread,
    (hs1_4 t).read_unread, (Memref.isWhole_whole cc1_scratch0).read_unread, (Memref.isWhole_whole cc1_scratch1).read_unread,
    (Memref.isWhole_whole cc1_scratch2).read_unread, View.ld_unit_zero (S := S1x2048x2048) hz3,
    View.ld_unit_zero (S := S1x256x2048) hz3, View.ld_unit_zero (S := S2048x1) hz2, View.ld_unit_zero (S := S2048x2048) hz2]

/-- At a middle past tile the running numerator is left at one whole-buffer store's payload, whose loads read whole buffers. -/
theorem stB_2 (h1 h2 h3 h4) (x0 : Vec F S1x2048x2048 .bf16) (x1 x2 : Vec F S1x256x2048 .f32) (s : St F) :
    (stB c t h1 h2 h3 h4 x0 x1 x2 s).2.2 = k1_pay13 (k1_pay4 x0) x1 x2 s.1 s.1 s.2.2 := by
  unfold stB
  dsimp only
  rw [View.read_writes_eq_canon _ _ _ (coverB_2 c t h1 h2 h3 h4 x0 x1 x2 s)]
  unfold runB_at kernelRun1_B
  dsimp only
  sl_unfold_words
  rw [View.canon_unit_zero (S := S2048x2048) hz2]
  simp only [View.readAt_eq_ld, (hs1_0 t).read_unread, (hs1_1 t).read_unread, (hs1_2 t).read_unread, (hs1_3 t).read_unread,
    (hs1_4 t).read_unread, (Memref.isWhole_whole cc1_scratch0).read_unread, (Memref.isWhole_whole cc1_scratch1).read_unread,
    (Memref.isWhole_whole cc1_scratch2).read_unread, View.ld_unit_zero (S := S1x2048x2048) hz3,
    View.ld_unit_zero (S := S1x256x2048) hz3, View.ld_unit_zero (S := S2048x1) hz2, View.ld_unit_zero (S := S2048x2048) hz2]

/-- What a middle past tile leaves in the three scratch buffers. -/
theorem stB_eq (h1 h2 h3 h4) (x0 : Vec F S1x2048x2048 .bf16) (x1 x2 : Vec F S1x256x2048 .f32) (s : St F) :
    stB c t h1 h2 h3 h4 x0 x1 x2 s = (k1_pay5 (k1_pay9 (k1_pay4 x0) x1 s.1), k1_pay12 (k1_pay4 x0) x1 s.1 s.1 s.2.1, k1_pay13 (k1_pay4 x0) x1 x2 s.1 s.1 s.2.2) :=
  Prod.ext (stB_0 c t h1 h2 h3 h4 x0 x1 x2 s) (Prod.ext (stB_1 c t h1 h2 h3 h4 x0 x1 x2 s) (stB_2 c t h1 h2 h3 h4 x0 x1 x2 s))

/-- At a middle new tile the running maximum is left at one whole-buffer store's payload, whose loads read whole buffers. -/
theorem stC_0 (h1 h2 h3 h4) (x0 : Vec F S1x2048x2048 .bf16) (x3 x4 : Vec F S1x256x2048 .bf16) (s : St F) :
    (stC c t h1 h2 h3 h4 x0 x3 x4 s).1 = k1_pay6 (k1_pay15 (k1_pay4 x0) x3 s.1) := by
  unfold stC
  dsimp only
  rw [View.read_writes_eq_canon _ _ _ (coverC_0 c t h1 h2 h3 h4 x0 x3 x4 s)]
  unfold runC_at kernelRun1_C
  dsimp only
  sl_unfold_words
  rw [View.canon_unit_zero (S := S2048x1) hz2]
  simp only [View.readAt_eq_ld, (hs1_0 t).read_unread, (hs1_1 t).read_unread, (hs1_2 t).read_unread, (hs1_3 t).read_unread,
    (hs1_4 t).read_unread, (Memref.isWhole_whole cc1_scratch0).read_unread, (Memref.isWhole_whole cc1_scratch1).read_unread,
    (Memref.isWhole_whole cc1_scratch2).read_unread, View.ld_unit_zero (S := S1x2048x2048) hz3,
    View.ld_unit_zero (S := S1x256x2048) hz3, View.ld_unit_zero (S := S2048x1) hz2, View.ld_unit_zero (S := S2048x2048) hz2]

/-- At a middle new tile the running denominator is left at one whole-buffer store's payload, whose loads read whole buffers. -/
theorem stC_1 (h1 h2 h3 h4) (x0 : Vec F S1x2048x2048 .bf16) (x3 x4 : Vec F S1x256x2048 .bf16) (s : St F) :
    (stC c t h1 h2 h3 h4 x0 x3 x4 s).2.1 = k1_pay18 (k1_pay4 x0) x3 s.1 s.1 s.2.1 := by
  unfold stC
  dsimp only
  rw [View.read_writes_eq_canon _ _ _ (coverC_1 c t h1 h2 h3 h4 x0 x3 x4 s)]
  unfold runC_at kernelRun1_C
  dsimp only
  sl_unfold_words
  rw [View.canon_unit_zero (S := S2048x1) hz2]
  simp only [View.readAt_eq_ld, (hs1_0 t).read_unread, (hs1_1 t).read_unread, (hs1_2 t).read_unread, (hs1_3 t).read_unread,
    (hs1_4 t).read_unread, (Memref.isWhole_whole cc1_scratch0).read_unread, (Memref.isWhole_whole cc1_scratch1).read_unread,
    (Memref.isWhole_whole cc1_scratch2).read_unread, View.ld_unit_zero (S := S1x2048x2048) hz3,
    View.ld_unit_zero (S := S1x256x2048) hz3, View.ld_unit_zero (S := S2048x1) hz2, View.ld_unit_zero (S := S2048x2048) hz2]

/-- At a middle new tile the running numerator is left at one whole-buffer store's payload, whose loads read whole buffers. -/
theorem stC_2 (h1 h2 h3 h4) (x0 : Vec F S1x2048x2048 .bf16) (x3 x4 : Vec F S1x256x2048 .bf16) (s : St F) :
    (stC c t h1 h2 h3 h4 x0 x3 x4 s).2.2 = k1_pay19 (k1_pay4 x0) x3 x4 s.1 s.1 s.2.2 := by
  unfold stC
  dsimp only
  rw [View.read_writes_eq_canon _ _ _ (coverC_2 c t h1 h2 h3 h4 x0 x3 x4 s)]
  unfold runC_at kernelRun1_C
  dsimp only
  sl_unfold_words
  rw [View.canon_unit_zero (S := S2048x2048) hz2]
  simp only [View.readAt_eq_ld, (hs1_0 t).read_unread, (hs1_1 t).read_unread, (hs1_2 t).read_unread, (hs1_3 t).read_unread,
    (hs1_4 t).read_unread, (Memref.isWhole_whole cc1_scratch0).read_unread, (Memref.isWhole_whole cc1_scratch1).read_unread,
    (Memref.isWhole_whole cc1_scratch2).read_unread, View.ld_unit_zero (S := S1x2048x2048) hz3,
    View.ld_unit_zero (S := S1x256x2048) hz3, View.ld_unit_zero (S := S2048x1) hz2, View.ld_unit_zero (S := S2048x2048) hz2]

/-- What a middle new tile leaves in the three scratch buffers. -/
theorem stC_eq (h1 h2 h3 h4) (x0 : Vec F S1x2048x2048 .bf16) (x3 x4 : Vec F S1x256x2048 .bf16) (s : St F) :
    stC c t h1 h2 h3 h4 x0 x3 x4 s = (k1_pay6 (k1_pay15 (k1_pay4 x0) x3 s.1), k1_pay18 (k1_pay4 x0) x3 s.1 s.1 s.2.1, k1_pay19 (k1_pay4 x0) x3 x4 s.1 s.1 s.2.2) :=
  Prod.ext (stC_0 c t h1 h2 h3 h4 x0 x3 x4 s) (Prod.ext (stC_1 c t h1 h2 h3 h4 x0 x3 x4 s) (stC_2 c t h1 h2 h3 h4 x0 x3 x4 s))

/-- At the last tile the running maximum is left at one whole-buffer store's payload, whose loads read whole buffers. -/
theorem stD_0 (h1 h2 h3 h4) (x0 : Vec F S1x2048x2048 .bf16) (x3 x4 : Vec F S1x256x2048 .bf16) (s : St F) :
    (stD c t h1 h2 h3 h4 x0 x3 x4 s).1 = k1_pay6 (k1_pay15 (k1_pay4 x0) x3 s.1) := by
  unfold stD
  dsimp only
  rw [View.read_writes_eq_canon _ _ _ (coverD_0 c t h1 h2 h3 h4 x0 x3 x4 s)]
  unfold runD_at kernelRun1_D
  dsimp only
  sl_unfold_words
  rw [View.canon_unit_zero (S := S2048x1) hz2]
  simp only [View.readAt_eq_ld, (hs1_0 t).read_unread, (hs1_1 t).read_unread, (hs1_2 t).read_unread, (hs1_3 t).read_unread,
    (hs1_4 t).read_unread, (Memref.isWhole_whole cc1_scratch0).read_unread, (Memref.isWhole_whole cc1_scratch1).read_unread,
    (Memref.isWhole_whole cc1_scratch2).read_unread, View.ld_unit_zero (S := S1x2048x2048) hz3,
    View.ld_unit_zero (S := S1x256x2048) hz3, View.ld_unit_zero (S := S2048x1) hz2, View.ld_unit_zero (S := S2048x2048) hz2]

/-- At the last tile the running denominator is left at one whole-buffer store's payload, whose loads read whole buffers. -/
theorem stD_1 (h1 h2 h3 h4) (x0 : Vec F S1x2048x2048 .bf16) (x3 x4 : Vec F S1x256x2048 .bf16) (s : St F) :
    (stD c t h1 h2 h3 h4 x0 x3 x4 s).2.1 = k1_pay18 (k1_pay4 x0) x3 s.1 s.1 s.2.1 := by
  unfold stD
  dsimp only
  rw [View.read_writes_eq_canon _ _ _ (coverD_1 c t h1 h2 h3 h4 x0 x3 x4 s)]
  unfold runD_at kernelRun1_D
  dsimp only
  sl_unfold_words
  rw [View.canon_unit_zero (S := S2048x1) hz2]
  simp only [View.readAt_eq_ld, (hs1_0 t).read_unread, (hs1_1 t).read_unread, (hs1_2 t).read_unread, (hs1_3 t).read_unread,
    (hs1_4 t).read_unread, (Memref.isWhole_whole cc1_scratch0).read_unread, (Memref.isWhole_whole cc1_scratch1).read_unread,
    (Memref.isWhole_whole cc1_scratch2).read_unread, View.ld_unit_zero (S := S1x2048x2048) hz3,
    View.ld_unit_zero (S := S1x256x2048) hz3, View.ld_unit_zero (S := S2048x1) hz2, View.ld_unit_zero (S := S2048x2048) hz2]

/-- At the last tile the running numerator is left at one whole-buffer store's payload, whose loads read whole buffers. -/
theorem stD_2 (h1 h2 h3 h4) (x0 : Vec F S1x2048x2048 .bf16) (x3 x4 : Vec F S1x256x2048 .bf16) (s : St F) :
    (stD c t h1 h2 h3 h4 x0 x3 x4 s).2.2 = k1_pay19 (k1_pay4 x0) x3 x4 s.1 s.1 s.2.2 := by
  unfold stD
  dsimp only
  rw [View.read_writes_eq_canon _ _ _ (coverD_2 c t h1 h2 h3 h4 x0 x3 x4 s)]
  unfold runD_at kernelRun1_D
  dsimp only
  sl_unfold_words
  rw [View.canon_unit_zero (S := S2048x2048) hz2]
  simp only [View.readAt_eq_ld, (hs1_0 t).read_unread, (hs1_1 t).read_unread, (hs1_2 t).read_unread, (hs1_3 t).read_unread,
    (hs1_4 t).read_unread, (Memref.isWhole_whole cc1_scratch0).read_unread, (Memref.isWhole_whole cc1_scratch1).read_unread,
    (Memref.isWhole_whole cc1_scratch2).read_unread, View.ld_unit_zero (S := S1x2048x2048) hz3,
    View.ld_unit_zero (S := S1x256x2048) hz3, View.ld_unit_zero (S := S2048x1) hz2, View.ld_unit_zero (S := S2048x2048) hz2]

/-- What the last tile leaves in the three scratch buffers. -/
theorem stD_eq (h1 h2 h3 h4) (x0 : Vec F S1x2048x2048 .bf16) (x3 x4 : Vec F S1x256x2048 .bf16) (s : St F) :
    stD c t h1 h2 h3 h4 x0 x3 x4 s = (k1_pay6 (k1_pay15 (k1_pay4 x0) x3 s.1), k1_pay18 (k1_pay4 x0) x3 s.1 s.1 s.2.1, k1_pay19 (k1_pay4 x0) x3 x4 s.1 s.1 s.2.2) :=
  Prod.ext (stD_0 c t h1 h2 h3 h4 x0 x3 x4 s) (Prod.ext (stD_1 c t h1 h2 h3 h4 x0 x3 x4 s) (stD_2 c t h1 h2 h3 h4 x0 x3 x4 s))

/-- At the first tile of a batch entry (reset, then the step over the past tile) the running maximum is left at one whole-buffer store's payload, whose loads read whole buffers. -/
theorem stA_0 (h1 h2 h3 h4) (x0 : Vec F S1x2048x2048 .bf16) (x1 x2 : Vec F S1x256x2048 .f32) :
    (stA c t h1 h2 h3 h4 x0 x1 x2).1 = k1_pay5 (k1_pay9 (k1_pay4 x0) x1 k1_pay1) := by
  unfold stA
  dsimp only
  rw [View.read_writes_eq_canon _ _ _ (coverA_0 c t h1 h2 h3 h4 x0 x1 x2)]
  unfold runA_at kernelRun1_A
  dsimp only
  sl_unfold_words
  rw [View.canon_cons_unit_zero (S := S2048x1) hz2]
  simp only [View.readCov_unit_zero (S := S2048x1) _ hz2, View.readCov_unit_zero (S := S2048x2048) _ hz2]
  simp only [View.readAt_eq_ld, (hs1_0 t).read_unread, (hs1_1 t).read_unread, (hs1_2 t).read_unread, (hs1_3 t).read_unread,
    (hs1_4 t).read_unread, (Memref.isWhole_whole cc1_scratch0).read_unread, (Memref.isWhole_whole cc1_scratch1).read_unread,
    (Memref.isWhole_whole cc1_scratch2).read_unread, View.ld_unit_zero (S := S1x2048x2048) hz3,
    View.ld_unit_zero (S := S1x256x2048) hz3, View.ld_unit_zero (S := S2048x1) hz2, View.ld_unit_zero (S := S2048x2048) hz2]

/-- At the first tile of a batch entry (reset, then the step over the past tile) the running denominator is left at one whole-buffer store's payload, whose loads read whole buffers. -/
theorem stA_1 (h1 h2 h3 h4) (x0 : Vec F S1x2048x2048 .bf16) (x1 x2 : Vec F S1x256x2048 .f32) :
    (stA c t h1 h2 h3 h4 x0 x1 x2).2.1 = k1_pay12 (k1_pay4 x0) x1 k1_pay1 k1_pay1 k1_pay2 := by
  unfold stA
  dsimp only
  rw [View.read_writes_eq_canon _ _ _ (coverA_1 c t h1 h2 h3 h4 x0 x1 x2)]
  unfold runA_at kernelRun1_A
  dsimp only
  sl_unfold_words
  rw [View.canon_cons_unit_zero (S := S2048x1) hz2]
  simp only [View.readCov_unit_zero (S := S2048x1) _ hz2, View.readCov_unit_zero (S := S2048x2048) _ hz2]
  simp only [View.readAt_eq_ld, (hs1_0 t).read_unread, (hs1_1 t).read_unread, (hs1_2 t).read_unread, (hs1_3 t).read_unread,
    (hs1_4 t).read_unread, (Memref.isWhole_whole cc1_scratch0).read_unread, (Memref.isWhole_whole cc1_scratch1).read_unread,
    (Memref.isWhole_whole cc1_scratch2).read_unread, View.ld_unit_zero (S := S1x2048x2048) hz3,
    View.ld_unit_zero (S := S1x256x2048) hz3, View.ld_unit_zero (S := S2048x1) hz2, View.ld_unit_zero (S := S2048x2048) hz2]

/-- At the first tile of a batch entry (reset, then the step over the past tile) the running numerator is left at one whole-buffer store's payload, whose loads read whole buffers. -/
theorem stA_2 (h1 h2 h3 h4) (x0 : Vec F S1x2048x2048 .bf16) (x1 x2 : Vec F S1x256x2048 .f32) :
    (stA c t h1 h2 h3 h4 x0 x1 x2).2.2 = k1_pay13 (k1_pay4 x0) x1 x2 k1_pay1 k1_pay1 k1_pay3 := by
  unfold stA
  dsimp only
  rw [View.read_writes_eq_canon _ _ _ (coverA_2 c t h1 h2 h3 h4 x0 x1 x2)]
  unfold runA_at kernelRun1_A
  dsimp only
  sl_unfold_words
  rw [View.canon_cons_unit_zero (S := S2048x2048) hz2]
  simp only [View.readCov_unit_zero (S := S2048x1) _ hz2, View.readCov_unit_zero (S := S2048x2048) _ hz2]
  simp only [View.readAt_eq_ld, (hs1_0 t).read_unread, (hs1_1 t).read_unread, (hs1_2 t).read_unread, (hs1_3 t).read_unread,
    (hs1_4 t).read_unread, (Memref.isWhole_whole cc1_scratch0).read_unread, (Memref.isWhole_whole cc1_scratch1).read_unread,
    (Memref.isWhole_whole cc1_scratch2).read_unread, View.ld_unit_zero (S := S1x2048x2048) hz3,
    View.ld_unit_zero (S := S1x256x2048) hz3, View.ld_unit_zero (S := S2048x1) hz2, View.ld_unit_zero (S := S2048x2048) hz2]

/-- What the first tile of a batch entry (reset, then the step over the past tile) leaves in the three scratch buffers. -/
theorem stA_eq (h1 h2 h3 h4) (x0 : Vec F S1x2048x2048 .bf16) (x1 x2 : Vec F S1x256x2048 .f32) :
    stA c t h1 h2 h3 h4 x0 x1 x2 = (k1_pay5 (k1_pay9 (k1_pay4 x0) x1 k1_pay1), k1_pay12 (k1_pay4 x0) x1 k1_pay1 k1_pay1 k1_pay2, k1_pay13 (k1_pay4 x0) x1 x2 k1_pay1 k1_pay1 k1_pay3) :=
  Prod.ext (stA_0 c t h1 h2 h3 h4 x0 x1 x2) (Prod.ext (stA_1 c t h1 h2 h3 h4 x0 x1 x2) (stA_2 c t h1 h2 h3 h4 x0 x1 x2))

/-- At the last tile the output block is left at the rounded quotient of the numerator and the denominator the step
    has just stored. -/
theorem outD_eq (h1 h2 h3 h4) (x0 : Vec F S1x2048x2048 .bf16) (x3 x4 : Vec F S1x256x2048 .bf16) (s : St F) :
    outD c t h1 h2 h3 h4 x0 x3 x4 s = k1_pay7 (stD c t h1 h2 h3 h4 x0 x3 x4 s).2.2 (stD c t h1 h2 h3 h4 x0 x3 x4 s).2.1 := by
  rw [stD_eq]
  unfold outD
  rw [View.read_writes_eq_canon _ _ _ (coverD_5 c t h1 h2 h3 h4 x0 x3 x4 s)]
  unfold runD_at kernelRun1_D
  dsimp only
  sl_unfold_words
  rw [View.canon_unit_zero (S := S1x2048x2048) hz3]
  simp only [View.readCov_unit_zero (S := S2048x1) _ hz2, View.readCov_unit_zero (S := S2048x2048) _ hz2]
  simp only [View.readAt_eq_ld, (hs1_0 t).read_unread, (hs1_1 t).read_unread, (hs1_2 t).read_unread, (hs1_3 t).read_unread,
    (hs1_4 t).read_unread, (Memref.isWhole_whole cc1_scratch0).read_unread, (Memref.isWhole_whole cc1_scratch1).read_unread,
    (Memref.isWhole_whole cc1_scratch2).read_unread, View.ld_unit_zero (S := S1x2048x2048) hz3,
    View.ld_unit_zero (S := S1x256x2048) hz3, View.ld_unit_zero (S := S2048x1) hz2, View.ld_unit_zero (S := S2048x2048) hz2]

end Cert.KernelIdeal.Hand

end
-- ==== Proof.LibColumnLayout.lean ====
/-
  Column forms of the layout operations, read at an index by coordinates: a vector [a] cast to the column [a, 1]
  and back, and a column [a, 1] broadcast along its unit axis to [a, b].  Each reads the operand at the same
  row; the unit axis carries coordinate 0.
-/
import Idealize.ShloMosaic.Lib.ValueLayout
import Idealize.ShloMosaic.Lib.Pipeline.Value

namespace PhysLoss

open Idealize.ShloMosaic Idealize.ShloMosaic.ValueIdx

variable {α : Type}

/-- A vector `[a]` cast to the column `[a, 1]` reads, at `(i, 0)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end PhysLoss
-- ==== Proof.KI.Pay1a.lean ====
/-
  The attention kernel's arithmetic read at an entry, part one: the row reductions and the two matrix products
  of a tile at an index, the reset values of the three running quantities, the query block's cast, and the
  output entry (numerator over denominator, rounded to four decimals).  Everything is over the extended reals.
-/
import proofs.«127725_j2052994367817_2_alg».proof.Proof.Gen.KernelIdeal.Skeleton
import proofs.«127725_j2052994367817_2_alg».proof.Proof.Spec
import proofs.«127725_j2052994367817_2_alg».proof.Proof.LibColumnLayout
import Idealize.ShloMosaic.PureOps.Ideal.Laws
import Idealize.ShloMosaic.Lib.ValueLayout
import Idealize.ShloMosaic.Lib.ValueIdx

noncomputable section

namespace Cert.KernelIdeal.PayVal

open Cert.KernelIdeal Cert.KernelIdeal.Gen Idealize.ShloMosaic Idealize.ShloMosaic.ValueIdx PhysLoss

/-! ### Words -/

/-- The binary32 word of -∞ is the bottom of the extended reals. -/
theorem ofBits_neg_inf_f32 : Ideal.ofBits .f32 0xFF800000#32 = ⊥ := by simp [Ideal.ofBits, Ideal.ieee]

/-! ### The two reductions along a row of 256 lanes -/

/-- The sum of a [2048, 256] array over its second axis, at row q, is the sum over the row's 256 entries. -/
theorem rowsum_apply (p : FVec Ideal S2048x256 .f32) (q : Fin 2048) :
    multiReduction .add [1] S2048 p 0x00000000#32 reduces_S2048x256_S2048 (.inl rfl) rfl (ix1 q)
      = ∑ k : Fin 256, p (ix2 q k) := by
  refine (Ideal.multiReduction_add_single p 0x00000000#32 reduces_S2048x256_S2048 (.inl rfl) rfl (ix1 q)).trans ?_
  show ∑ k : Fin 256, p (reduces_S2048x256_S2048.lift (ix1 q) k) = _
  refine Finset.sum_congr rfl fun k _ => congrArg p ?_
  funext a
  refine Fin.ext ?_
  match a with
  | ⟨0, _⟩ => rfl
  | ⟨1, _⟩ => rfl

/-- The maximum of a [2048, 256] array over its second axis, taken from -∞, at row q, is the supremum of the
    row's 256 entries. -/
theorem rowmax_apply (sc : FVec Ideal S2048x256 .f32) (q : Fin 2048) :
    multiReduction .maximumf [1] S2048 sc 0xFF800000#32 reduces_S2048x256_S2048 (.inl rfl) rfl (ix1 q)
      = Finset.univ.sup (fun k : Fin 256 => sc (ix2 q k)) := by
  refine (Ideal.multiReduction_maximumf_single sc 0xFF800000#32 reduces_S2048x256_S2048 (.inl rfl) rfl (ix1 q)).trans ?_
  show Finset.fold max (Ideal.ofBits .f32 0xFF800000#32) (sc ∘ reduces_S2048x256_S2048.lift (ix1 q))
      (Finset.univ : Finset (Fin 256)) = _
  rw [ofBits_neg_inf_f32]
  have hf : (sc ∘ reduces_S2048x256_S2048.lift (ix1 q)) = fun k : Fin 256 => sc (ix2 q k) := by
    funext k
    refine congrArg sc ?_
    funext a
    refine Fin.ext ?_
    match a with
    | ⟨0, _⟩ => rfl
    | ⟨1, _⟩ => rfl
  rw [hf]
  rfl

/-! ### The two matrix products -/

/-- At output entry (q, k) and contraction index c the query operand is read in row q … -/
theorem qk_lhs_0 (j : S2048x256.Idx) (c : dot_S2048x2048_S256x2048_S2048x256_1_1_0_0_n_n.contr.Idx) :
    (dot_S2048x2048_S256x2048_S2048x256_1_1_0_0_n_n.lhsIdx j c 0).val = (j 0).val := by
  unfold DotDims.lhsIdx
  rw [dif_neg (show ¬(0 : Fin S2048x2048.rank) ∈ dot_S2048x2048_S256x2048_S2048x256_1_1_0_0_n_n.lhsBatch by decide), dif_pos (show (0 : Fin S2048x2048.rank) ∈ dot_S2048x2048_S256x2048_S2048x256_1_1_0_0_n_n.lhsNonContracting by decide)]
  rfl
/-- … and in the column the contraction index names. -/
theorem qk_lhs_1 (j : S2048x256.Idx) (c : dot_S2048x2048_S256x2048_S2048x256_1_1_0_0_n_n.contr.Idx) :
    (dot_S2048x2048_S256x2048_S2048x256_1_1_0_0_n_n.lhsIdx j c 1).val = (c ⟨0, by decide⟩).val :=
  dot_S2048x2048_S256x2048_S2048x256_1_1_0_0_n_n.lhsIdx_val_of_single rfl j c
/-- At output entry (q, k) and contraction index c the key operand is read in row k … -/
theorem qk_rhs_0 (j : S2048x256.Idx) (c : dot_S2048x2048_S256x2048_S2048x256_1_1_0_0_n_n.contr.Idx) :
    (dot_S2048x2048_S256x2048_S2048x256_1_1_0_0_n_n.rhsIdx j c 0).val = (j 1).val := by
  unfold DotDims.rhsIdx
  rw [dif_neg (show ¬(0 : Fin S256x2048.rank) ∈ dot_S2048x2048_S256x2048_S2048x256_1_1_0_0_n_n.rhsBatch by decide), dif_pos (show (0 : Fin S256x2048.rank) ∈ dot_S2048x2048_S256x2048_S2048x256_1_1_0_0_n_n.rhsNonContracting by decide)]
  rfl
/-- … and in the column the contraction index names. -/
theorem qk_rhs_1 (j : S2048x256.Idx) (c : dot_S2048x2048_S256x2048_S2048x256_1_1_0_0_n_n.contr.Idx) :
    (dot_S2048x2048_S256x2048_S2048x256_1_1_0_0_n_n.rhsIdx j c 1).val = (c ⟨0, by decide⟩).val :=
  dot_S2048x2048_S256x2048_S2048x256_1_1_0_0_n_n.rhsIdx_val_of_single rfl j c

/-- Queries [2048, 2048] against a tile of keys [256, 2048], contracted over the feature axis of both, into zero:
    entry (q, k) is the sum over the features e of A (q, e) · K (k, e). -/
theorem qk_apply (A : FVec Ideal S2048x2048 .bf16) (K : FVec Ideal S256x2048 .bf16) (q : Fin 2048) (k : Fin 256) :
    matmul dot_S2048x2048_S256x2048_S2048x256_1_1_0_0_n_n none A K (constant (F := Ideal) S2048x256 .f32 0x00000000#32) (ix2 q k)
      = ∑ e : Fin 2048, A (ix2 q e) * K (ix2 k e) := by
  simp only [matmul]
  rw [Ideal.matmul_constant_zero_apply, ← Equiv.sum_comp (contrEquiv1 dot_S2048x2048_S256x2048_S2048x256_1_1_0_0_n_n 2048 rfl rfl).symm]
  refine Finset.sum_congr rfl fun e _ => ?_
  have he := contrEquiv1_symm_val dot_S2048x2048_S256x2048_S2048x256_1_1_0_0_n_n 2048 rfl rfl e
  have el : dot_S2048x2048_S256x2048_S2048x256_1_1_0_0_n_n.lhsIdx (ix2 q k) ((contrEquiv1 dot_S2048x2048_S256x2048_S2048x256_1_1_0_0_n_n 2048 rfl rfl).symm e) = ix2 q e := funext fun a => Fin.ext (by
    match a with
    | ⟨0, _⟩ => exact qk_lhs_0 _ _
    | ⟨1, _⟩ => exact (qk_lhs_1 _ _).trans he)
  have er : dot_S2048x2048_S256x2048_S2048x256_1_1_0_0_n_n.rhsIdx (ix2 q k) ((contrEquiv1 dot_S2048x2048_S256x2048_S2048x256_1_1_0_0_n_n 2048 rfl rfl).symm e) = ix2 k e := funext fun a => Fin.ext (by
    match a with
    | ⟨0, _⟩ => exact qk_rhs_0 _ _
    | ⟨1, _⟩ => exact (qk_rhs_1 _ _).trans he)
  rw [el, er]

/-- At output entry (q, d) and contraction index c the weight operand is read in row q … -/
theorem pv_lhs_0 (j : S2048x2048.Idx) (c : dot_S2048x256_S256x2048_S2048x2048_1_0_0_1_n_n.contr.Idx) :
    (dot_S2048x256_S256x2048_S2048x2048_1_0_0_1_n_n.lhsIdx j c 0).val = (j 0).val := by
  unfold DotDims.lhsIdx
  rw [dif_neg (show ¬(0 : Fin S2048x256.rank) ∈ dot_S2048x256_S256x2048_S2048x2048_1_0_0_1_n_n.lhsBatch by decide), dif_pos (show (0 : Fin S2048x256.rank) ∈ dot_S2048x256_S256x2048_S2048x2048_1_0_0_1_n_n.lhsNonContracting by decide)]
  rfl
/-- … and in the column the contraction index names. -/
theorem pv_lhs_1 (j : S2048x2048.Idx) (c : dot_S2048x256_S256x2048_S2048x2048_1_0_0_1_n_n.contr.Idx) :
    (dot_S2048x256_S256x2048_S2048x2048_1_0_0_1_n_n.lhsIdx j c 1).val = (c ⟨0, by decide⟩).val :=
  dot_S2048x256_S256x2048_S2048x2048_1_0_0_1_n_n.lhsIdx_val_of_single rfl j c
/-- At output entry (q, d) and contraction index c the value operand is read in the row the contraction index names … -/
theorem pv_rhs_0 (j : S2048x2048.Idx) (c : dot_S2048x256_S256x2048_S2048x2048_1_0_0_1_n_n.contr.Idx) :
    (dot_S2048x256_S256x2048_S2048x2048_1_0_0_1_n_n.rhsIdx j c 0).val = (c ⟨0, by decide⟩).val :=
  dot_S2048x256_S256x2048_S2048x2048_1_0_0_1_n_n.rhsIdx_val_of_single rfl j c
/-- … and in column d. -/
theorem pv_rhs_1 (j : S2048x2048.Idx) (c : dot_S2048x256_S256x2048_S2048x2048_1_0_0_1_n_n.contr.Idx) :
    (dot_S2048x256_S256x2048_S2048x2048_1_0_0_1_n_n.rhsIdx j c 1).val = (j 1).val := by
  unfold DotDims.rhsIdx
  rw [dif_neg (show ¬(1 : Fin S256x2048.rank) ∈ dot_S2048x256_S256x2048_S2048x2048_1_0_0_1_n_n.rhsBatch by decide), dif_pos (show (1 : Fin S256x2048.rank) ∈ dot_S2048x256_S256x2048_S2048x2048_1_0_0_1_n_n.rhsNonContracting by decide)]
  rfl

/-- Weights [2048, 256] against a tile of values [256, 2048], contracted over the tile's 256 keys, into zero:
    entry (q, d) is the sum over the keys k of P (q, k) · V (k, d). -/
theorem pv_apply (P : FVec Ideal S2048x256 .bf16) (V : FVec Ideal S256x2048 .bf16) (q : Fin 2048) (d : Fin 2048) :
    matmul dot_S2048x256_S256x2048_S2048x2048_1_0_0_1_n_n none P V (constant (F := Ideal) S2048x2048 .f32 0x00000000#32) (ix2 q d)
      = ∑ k : Fin 256, P (ix2 q k) * V (ix2 k d) := by
  simp only [matmul]
  rw [Ideal.matmul_constant_zero_apply, ← Equiv.sum_comp (contrEquiv1 dot_S2048x256_S256x2048_S2048x2048_1_0_0_1_n_n 256 rfl rfl).symm]
  refine Finset.sum_congr rfl fun k _ => ?_
  have hk := contrEquiv1_symm_val dot_S2048x256_S256x2048_S2048x2048_1_0_0_1_n_n 256 rfl rfl k
  have el : dot_S2048x256_S256x2048_S2048x2048_1_0_0_1_n_n.lhsIdx (ix2 q d) ((contrEquiv1 dot_S2048x256_S256x2048_S2048x2048_1_0_0_1_n_n 256 rfl rfl).symm k) = ix2 q k := funext fun a => Fin.ext (by
    match a with
    | ⟨0, _⟩ => exact pv_lhs_0 _ _
    | ⟨1, _⟩ => exact (pv_lhs_1 _ _).trans hk)
  have er : dot_S2048x256_S256x2048_S2048x2048_1_0_0_1_n_n.rhsIdx (ix2 q d) ((contrEquiv1 dot_S2048x256_S256x2048_S2048x2048_1_0_0_1_n_n 256 rfl rfl).symm k) = ix2 k d := funext fun a => Fin.ext (by
    match a with
    | ⟨0, _⟩ => exact (pv_rhs_0 _ _).trans hk
    | ⟨1, _⟩ => exact pv_rhs_1 _ _)
  rw [el, er]

/-! ### Two pointwise operations at an index -/

/-- An exponential at an index is the exponential of the element. -/
theorem exp_apply {s : Shape} {φ : FTy} (a : FVec Ideal s φ) (i : s.Idx) : exp a i = Ideal.exp (a i) := rfl

/-- A rounding to the nearest integer at an index is the rounding of the element. -/
theorem roundeven_apply {s : Shape} {φ : FTy} (a : FVec Ideal s φ) (i : s.Idx) :
    roundeven a i = Ideal.liftRound Ideal.roundHalfEven (a i) := rfl

/-! ### The reset values, the query cast and the output -/

/-- The running maximum is reset to -∞. -/
theorem pay1_apply (q : Fin 2048) : k1_pay1 (F := Ideal) (ix2 q (0 : Fin 1)) = ⊥ := by
  unfold k1_pay1
  simp only [shapeCast_self, broadcast_apply]
  exact ofBits_neg_inf_f32

/-- The running denominator is reset to 0. -/
theorem pay2_apply (q : Fin 2048) : k1_pay2 (F := Ideal) (ix2 q (0 : Fin 1)) = 0 := by
  unfold k1_pay2
  simp only [shapeCast_self, broadcast_apply]
  exact Ideal.ofBits_zero_f32

/-- The running numerator is reset to 0. -/
theorem pay3_apply (q d : Fin 2048) : k1_pay3 (F := Ideal) (ix2 q d) = 0 := by
  unfold k1_pay3
  simp only [shapeCast_self, broadcast_apply]
  exact Ideal.ofBits_zero_f32

/-- The query block [1, 2048, 2048] read as [2048, 2048]. -/
theorem pay4_apply (x0 : Vec Ideal S1x2048x2048 .bf16) (q e : Fin 2048) :
    k1_pay4 (F := Ideal) x0 (ix2 q e) = x0 (ix3 (0 : Fin 1) q e) := by
  unfold k1_pay4
  exact shapeCast_1ab_ab_apply x0 shapeCasts_S1x2048x2048_S2048x2048 q e

/-- The output entry: numerator over denominator, rounded to four decimals. -/
theorem pay7_apply (acc : Vec Ideal S2048x2048 .f32) (l : Vec Ideal S2048x1 .f32) (q d : Fin 2048) :
    k1_pay7 (F := Ideal) acc l (ix3 (0 : Fin 1) q d)
      = Cert.Spec.round4 (Ideal.div (acc (ix2 q d)) (l (ix2 q (0 : Fin 1)))) := by
  unfold k1_pay7
  rw [shapeCast_ab_1ab_apply, divf_apply, broadcast_apply, roundeven_apply, mulf_apply, broadcast_apply, divf_apply,
    broadcastTo_a1_ab_apply]
  rfl

end Cert.KernelIdeal.PayVal
-- ==== Proof.KI.Pay1b.lean ====
/-
  The attention kernel's arithmetic read at an entry, part two: what a tile of 256 keys does to the running
  maximum, denominator and numerator of a query row.  For the tile of past keys and for the tile of new keys
  alike, the three values written are one step of the online softmax recurrence applied to the three values
  read, on the tile's scaled scores (query row against key rows) and one column of the tile's values.
-/
import proofs.«127725_j2052994367817_2_alg».proof.Proof.KI.Pay1a
import proofs.«127725_j2052994367817_2_alg».proof.Proof.LibOnlineSoftmax

noncomputable section

namespace Cert.KernelIdeal.PayVal

open Cert.KernelIdeal Cert.KernelIdeal.Gen Idealize.ShloMosaic Idealize.ShloMosaic.ValueIdx PhysLoss
open Cert.Lib.OnlineSoftmax

/-- The scores of the past tile: query row q against the tile's key k, scaled. -/
theorem pay8_apply (v4 : FVec Ideal S2048x2048 .bf16) (kk : Vec Ideal S1x256x2048 .f32) (q : Fin 2048) (k : Fin 256) :
    k1_pay8 (F := Ideal) v4 kk (ix2 q k)
      = (∑ e : Fin 2048, v4 (ix2 q e) * kk (ix3 (0 : Fin 1) k e)) * Ideal.ofBits .f32 0x3CB504F3#32 := by
  unfold k1_pay8
  rw [mulf_apply, broadcast_apply, qk_apply]
  have hK : ∀ e : Fin 2048, (truncf .bf16 (shapeCast S256x2048 kk shapeCasts_S1x256x2048_S256x2048) bitsLt_bf16_f32 : FVec Ideal S256x2048 .bf16) (ix2 k e) = kk (ix3 (0 : Fin 1) k e) :=
    fun e => shapeCast_1ab_ab_apply kk shapeCasts_S1x256x2048_S256x2048 k e
  simp only [hK]
  rfl

/-- The new running maximum of the past tile: the old one joined with the row's scores. -/
theorem pay9_apply (v4 : FVec Ideal S2048x2048 .bf16) (kk : Vec Ideal S1x256x2048 .f32) (m : Vec Ideal S2048x1 .f32)
    (q : Fin 2048) :
    k1_pay9 (F := Ideal) v4 kk m (ix2 q (0 : Fin 1))
      = max (m (ix2 q (0 : Fin 1))) (Finset.univ.sup fun k : Fin 256 => k1_pay8 (F := Ideal) v4 kk (ix2 q k)) := by
  unfold k1_pay9
  rw [maximumf_apply, shapeCast_a_a1_apply, rowmax_apply]

/-- The rescaling factor of the past tile: exp (old maximum − new maximum). -/
theorem pay10_apply (v4 : FVec Ideal S2048x2048 .bf16) (kk : Vec Ideal S1x256x2048 .f32) (m m' : Vec Ideal S2048x1 .f32)
    (i : S2048x1.Idx) :
    k1_pay10 (F := Ideal) v4 kk m m' i = Ideal.exp (m' i - k1_pay9 (F := Ideal) v4 kk m i) := rfl

/-- The unnormalised weights of the past tile: exp (score − new maximum). -/
theorem pay11_apply (v4 : FVec Ideal S2048x2048 .bf16) (kk : Vec Ideal S1x256x2048 .f32) (m : Vec Ideal S2048x1 .f32)
    (q : Fin 2048) (k : Fin 256) :
    k1_pay11 (F := Ideal) v4 kk m (ix2 q k)
      = Ideal.exp (k1_pay8 (F := Ideal) v4 kk (ix2 q k) - k1_pay9 (F := Ideal) v4 kk m (ix2 q (0 : Fin 1))) := by
  unfold k1_pay11
  rw [exp_apply, subf_apply, broadcastTo_a1_ab_apply]

/-- The new running denominator of the past tile. -/
theorem pay12_apply (v4 : FVec Ideal S2048x2048 .bf16) (kk : Vec Ideal S1x256x2048 .f32) (m m' l : Vec Ideal S2048x1 .f32)
    (q : Fin 2048) :
    k1_pay12 (F := Ideal) v4 kk m m' l (ix2 q (0 : Fin 1))
      = k1_pay10 (F := Ideal) v4 kk m m' (ix2 q (0 : Fin 1)) * l (ix2 q (0 : Fin 1))
        + (0 + ∑ k : Fin 256, k1_pay11 (F := Ideal) v4 kk m (ix2 q k)) := by
  unfold k1_pay12
  rw [shapeCast_self, addf_apply, mulf_apply, shapeCast_a_a1_apply, rowsum_apply, zero_add]

/-- The new running numerator of the past tile, at column d. -/
theorem pay13_apply (v4 : FVec Ideal S2048x2048 .bf16) (kk : Vec Ideal S1x256x2048 .f32) (vv : Vec Ideal S1x256x2048 .f32)
    (m m' : Vec Ideal S2048x1 .f32) (acc : Vec Ideal S2048x2048 .f32) (q d : Fin 2048) :
    k1_pay13 (F := Ideal) v4 kk vv m m' acc (ix2 q d)
      = k1_pay10 (F := Ideal) v4 kk m m' (ix2 q (0 : Fin 1)) * acc (ix2 q d)
        + ∑ k : Fin 256, k1_pay11 (F := Ideal) v4 kk m (ix2 q k) * vv (ix3 (0 : Fin 1) k d) := by
  unfold k1_pay13
  rw [shapeCast_self, addf_apply, mulf_apply, broadcastTo_a1_ab_apply, pv_apply]
  refine congrArg (HAdd.hAdd _) (Finset.sum_congr rfl fun k _ => ?_)
  exact congrArg (HMul.hMul _) (shapeCast_1ab_ab_apply vv shapeCasts_S1x256x2048_S256x2048 k d)

/-- The past tile's three stored values at query row q (and column d) are one step of the online softmax
    recurrence from the three values read, on the tile's scores and its value column d. -/
theorem past_tile (v4 : FVec Ideal S2048x2048 .bf16) (kk vv : Vec Ideal S1x256x2048 .f32)
    (mS lS : Vec Ideal S2048x1 .f32) (accS : Vec Ideal S2048x2048 .f32) (q d : Fin 2048) :
    (k1_pay5 (F := Ideal) (k1_pay9 (F := Ideal) v4 kk mS) (ix2 q (0 : Fin 1)),
     k1_pay12 (F := Ideal) v4 kk mS mS lS (ix2 q (0 : Fin 1)),
     k1_pay13 (F := Ideal) v4 kk vv mS mS accS (ix2 q d))
      = step (mS (ix2 q (0 : Fin 1)), lS (ix2 q (0 : Fin 1)), accS (ix2 q d))
          (fun k : Fin 256 => (∑ e : Fin 2048, v4 (ix2 q e) * kk (ix3 (0 : Fin 1) k e)) * Ideal.ofBits .f32 0x3CB504F3#32)
          (fun k : Fin 256 => vv (ix3 (0 : Fin 1) k d)) := by
  have h5 : k1_pay5 (F := Ideal) (k1_pay9 (F := Ideal) v4 kk mS) = k1_pay9 (F := Ideal) v4 kk mS := by
    unfold k1_pay5
    rw [shapeCast_self]
  rw [h5]
  simp only [step, pay12_apply, pay13_apply, pay10_apply, pay11_apply, pay9_apply, pay8_apply]

/-- The scores of the new tile: query row q against the tile's key k, scaled. -/
theorem pay14_apply (v4 : FVec Ideal S2048x2048 .bf16) (kk : Vec Ideal S1x256x2048 .bf16) (q : Fin 2048) (k : Fin 256) :
    k1_pay14 (F := Ideal) v4 kk (ix2 q k)
      = (∑ e : Fin 2048, v4 (ix2 q e) * kk (ix3 (0 : Fin 1) k e)) * Ideal.ofBits .f32 0x3CB504F3#32 := by
  unfold k1_pay14
  rw [mulf_apply, broadcast_apply, qk_apply]
  have hK : ∀ e : Fin 2048, (shapeCast S256x2048 kk shapeCasts_S1x256x2048_S256x2048 : FVec Ideal S256x2048 .bf16) (ix2 k e) = kk (ix3 (0 : Fin 1) k e) :=
    fun e => shapeCast_1ab_ab_apply kk shapeCasts_S1x256x2048_S256x2048 k e
  simp only [hK]
  rfl

/-- The new running maximum of the new tile: the old one joined with the row's scores. -/
theorem pay15_apply (v4 : FVec Ideal S2048x2048 .bf16) (kk : Vec Ideal S1x256x2048 .bf16) (m : Vec Ideal S2048x1 .f32)
    (q : Fin 2048) :
    k1_pay15 (F := Ideal) v4 kk m (ix2 q (0 : Fin 1))
      = max (m (ix2 q (0 : Fin 1))) (Finset.univ.sup fun k : Fin 256 => k1_pay14 (F := Ideal) v4 kk (ix2 q k)) := by
  unfold k1_pay15
  rw [maximumf_apply, shapeCast_a_a1_apply, rowmax_apply]

/-- The rescaling factor of the new tile: exp (old maximum − new maximum). -/
theorem pay16_apply (v4 : FVec Ideal S2048x2048 .bf16) (kk : Vec Ideal S1x256x2048 .bf16) (m m' : Vec Ideal S2048x1 .f32)
    (i : S2048x1.Idx) :
    k1_pay16 (F := Ideal) v4 kk m m' i = Ideal.exp (m' i - k1_pay15 (F := Ideal) v4 kk m i) := rfl

/-- The unnormalised weights of the new tile: exp (score − new maximum). -/
theorem pay17_apply (v4 : FVec Ideal S2048x2048 .bf16) (kk : Vec Ideal S1x256x2048 .bf16) (m : Vec Ideal S2048x1 .f32)
    (q : Fin 2048) (k : Fin 256) :
    k1_pay17 (F := Ideal) v4 kk m (ix2 q k)
      = Ideal.exp (k1_pay14 (F := Ideal) v4 kk (ix2 q k) - k1_pay15 (F := Ideal) v4 kk m (ix2 q (0 : Fin 1))) := by
  unfold k1_pay17
  rw [exp_apply, subf_apply, broadcastTo_a1_ab_apply]

/-- The new running denominator of the new tile. -/
theorem pay18_apply (v4 : FVec Ideal S2048x2048 .bf16) (kk : Vec Ideal S1x256x2048 .bf16) (m m' l : Vec Ideal S2048x1 .f32)
    (q : Fin 2048) :
    k1_pay18 (F := Ideal) v4 kk m m' l (ix2 q (0 : Fin 1))
      = k1_pay16 (F := Ideal) v4 kk m m' (ix2 q (0 : Fin 1)) * l (ix2 q (0 : Fin 1))
        + (0 + ∑ k : Fin 256, k1_pay17 (F := Ideal) v4 kk m (ix2 q k)) := by
  unfold k1_pay18
  rw [shapeCast_self, addf_apply, mulf_apply, shapeCast_a_a1_apply, rowsum_apply, zero_add]

/-- The new running numerator of the new tile, at column d. -/
theorem pay19_apply (v4 : FVec Ideal S2048x2048 .bf16) (kk : Vec Ideal S1x256x2048 .bf16) (vv : Vec Ideal S1x256x2048 .bf16)
    (m m' : Vec Ideal S2048x1 .f32) (acc : Vec Ideal S2048x2048 .f32) (q d : Fin 2048) :
    k1_pay19 (F := Ideal) v4 kk vv m m' acc (ix2 q d)
      = k1_pay16 (F := Ideal) v4 kk m m' (ix2 q (0 : Fin 1)) * acc (ix2 q d)
        + ∑ k : Fin 256, k1_pay17 (F := Ideal) v4 kk m (ix2 q k) * vv (ix3 (0 : Fin 1) k d) := by
  unfold k1_pay19
  rw [shapeCast_self, addf_apply, mulf_apply, broadcastTo_a1_ab_apply, pv_apply]
  refine congrArg (HAdd.hAdd _) (Finset.sum_congr rfl fun k _ => ?_)
  exact congrArg (HMul.hMul _) (shapeCast_1ab_ab_apply vv shapeCasts_S1x256x2048_S256x2048 k d)

/-- The new tile's three stored values at query row q (and column d) are one step of the online softmax
    recurrence from the three values read, on the tile's scores and its value column d. -/
theorem new_tile (v4 : FVec Ideal S2048x2048 .bf16) (kk vv : Vec Ideal S1x256x2048 .bf16)
    (mS lS : Vec Ideal S2048x1 .f32) (accS : Vec Ideal S2048x2048 .f32) (q d : Fin 2048) :
    (k1_pay6 (F := Ideal) (k1_pay15 (F := Ideal) v4 kk mS) (ix2 q (0 : Fin 1)),
     k1_pay18 (F := Ideal) v4 kk mS mS lS (ix2 q (0 : Fin 1)),
     k1_pay19 (F := Ideal) v4 kk vv mS mS accS (ix2 q d))
      = step (mS (ix2 q (0 : Fin 1)), lS (ix2 q (0 : Fin 1)), accS (ix2 q d))
          (fun k : Fin 256 => (∑ e : Fin 2048, v4 (ix2 q e) * kk (ix3 (0 : Fin 1) k e)) * Ideal.ofBits .f32 0x3CB504F3#32)
          (fun k : Fin 256 => vv (ix3 (0 : Fin 1) k d)) := by
  have h5 : k1_pay6 (F := Ideal) (k1_pay15 (F := Ideal) v4 kk mS) = k1_pay15 (F := Ideal) v4 kk mS := by
    unfold k1_pay6
    rw [shapeCast_self]
  rw [h5]
  simp only [step, pay18_apply, pay19_apply, pay16_apply, pay17_apply, pay15_apply, pay14_apply]

end Cert.KernelIdeal.PayVal
-- ==== Proof.KI.Pay1.lean ====
/-
  The attention kernel's arithmetic read at an entry: both parts.
-/
import proofs.«127725_j2052994367817_2_alg».proof.Proof.KI.Pay1a
import proofs.«127725_j2052994367817_2_alg».proof.Proof.KI.Pay1b
-- ==== Proof.KI.R1Val.lean ====
/- The attention region's recursion over the grid points, read at an entry: after tile j of batch entry b the three
   scratch values of query row q (and output column d) are the online softmax recurrence run over the tiles 0 … j;
   after the last tile the output entry is the rounded quotient of its numerator by its denominator. The blocks the
   windows hold are taken as given functions of the batch entry, the tile and the coordinates. -/
import proofs.«127725_j2052994367817_2_alg».proof.Proof.KI.R1Pieces
import proofs.«127725_j2052994367817_2_alg».proof.Proof.KI.R1Dat
import proofs.«127725_j2052994367817_2_alg».proof.Proof.KI.Pay1
import proofs.«127725_j2052994367817_2_alg».proof.Proof.LibOnlineSoftmax

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Lib.OnlineSoftmax

/-! ### One tile at an entry, over variables -/

/-- One past tile at an entry: if the scratch triple T is what the tile's arithmetic leaves from the triple S, the
    query row q of the query block is qr, the tile's key rows are kr and its value column d is vc, then T at the entry
    is one step of the online softmax recurrence from S at the entry, on the scaled scores of qr against kr and on vc. -/
theorem past_entry (x0 : Vec Ideal S1x2048x2048 .bf16) (xk xv : Vec Ideal S1x256x2048 .f32) (S T : St Ideal)
    (hT : T = (k1_pay5 (F := Ideal) (k1_pay9 (F := Ideal) (k1_pay4 (F := Ideal) x0) xk S.1),
               k1_pay12 (F := Ideal) (k1_pay4 (F := Ideal) x0) xk S.1 S.1 S.2.1,
               k1_pay13 (F := Ideal) (k1_pay4 (F := Ideal) x0) xk xv S.1 S.1 S.2.2))
    (q d : Fin 2048) (qr : Fin 2048 → EReal) (kr : Fin 256 → Fin 2048 → EReal) (vc : Fin 256 → EReal)
    (hq : ∀ e, x0 (ix3 (0 : Fin 1) q e) = qr e) (hk : ∀ k e, xk (ix3 (0 : Fin 1) k e) = kr k e)
    (hv : ∀ k, xv (ix3 (0 : Fin 1) k d) = vc k) :
    (T.1 (ix2 q (0 : Fin 1)), T.2.1 (ix2 q (0 : Fin 1)), T.2.2 (ix2 q d))
      = step (S.1 (ix2 q (0 : Fin 1)), S.2.1 (ix2 q (0 : Fin 1)), S.2.2 (ix2 q d))
          (fun k : Fin 256 => (∑ e : Fin 2048, qr e * kr k e) * Ideal.ofBits .f32 0x3CB504F3#32) vc := by
  subst hT
  refine (PayVal.past_tile (k1_pay4 (F := Ideal) x0) xk xv S.1 S.2.1 S.2.2 q d).trans ?_
  have hs : (fun k : Fin 256 => (∑ e : Fin 2048, k1_pay4 (F := Ideal) x0 (ix2 q e) * xk (ix3 (0 : Fin 1) k e)) * Ideal.ofBits .f32 0x3CB504F3#32)
      = fun k : Fin 256 => (∑ e : Fin 2048, qr e * kr k e) * Ideal.ofBits .f32 0x3CB504F3#32 := by
    funext k
    exact congrArg (fun x => x * Ideal.ofBits .f32 0x3CB504F3#32) (Finset.sum_congr rfl fun e _ => by rw [PayVal.pay4_apply, hq, hk])
  have hvf : (fun k : Fin 256 => xv (ix3 (0 : Fin 1) k d)) = vc := funext hv
  rw [hs, hvf]

/-- One new tile at an entry: if the scratch triple T is what the tile's arithmetic leaves from the triple S, the
    query row q of the query block is qr, the tile's key rows are kr and its value column d is vc, then T at the entry
    is one step of the online softmax recurrence from S at the entry, on the scaled scores of qr against kr and on vc. -/
theorem new_entry (x0 : Vec Ideal S1x2048x2048 .bf16) (xk xv : Vec Ideal S1x256x2048 .bf16) (S T : St Ideal)
    (hT : T = (k1_pay6 (F := Ideal) (k1_pay15 (F := Ideal) (k1_pay4 (F := Ideal) x0) xk S.1),
               k1_pay18 (F := Ideal) (k1_pay4 (F := Ideal) x0) xk S.1 S.1 S.2.1,
               k1_pay19 (F := Ideal) (k1_pay4 (F := Ideal) x0) xk xv S.1 S.1 S.2.2))
    (q d : Fin 2048) (qr : Fin 2048 → EReal) (kr : Fin 256 → Fin 2048 → EReal) (vc : Fin 256 → EReal)
    (hq : ∀ e, x0 (ix3 (0 : Fin 1) q e) = qr e) (hk : ∀ k e, xk (ix3 (0 : Fin 1) k e) = kr k e)
    (hv : ∀ k, xv (ix3 (0 : Fin 1) k d) = vc k) :
    (T.1 (ix2 q (0 : Fin 1)), T.2.1 (ix2 q (0 : Fin 1)), T.2.2 (ix2 q d))
      = step (S.1 (ix2 q (0 : Fin 1)), S.2.1 (ix2 q (0 : Fin 1)), S.2.2 (ix2 q d))
          (fun k : Fin 256 => (∑ e : Fin 2048, qr e * kr k e) * Ideal.ofBits .f32 0x3CB504F3#32) vc := by
  subst hT
  refine (PayVal.new_tile (k1_pay4 (F := Ideal) x0) xk xv S.1 S.2.1 S.2.2 q d).trans ?_
  have hs : (fun k : Fin 256 => (∑ e : Fin 2048, k1_pay4 (F := Ideal) x0 (ix2 q e) * xk (ix3 (0 : Fin 1) k e)) * Ideal.ofBits .f32 0x3CB504F3#32)
      = fun k : Fin 256 => (∑ e : Fin 2048, qr e * kr k e) * Ideal.ofBits .f32 0x3CB504F3#32 := by
    funext k
    exact congrArg (fun x => x * Ideal.ofBits .f32 0x3CB504F3#32) (Finset.sum_congr rfl fun e _ => by rw [PayVal.pay4_apply, hq, hk])
  have hvf : (fun k : Fin 256 => xv (ix3 (0 : Fin 1) k d)) = vc := funext hv
  rw [hs, hvf]

/-! ### The recursion over the grid points, read at an entry -/

section Rec

variable (V : (c : Dev nD) → (b : Ref sig .tc) → Buf (Elt Ideal) ((c : Thread nD τ).loc b)) (c : Dev nD)

/-- The scratch after a point depends on the point's position only. -/
theorem stAt_congr (n m : ℕ) (hn : n < cfg1.N) (hm : m < cfg1.N) (h : n = m) : stAt V c n hn = stAt V c m hm := by
  subst h; rfl

variable (Q : Fin 4 → Fin 2048 → Fin 2048 → EReal) (Kt Vt : Fin 4 → Fin 16 → Fin 256 → Fin 2048 → EReal)
  (hQ : ∀ (t : Fin cfg1.N) (b : Fin 4) (j : Fin 16), t.val = 16 * b.val + j.val → ∀ (q e : Fin 2048),
    (iblk1 V c 0 t : Vec Ideal S1x2048x2048 .bf16) (ix3 (0 : Fin 1) q e) = Q b q e)
  (hK1 : ∀ (t : Fin cfg1.N) (b : Fin 4) (j : Fin 16), t.val = 16 * b.val + j.val → j.val < 8 → ∀ (k : Fin 256) (e : Fin 2048),
    (iblk1 V c 1 t : Vec Ideal S1x256x2048 .f32) (ix3 (0 : Fin 1) k e) = Kt b j k e)
  (hV1 : ∀ (t : Fin cfg1.N) (b : Fin 4) (j : Fin 16), t.val = 16 * b.val + j.val → j.val < 8 → ∀ (k : Fin 256) (e : Fin 2048),
    (iblk1 V c 2 t : Vec Ideal S1x256x2048 .f32) (ix3 (0 : Fin 1) k e) = Vt b j k e)
  (hK3 : ∀ (t : Fin cfg1.N) (b : Fin 4) (j : Fin 16), t.val = 16 * b.val + j.val → ¬j.val < 8 → ∀ (k : Fin 256) (e : Fin 2048),
    (iblk1 V c 3 t : Vec Ideal S1x256x2048 .bf16) (ix3 (0 : Fin 1) k e) = Kt b j k e)
  (hV3 : ∀ (t : Fin cfg1.N) (b : Fin 4) (j : Fin 16), t.val = 16 * b.val + j.val → ¬j.val < 8 → ∀ (k : Fin 256) (e : Fin 2048),
    (iblk1 V c 4 t : Vec Ideal S1x256x2048 .bf16) (ix3 (0 : Fin 1) k e) = Vt b j k e)

include hQ hK1 hV1 hK3 hV3

/-- After tile jn of batch entry b (grid position 16 b + jn), the scratch at query row q (and column d) is the online
    softmax recurrence run over the tiles 0 … jn, on the scaled scores of query row q against each tile's keys and on
    column d of each tile's values. -/
theorem stAt_run_aux (b : Fin 4) (q d : Fin 2048) :
    ∀ (jn : ℕ) (hj : jn < 16) (n : ℕ) (hn : n < cfg1.N), n = 16 * b.val + jn →
      ((stAt V c n hn).1 (ix2 q (0 : Fin 1)), (stAt V c n hn).2.1 (ix2 q (0 : Fin 1)), (stAt V c n hn).2.2 (ix2 q d))
        = run (fun (j' : Fin 16) (k : Fin 256) => (∑ e : Fin 2048, Q b q e * Kt b j' k e) * Ideal.ofBits .f32 0x3CB504F3#32) (fun (j' : Fin 16) (k : Fin 256) => Vt b j' k d) (jn + 1) (by omega) := by
  have hN : cfg1.N = 64 := Gen.N_1
  intro jn
  induction jn with
  | zero =>
    intro hj n hn hnb
    have hA : (⟨n, hn⟩ : Fin cfg1.N).val % 16 = 0 := by show n % 16 = 0; omega
    have e := (stAt_A V c (⟨n, hn⟩ : Fin cfg1.N) hA).trans
      (stA_eq (F := Ideal) c (⟨n, hn⟩ : Fin cfg1.N) _ _ _ _ (iblk1 V c 0 (⟨n, hn⟩ : Fin cfg1.N)) (iblk1 V c 1 (⟨n, hn⟩ : Fin cfg1.N)) (iblk1 V c 2 (⟨n, hn⟩ : Fin cfg1.N)))
    refine (past_entry (iblk1 V c 0 (⟨n, hn⟩ : Fin cfg1.N)) (iblk1 V c 1 (⟨n, hn⟩ : Fin cfg1.N)) (iblk1 V c 2 (⟨n, hn⟩ : Fin cfg1.N))
      (k1_pay1 (F := Ideal), k1_pay2 (F := Ideal), k1_pay3 (F := Ideal)) (stAt V c n hn) e q d (Q b q) (Kt b ⟨0, hj⟩)
      (fun k => Vt b ⟨0, hj⟩ k d)
      (fun e' => hQ (⟨n, hn⟩ : Fin cfg1.N) b ⟨0, hj⟩ hnb q e') (fun k e' => hK1 (⟨n, hn⟩ : Fin cfg1.N) b ⟨0, hj⟩ hnb (by show 0 < 8; omega) k e')
      (fun k => hV1 (⟨n, hn⟩ : Fin cfg1.N) b ⟨0, hj⟩ hnb (by show 0 < 8; omega) k d)).trans ?_
    rw [run_succ, run_zero]
    show step (k1_pay1 (F := Ideal) (ix2 q (0 : Fin 1)), k1_pay2 (F := Ideal) (ix2 q (0 : Fin 1)), k1_pay3 (F := Ideal) (ix2 q d)) _ _ = _
    rw [PayVal.pay1_apply, PayVal.pay2_apply, PayVal.pay3_apply]
  | succ jn ih =>
    intro hj n hn hnb
    have hm : 16 * b.val + jn < cfg1.N := by have := b.isLt; omega
    have hp : stPrev V c (⟨n, hn⟩ : Fin cfg1.N) = stAt V c (16 * b.val + jn) hm :=
      stAt_congr V c _ _ _ hm (by show n - 1 = 16 * b.val + jn; omega)
    have ih' := ih (by omega) (16 * b.val + jn) hm rfl
    have hA : ¬(⟨n, hn⟩ : Fin cfg1.N).val % 16 = 0 := by show ¬n % 16 = 0; omega
    by_cases hB : jn + 1 < 8
    · have hB' : (⟨n, hn⟩ : Fin cfg1.N).val % 16 < 8 := by show n % 16 < 8; omega
      have e := (stAt_B V c (⟨n, hn⟩ : Fin cfg1.N) hA hB').trans
        (stB_eq (F := Ideal) c (⟨n, hn⟩ : Fin cfg1.N) _ _ _ _ (iblk1 V c 0 (⟨n, hn⟩ : Fin cfg1.N)) (iblk1 V c 1 (⟨n, hn⟩ : Fin cfg1.N)) (iblk1 V c 2 (⟨n, hn⟩ : Fin cfg1.N)) (stPrev V c (⟨n, hn⟩ : Fin cfg1.N)))
      refine (past_entry (iblk1 V c 0 (⟨n, hn⟩ : Fin cfg1.N)) (iblk1 V c 1 (⟨n, hn⟩ : Fin cfg1.N)) (iblk1 V c 2 (⟨n, hn⟩ : Fin cfg1.N))
        (stPrev V c (⟨n, hn⟩ : Fin cfg1.N)) (stAt V c n hn) e q d (Q b q) (Kt b ⟨jn + 1, hj⟩) (fun k => Vt b ⟨jn + 1, hj⟩ k d)
        (fun e' => hQ (⟨n, hn⟩ : Fin cfg1.N) b ⟨jn + 1, hj⟩ hnb q e') (fun k e' => hK1 (⟨n, hn⟩ : Fin cfg1.N) b ⟨jn + 1, hj⟩ hnb hB k e')
        (fun k => hV1 (⟨n, hn⟩ : Fin cfg1.N) b ⟨jn + 1, hj⟩ hnb hB k d)).trans ?_
      rw [run_succ, hp, ih']
    · have hB' : ¬(⟨n, hn⟩ : Fin cfg1.N).val % 16 < 8 := by show ¬n % 16 < 8; omega
      by_cases hD : jn + 1 = 15
      · have hD' : (⟨n, hn⟩ : Fin cfg1.N).val % 16 = 15 := by show n % 16 = 15; omega
        have e := (stAt_D V c (⟨n, hn⟩ : Fin cfg1.N) hA hB' hD').trans
          (stD_eq (F := Ideal) c (⟨n, hn⟩ : Fin cfg1.N) _ _ _ _ (iblk1 V c 0 (⟨n, hn⟩ : Fin cfg1.N)) (iblk1 V c 3 (⟨n, hn⟩ : Fin cfg1.N)) (iblk1 V c 4 (⟨n, hn⟩ : Fin cfg1.N)) (stPrev V c (⟨n, hn⟩ : Fin cfg1.N)))
        refine (new_entry (iblk1 V c 0 (⟨n, hn⟩ : Fin cfg1.N)) (iblk1 V c 3 (⟨n, hn⟩ : Fin cfg1.N)) (iblk1 V c 4 (⟨n, hn⟩ : Fin cfg1.N))
          (stPrev V c (⟨n, hn⟩ : Fin cfg1.N)) (stAt V c n hn) e q d (Q b q) (Kt b ⟨jn + 1, hj⟩) (fun k => Vt b ⟨jn + 1, hj⟩ k d)
          (fun e' => hQ (⟨n, hn⟩ : Fin cfg1.N) b ⟨jn + 1, hj⟩ hnb q e') (fun k e' => hK3 (⟨n, hn⟩ : Fin cfg1.N) b ⟨jn + 1, hj⟩ hnb hB k e')
          (fun k => hV3 (⟨n, hn⟩ : Fin cfg1.N) b ⟨jn + 1, hj⟩ hnb hB k d)).trans ?_
        rw [run_succ, hp, ih']
      · have hD' : ¬(⟨n, hn⟩ : Fin cfg1.N).val % 16 = 15 := by show ¬n % 16 = 15; omega
        have e := (stAt_C V c (⟨n, hn⟩ : Fin cfg1.N) hA hB' hD').trans
          (stC_eq (F := Ideal) c (⟨n, hn⟩ : Fin cfg1.N) _ _ _ _ (iblk1 V c 0 (⟨n, hn⟩ : Fin cfg1.N)) (iblk1 V c 3 (⟨n, hn⟩ : Fin cfg1.N)) (iblk1 V c 4 (⟨n, hn⟩ : Fin cfg1.N)) (stPrev V c (⟨n, hn⟩ : Fin cfg1.N)))
        refine (new_entry (iblk1 V c 0 (⟨n, hn⟩ : Fin cfg1.N)) (iblk1 V c 3 (⟨n, hn⟩ : Fin cfg1.N)) (iblk1 V c 4 (⟨n, hn⟩ : Fin cfg1.N))
          (stPrev V c (⟨n, hn⟩ : Fin cfg1.N)) (stAt V c n hn) e q d (Q b q) (Kt b ⟨jn + 1, hj⟩) (fun k => Vt b ⟨jn + 1, hj⟩ k d)
          (fun e' => hQ (⟨n, hn⟩ : Fin cfg1.N) b ⟨jn + 1, hj⟩ hnb q e') (fun k e' => hK3 (⟨n, hn⟩ : Fin cfg1.N) b ⟨jn + 1, hj⟩ hnb hB k e')
          (fun k => hV3 (⟨n, hn⟩ : Fin cfg1.N) b ⟨jn + 1, hj⟩ hnb hB k d)).trans ?_
        rw [run_succ, hp, ih']

/-- The same, stated at tile j of batch entry b. -/
theorem stAt_run (b : Fin 4) (j : Fin 16) (q d : Fin 2048) (hn : 16 * b.val + j.val < cfg1.N) :
    ((stAt V c (16 * b.val + j.val) hn).1 (ix2 q (0 : Fin 1)), (stAt V c (16 * b.val + j.val) hn).2.1 (ix2 q (0 : Fin 1)), (stAt V c (16 * b.val + j.val) hn).2.2 (ix2 q d))
      = run (fun (j' : Fin 16) (k : Fin 256) => (∑ e : Fin 2048, Q b q e * Kt b j' k e) * Ideal.ofBits .f32 0x3CB504F3#32) (fun (j' : Fin 16) (k : Fin 256) => Vt b j' k d) (j.val + 1) (by omega) :=
  stAt_run_aux V c Q Kt Vt hQ hK1 hV1 hK3 hV3 b q d j.val j.isLt _ hn rfl

/-- After the last tile of batch entry b the output block at (q, d) is the rounded quotient of the numerator by the
    denominator of the recurrence run over all 16 tiles. -/
theorem outAt_val (b : Fin 4) (q d : Fin 2048) (hn : 16 * b.val + 15 < cfg1.N) :
    outAt V c (16 * b.val + 15) hn (ix3 (0 : Fin 1) q d)
      = Cert.Spec.round4 (Ideal.div (run (fun (j' : Fin 16) (k : Fin 256) => (∑ e : Fin 2048, Q b q e * Kt b j' k e) * Ideal.ofBits .f32 0x3CB504F3#32) (fun (j' : Fin 16) (k : Fin 256) => Vt b j' k d) 16 le_rfl).2.2 (run (fun (j' : Fin 16) (k : Fin 256) => (∑ e : Fin 2048, Q b q e * Kt b j' k e) * Ideal.ofBits .f32 0x3CB504F3#32) (fun (j' : Fin 16) (k : Fin 256) => Vt b j' k d) 16 le_rfl).2.1) := by
  have hA : (⟨16 * b.val + 15, hn⟩ : Fin cfg1.N).val % 16 = 15 := by show (16 * b.val + 15) % 16 = 15; omega
  have hA0 : ¬(⟨16 * b.val + 15, hn⟩ : Fin cfg1.N).val % 16 = 0 := by show ¬(16 * b.val + 15) % 16 = 0; omega
  have hB : ¬(⟨16 * b.val + 15, hn⟩ : Fin cfg1.N).val % 16 < 8 := by show ¬(16 * b.val + 15) % 16 < 8; omega
  have eo := (outAt_D V c ⟨16 * b.val + 15, hn⟩ hA0 hB hA).trans
    (outD_eq (F := Ideal) c ⟨16 * b.val + 15, hn⟩ _ _ _ _ (iblk1 V c 0 ⟨16 * b.val + 15, hn⟩) (iblk1 V c 3 ⟨16 * b.val + 15, hn⟩)
      (iblk1 V c 4 ⟨16 * b.val + 15, hn⟩) (stPrev V c ⟨16 * b.val + 15, hn⟩))
  have es := stAt_D V c ⟨16 * b.val + 15, hn⟩ hA0 hB hA
  have er := stAt_run V c Q Kt Vt hQ hK1 hV1 hK3 hV3 b ⟨15, by omega⟩ q d hn
  have e2 : (stAt V c (16 * b.val + 15) hn).2.2 (ix2 q d) = (run (fun (j' : Fin 16) (k : Fin 256) => (∑ e : Fin 2048, Q b q e * Kt b j' k e) * Ideal.ofBits .f32 0x3CB504F3#32) (fun (j' : Fin 16) (k : Fin 256) => Vt b j' k d) 16 le_rfl).2.2 := congrArg (fun x => x.2.2) er
  have e1 : (stAt V c (16 * b.val + 15) hn).2.1 (ix2 q (0 : Fin 1)) = (run (fun (j' : Fin 16) (k : Fin 256) => (∑ e : Fin 2048, Q b q e * Kt b j' k e) * Ideal.ofBits .f32 0x3CB504F3#32) (fun (j' : Fin 16) (k : Fin 256) => Vt b j' k d) 16 le_rfl).2.1 := congrArg (fun x => x.2.1) er
  rw [← e2, ← e1, es]
  exact (congrFun eo (ix3 (0 : Fin 1) q d)).trans (PayVal.pay7_apply _ _ q d)

end Rec

end Cert.KernelIdeal.Hand

end
-- ==== Proof.KI.Val1Blocks.lean ====
/- The attention region's blocks at the ideal values: what each input window's block at a grid point reads of its
   array (the point's batch entry is its position divided by 16, its key/value tile the remainder), and the output
   array after the grid — batch entry b of it is what the last tile's point 16 b + 15 stored. -/
import proofs.«127725_j2052994367817_2_alg».proof.Proof.KI.R1Dat
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! ## The index maps over the grid

The grid is 4 × 16: point t is batch entry t / 16 and tile t % 16. Decided once over the 64 points. -/

/-- The queries' block: batch entry t / 16, whole. -/
theorem idx1_0 : ∀ t : Fin cfg1.N, win1_0.index t (0 : Fin 3) = t.val / 16 ∧ win1_0.index t (1 : Fin 3) = 0 ∧ win1_0.index t (2 : Fin 3) = 0 :=
  (by decide +kernel : ∀ t : Fin grid1.N, _)
/-- The past keys' block: batch entry t / 16, row tile min (t % 16) 7. -/
theorem idx1_1 : ∀ t : Fin cfg1.N, win1_1.index t (0 : Fin 3) = t.val / 16 ∧ win1_1.index t (1 : Fin 3) = min (t.val % 16) 7 ∧ win1_1.index t (2 : Fin 3) = 0 :=
  (by decide +kernel : ∀ t : Fin grid1.N, _)
/-- The past values' block: the same. -/
theorem idx1_2 : ∀ t : Fin cfg1.N, win1_2.index t (0 : Fin 3) = t.val / 16 ∧ win1_2.index t (1 : Fin 3) = min (t.val % 16) 7 ∧ win1_2.index t (2 : Fin 3) = 0 :=
  (by decide +kernel : ∀ t : Fin grid1.N, _)
/-- The new keys' block: batch entry t / 16, row tile t % 16 - 8 (zero below tile 8). -/
theorem idx1_3 : ∀ t : Fin cfg1.N, win1_3.index t (0 : Fin 3) = t.val / 16 ∧ win1_3.index t (1 : Fin 3) = t.val % 16 - 8 ∧ win1_3.index t (2 : Fin 3) = 0 :=
  (by decide +kernel : ∀ t : Fin grid1.N, _)
/-- The new values' block: the same. -/
theorem idx1_4 : ∀ t : Fin cfg1.N, win1_4.index t (0 : Fin 3) = t.val / 16 ∧ win1_4.index t (1 : Fin 3) = t.val % 16 - 8 ∧ win1_4.index t (2 : Fin 3) = 0 :=
  (by decide +kernel : ∀ t : Fin grid1.N, _)
/-- The output's block: batch entry t / 16, whole. -/
theorem idx1_5 : ∀ t : Fin cfg1.N, win1_5.index t (0 : Fin 3) = t.val / 16 ∧ win1_5.index t (1 : Fin 3) = 0 ∧ win1_5.index t (2 : Fin 3) = 0 :=
  (by decide +kernel : ∀ t : Fin grid1.N, _)

/-- A point's batch entry. -/
def batchOf (t : Fin cfg1.N) : Fin 4 := ⟨t.val / 16, by have := t.isLt; have hN : cfg1.N = 64 := N_1; omega⟩
/-- Row k of past tile t % 16 (for a point of the first eight tiles). -/
def pastRow (t : Fin cfg1.N) (hj : t.val % 16 < 8) (k : Fin 256) : Fin 2048 := ⟨256 * (t.val % 16) + k.val, by omega⟩
/-- Row k of new tile t % 16 - 8 (for a point of the last eight tiles). -/
def newRow (t : Fin cfg1.N) (hj : ¬t.val % 16 < 8) (k : Fin 256) : Fin 2048 :=
  ⟨256 * (t.val % 16 - 8) + k.val, by have := Nat.mod_lt t.val (show 0 < 16 by omega); omega⟩

/-! ## The blocks -/

-- the TensorCore's buffer contents when the region is entered, at the ideal values
variable (V : (c : Dev nD) → (b : Ref sig .tc) → Buf (Elt Ideal) ((c : Thread nD τ).loc b))

/-- The queries' block at point t is batch entry t / 16 of the array. -/
theorem iblk1_0_apply (c : Dev nD) (t : Fin cfg1.N) (x : S1x2048x2048.Idx) (k : S4x2048x2048.Idx)
    (hk0 : (k 0).val = t.val / 16) (hk1 : (k 1).val = 0 + (x 1).val) (hk2 : (k 2).val = (x 2).val) :
    (iblk1 V c 0 t : Vec Ideal S1x2048x2048 .bf16) x = (V c main_v5 : S4x2048x2048.Idx → EReal) k := by
  obtain ⟨e0, e1, e2⟩ := idx1_0 t
  have hx0 : (x 0).val < 1 := (x 0).isLt
  unfold iblk1
  rw [View.read_apply]
  show V c main_v5 _ = V c main_v5 _
  refine congrArg (V c main_v5) (funext fun a => Fin.ext ?_)
  match a with
  | ⟨0, _⟩ => show win1_0.index t (0 : Fin 3) * 1 + 1 * (x 0).val = (k 0).val; rw [e0, hk0]; omega
  | ⟨1, _⟩ => show win1_0.index t (1 : Fin 3) * 2048 + 1 * (x 1).val = (k 1).val; rw [e1, hk1]; omega
  | ⟨2, _⟩ => show win1_0.index t (2 : Fin 3) * 2048 + 1 * (x 2).val = (k 2).val; rw [e2, hk2]; omega

/-- The past keys' block at point t is rows 256 · min (t % 16) 7 … of batch entry t / 16. -/
theorem iblk1_1_apply (c : Dev nD) (t : Fin cfg1.N) (x : S1x256x2048.Idx) (k : S4x2048x2048.Idx)
    (hk0 : (k 0).val = t.val / 16) (hk1 : (k 1).val = 256 * min (t.val % 16) 7 + (x 1).val) (hk2 : (k 2).val = (x 2).val) :
    (iblk1 V c 1 t : Vec Ideal S1x256x2048 .f32) x = (V c main_arg1 : S4x2048x2048.Idx → EReal) k := by
  obtain ⟨e0, e1, e2⟩ := idx1_1 t
  have hx0 : (x 0).val < 1 := (x 0).isLt
  unfold iblk1
  rw [View.read_apply]
  show V c main_arg1 _ = V c main_arg1 _
  refine congrArg (V c main_arg1) (funext fun a => Fin.ext ?_)
  match a with
  | ⟨0, _⟩ => show win1_1.index t (0 : Fin 3) * 1 + 1 * (x 0).val = (k 0).val; rw [e0, hk0]; omega
  | ⟨1, _⟩ => show win1_1.index t (1 : Fin 3) * 256 + 1 * (x 1).val = (k 1).val; rw [e1, hk1]; omega
  | ⟨2, _⟩ => show win1_1.index t (2 : Fin 3) * 2048 + 1 * (x 2).val = (k 2).val; rw [e2, hk2]; omega

/-- The past values' block: the same rows of the past values. -/
theorem iblk1_2_apply (c : Dev nD) (t : Fin cfg1.N) (x : S1x256x2048.Idx) (k : S4x2048x2048.Idx)
    (hk0 : (k 0).val = t.val / 16) (hk1 : (k 1).val = 256 * min (t.val % 16) 7 + (x 1).val) (hk2 : (k 2).val = (x 2).val) :
    (iblk1 V c 2 t : Vec Ideal S1x256x2048 .f32) x = (V c main_arg2 : S4x2048x2048.Idx → EReal) k := by
  obtain ⟨e0, e1, e2⟩ := idx1_2 t
  have hx0 : (x 0).val < 1 := (x 0).isLt
  unfold iblk1
  rw [View.read_apply]
  show V c main_arg2 _ = V c main_arg2 _
  refine congrArg (V c main_arg2) (funext fun a => Fin.ext ?_)
  match a with
  | ⟨0, _⟩ => show win1_2.index t (0 : Fin 3) * 1 + 1 * (x 0).val = (k 0).val; rw [e0, hk0]; omega
  | ⟨1, _⟩ => show win1_2.index t (1 : Fin 3) * 256 + 1 * (x 1).val = (k 1).val; rw [e1, hk1]; omega
  | ⟨2, _⟩ => show win1_2.index t (2 : Fin 3) * 2048 + 1 * (x 2).val = (k 2).val; rw [e2, hk2]; omega

/-- The new keys' block at point t is rows 256 · (t % 16 - 8) … of batch entry t / 16. -/
theorem iblk1_3_apply (c : Dev nD) (t : Fin cfg1.N) (x : S1x256x2048.Idx) (k : S4x2048x2048.Idx)
    (hk0 : (k 0).val = t.val / 16) (hk1 : (k 1).val = 256 * (t.val % 16 - 8) + (x 1).val) (hk2 : (k 2).val = (x 2).val) :
    (iblk1 V c 3 t : Vec Ideal S1x256x2048 .bf16) x = (V c main_v6 : S4x2048x2048.Idx → EReal) k := by
  obtain ⟨e0, e1, e2⟩ := idx1_3 t
  have hx0 : (x 0).val < 1 := (x 0).isLt
  unfold iblk1
  rw [View.read_apply]
  show V c main_v6 _ = V c main_v6 _
  refine congrArg (V c main_v6) (funext fun a => Fin.ext ?_)
  match a with
  | ⟨0, _⟩ => show win1_3.index t (0 : Fin 3) * 1 + 1 * (x 0).val = (k 0).val; rw [e0, hk0]; omega
  | ⟨1, _⟩ => show win1_3.index t (1 : Fin 3) * 256 + 1 * (x 1).val = (k 1).val; rw [e1, hk1]; omega
  | ⟨2, _⟩ => show win1_3.index t (2 : Fin 3) * 2048 + 1 * (x 2).val = (k 2).val; rw [e2, hk2]; omega

/-- The new values' block: the same rows of the new values. -/
theorem iblk1_4_apply (c : Dev nD) (t : Fin cfg1.N) (x : S1x256x2048.Idx) (k : S4x2048x2048.Idx)
    (hk0 : (k 0).val = t.val / 16) (hk1 : (k 1).val = 256 * (t.val % 16 - 8) + (x 1).val) (hk2 : (k 2).val = (x 2).val) :
    (iblk1 V c 4 t : Vec Ideal S1x256x2048 .bf16) x = (V c main_v7 : S4x2048x2048.Idx → EReal) k := by
  obtain ⟨e0, e1, e2⟩ := idx1_4 t
  have hx0 : (x 0).val < 1 := (x 0).isLt
  unfold iblk1
  rw [View.read_apply]
  show V c main_v7 _ = V c main_v7 _
  refine congrArg (V c main_v7) (funext fun a => Fin.ext ?_)
  match a with
  | ⟨0, _⟩ => show win1_4.index t (0 : Fin 3) * 1 + 1 * (x 0).val = (k 0).val; rw [e0, hk0]; omega
  | ⟨1, _⟩ => show win1_4.index t (1 : Fin 3) * 256 + 1 * (x 1).val = (k 1).val; rw [e1, hk1]; omega
  | ⟨2, _⟩ => show win1_4.index t (2 : Fin 3) * 2048 + 1 * (x 2).val = (k 2).val; rw [e2, hk2]; omega

/-! ### The same, at literal coordinates -/

theorem iblk1_0_ix (c : Dev nD) (t : Fin cfg1.N) (q e : Fin 2048) :
    (iblk1 V c 0 t : Vec Ideal S1x2048x2048 .bf16) (ix3 (0 : Fin 1) q e) = (V c main_v5 : S4x2048x2048.Idx → EReal) (ix3 (batchOf t) q e) :=
  iblk1_0_apply V c t _ _ rfl (by show q.val = 0 + q.val; omega) rfl
theorem iblk1_1_ix (c : Dev nD) (t : Fin cfg1.N) (hj : t.val % 16 < 8) (k : Fin 256) (e : Fin 2048) :
    (iblk1 V c 1 t : Vec Ideal S1x256x2048 .f32) (ix3 (0 : Fin 1) k e) = (V c main_arg1 : S4x2048x2048.Idx → EReal) (ix3 (batchOf t) (pastRow t hj k) e) :=
  iblk1_1_apply V c t _ _ rfl (by show 256 * (t.val % 16) + k.val = 256 * min (t.val % 16) 7 + k.val; omega) rfl
theorem iblk1_2_ix (c : Dev nD) (t : Fin cfg1.N) (hj : t.val % 16 < 8) (k : Fin 256) (e : Fin 2048) :
    (iblk1 V c 2 t : Vec Ideal S1x256x2048 .f32) (ix3 (0 : Fin 1) k e) = (V c main_arg2 : S4x2048x2048.Idx → EReal) (ix3 (batchOf t) (pastRow t hj k) e) :=
  iblk1_2_apply V c t _ _ rfl (by show 256 * (t.val % 16) + k.val = 256 * min (t.val % 16) 7 + k.val; omega) rfl
theorem iblk1_3_ix (c : Dev nD) (t : Fin cfg1.N) (hj : ¬t.val % 16 < 8) (k : Fin 256) (e : Fin 2048) :
    (iblk1 V c 3 t : Vec Ideal S1x256x2048 .bf16) (ix3 (0 : Fin 1) k e) = (V c main_v6 : S4x2048x2048.Idx → EReal) (ix3 (batchOf t) (newRow t hj k) e) :=
  iblk1_3_apply V c t _ _ rfl rfl rfl
theorem iblk1_4_ix (c : Dev nD) (t : Fin cfg1.N) (hj : ¬t.val % 16 < 8) (k : Fin 256) (e : Fin 2048) :
    (iblk1 V c 4 t : Vec Ideal S1x256x2048 .bf16) (ix3 (0 : Fin 1) k e) = (V c main_v7 : S4x2048x2048.Idx → EReal) (ix3 (batchOf t) (newRow t hj k) e) :=
  iblk1_4_apply V c t _ _ rfl rfl rfl

/-! ### The same at a point written 16 b + j: batch entry b, tile j -/

/-- The queries' block at the point of batch entry b (any tile) is batch entry b of the queries. -/
theorem blk1_0 (c : Dev nD) (t : Fin cfg1.N) (b : Fin 4) (j : Fin 16) (ht : t.val = 16 * b.val + j.val) (q e : Fin 2048) :
    (iblk1 V c 0 t : Vec Ideal S1x2048x2048 .bf16) (ix3 (0 : Fin 1) q e) = (V c main_v5 : S4x2048x2048.Idx → EReal) (ix3 b q e) :=
  iblk1_0_apply V c t _ _ (by have := j.isLt; show b.val = t.val / 16; omega) (by show q.val = 0 + q.val; omega) rfl
/-- At a point of the first eight tiles the past keys' block is tile j of batch entry b: rows 256 j …. -/
theorem blk1_1 (c : Dev nD) (t : Fin cfg1.N) (b : Fin 4) (j : Fin 16) (ht : t.val = 16 * b.val + j.val) (hj : j.val < 8) (k : Fin 256) (e : Fin 2048) :
    (iblk1 V c 1 t : Vec Ideal S1x256x2048 .f32) (ix3 (0 : Fin 1) k e)
      = (V c main_arg1 : S4x2048x2048.Idx → EReal) (ix3 b ⟨256 * j.val + k.val, by omega⟩ e) :=
  iblk1_1_apply V c t _ _ (by have := j.isLt; show b.val = t.val / 16; omega)
    (by show 256 * j.val + k.val = 256 * min (t.val % 16) 7 + k.val; omega) rfl
/-- The past values' block: the same rows of the past values. -/
theorem blk1_2 (c : Dev nD) (t : Fin cfg1.N) (b : Fin 4) (j : Fin 16) (ht : t.val = 16 * b.val + j.val) (hj : j.val < 8) (k : Fin 256) (e : Fin 2048) :
    (iblk1 V c 2 t : Vec Ideal S1x256x2048 .f32) (ix3 (0 : Fin 1) k e)
      = (V c main_arg2 : S4x2048x2048.Idx → EReal) (ix3 b ⟨256 * j.val + k.val, by omega⟩ e) :=
  iblk1_2_apply V c t _ _ (by have := j.isLt; show b.val = t.val / 16; omega)
    (by show 256 * j.val + k.val = 256 * min (t.val % 16) 7 + k.val; omega) rfl
/-- At a point of the last eight tiles the new keys' block is tile j - 8 of batch entry b: rows 256 (j - 8) …. -/
theorem blk1_3 (c : Dev nD) (t : Fin cfg1.N) (b : Fin 4) (j : Fin 16) (ht : t.val = 16 * b.val + j.val) (hj : ¬j.val < 8) (k : Fin 256) (e : Fin 2048) :
    (iblk1 V c 3 t : Vec Ideal S1x256x2048 .bf16) (ix3 (0 : Fin 1) k e)
      = (V c main_v6 : S4x2048x2048.Idx → EReal) (ix3 b ⟨256 * (j.val - 8) + k.val, by have := j.isLt; omega⟩ e) :=
  iblk1_3_apply V c t _ _ (by have := j.isLt; show b.val = t.val / 16; omega)
    (by have := j.isLt; show 256 * (j.val - 8) + k.val = 256 * (t.val % 16 - 8) + k.val; omega) rfl
/-- The new values' block: the same rows of the new values. -/
theorem blk1_4 (c : Dev nD) (t : Fin cfg1.N) (b : Fin 4) (j : Fin 16) (ht : t.val = 16 * b.val + j.val) (hj : ¬j.val < 8) (k : Fin 256) (e : Fin 2048) :
    (iblk1 V c 4 t : Vec Ideal S1x256x2048 .bf16) (ix3 (0 : Fin 1) k e)
      = (V c main_v7 : S4x2048x2048.Idx → EReal) (ix3 b ⟨256 * (j.val - 8) + k.val, by have := j.isLt; omega⟩ e) :=
  iblk1_4_apply V c t _ _ (by have := j.isLt; show b.val = t.val / 16; omega)
    (by have := j.isLt; show 256 * (j.val - 8) + k.val = 256 * (t.val % 16 - 8) + k.val; omega) rfl

end Cert.KernelIdeal.Hand

end
-- ==== Proof.KI.Val1Out.lean ====
/- The attention region's output array after the grid, at the ideal values: the output window is written back only at
   the last tile of each batch entry, so batch entry b of the array is what the point 16 b + 15 stored. -/
import proofs.«127725_j2052994367817_2_alg».proof.Proof.KI.Val1Blocks

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

-- the TensorCore's buffer contents when the region is entered, at the ideal values
variable (V : (c : Dev nD) → (b : Ref sig .tc) → Buf (Elt Ideal) ((c : Thread nD τ).loc b))

/-! ## From the output's blocks to its array

The output window is written back only at the last tile of each batch entry (the points t with t % 16 = 15) and is
idle at every other point; the four written blocks are the four batch entries, so they cover the array. -/

/-- The output array after the grid, as one function: batch entry b holds what point 16 b + 15 stored. -/
def outArr (c : Dev nD) : S4x2048x2048.Idx → EReal := fun i =>
  outAt V c (16 * (i 0).val + 15) (by have h : (i 0).val < 4 := (i 0).isLt; have hN : cfg1.N = 64 := N_1; omega) (ix3 (0 : Fin 1) (i 1) (i 2))

/-- `outArr` at an index of batch entry b is the stored block of any spelling of the point 16 b + 15, at the
    index's row and column. -/
theorem outArr_apply (c : Dev nD) (k : S4x2048x2048.Idx) (n : ℕ) (hn : n < cfg1.N) (x : S1x2048x2048.Idx)
    (h0 : n = 16 * (k 0).val + 15) (h1 : (x 1).val = (k 1).val) (h2 : (x 2).val = (k 2).val) :
    outArr V c k = outAt V c n hn x := by
  subst h0
  have hx0 : (x 0).val < 1 := (x 0).isLt
  unfold outArr
  refine congrArg (outAt V c (16 * (k 0).val + 15) hn) (funext fun a => Fin.ext ?_)
  match a with
  | ⟨0, _⟩ => show 0 = (x 0).val; omega
  | ⟨1, _⟩ => exact h1.symm
  | ⟨2, _⟩ => exact h2.symm

/-- What a last-tile point writes back is its block of `outArr`. -/
theorem flushed1_5_eq (c : Dev nD) (t : Fin cfg1.N) (hf : (cfg1.win 5).flush t = true) :
    (dat1 (F := Ideal) V c).flushed 5 t = ((cfg1.win 5).blk t).view.read (Elt Ideal) (outArr V c) := by
  have hD : t.val % 16 = 15 := (flush1_5 t).mp hf
  show (cfg1.win 5).cut (grid1.coords t) ((dat1 V c).after 5 t) = _
  rw [after1_5]
  obtain ⟨e0, e1, e2⟩ := idx1_5 t
  funext j
  have hj0 : (j 0).val < 1 := (j 0).isLt
  show outAt V c t.val t.isLt j = outArr V c (((cfg1.win 5).blk t).view.emb j)
  refine (outArr_apply V c _ t.val t.isLt j ?_ ?_ ?_).symm
  · show t.val = 16 * (win1_5.index t (0 : Fin 3) * 1 + 1 * (j 0).val) + 15
    rw [e0]; omega
  · show (j 1).val = win1_5.index t (1 : Fin 3) * 2048 + 1 * (j 1).val
    rw [e1]; omega
  · show (j 2).val = win1_5.index t (2 : Fin 3) * 2048 + 1 * (j 2).val
    rw [e2]; omega

/-- An index of the output array is in point t's block iff each coordinate is in the block's range on its axis. -/
theorem mem_blk1_5 (t : Fin cfg1.N) (i : S4x2048x2048.Idx) :
    i ∈ ((cfg1.win 5).blk t).view.set ↔ ∀ a : Fin 3, win1_5.index t a * S1x2048x2048.size a ≤ (i a).val
      ∧ (i a).val < win1_5.index t a * S1x2048x2048.size a + S1x2048x2048.size a := by
  show i ∈ ((View.whole main_v8).slice (win1_5.rect t)).set ↔ _
  rw [View.set_slice_whole, Rect.mem_set_unit]
  exact Iff.rfl

/-- Batch entry b of the output array is the block of the written-back point 16 b + 15. -/
theorem cover1_5 (i : S4x2048x2048.Idx) :
    ∃ t : Fin cfg1.N, (cfg1.win 5).flush t = true ∧ i ∈ ((cfg1.win 5).blk t).view.set := by
  have hi0 : (i 0).val < 4 := (i 0).isLt
  have hi1 : (i 1).val < 2048 := (i 1).isLt
  have hi2 : (i 2).val < 2048 := (i 2).isLt
  have hN : cfg1.N = 64 := N_1
  refine ⟨⟨16 * (i 0).val + 15, by rw [hN]; omega⟩, (flush1_5 _).mpr (by show (16 * (i 0).val + 15) % 16 = 15; omega), ?_⟩
  rw [mem_blk1_5]
  obtain ⟨e0, e1, e2⟩ := idx1_5 ⟨16 * (i 0).val + 15, by rw [hN]; omega⟩
  intro a
  match a with
  | ⟨0, _⟩ =>
    show win1_5.index _ (0 : Fin 3) * 1 ≤ (i 0).val ∧ (i 0).val < win1_5.index _ (0 : Fin 3) * 1 + 1
    rw [e0]; show (16 * (i 0).val + 15) / 16 * 1 ≤ (i 0).val ∧ (i 0).val < (16 * (i 0).val + 15) / 16 * 1 + 1; omega
  | ⟨1, _⟩ =>
    show win1_5.index _ (1 : Fin 3) * 2048 ≤ (i 1).val ∧ (i 1).val < win1_5.index _ (1 : Fin 3) * 2048 + 2048
    rw [e1]; omega
  | ⟨2, _⟩ =>
    show win1_5.index _ (2 : Fin 3) * 2048 ≤ (i 2).val ∧ (i 2).val < win1_5.index _ (2 : Fin 3) * 2048 + 2048
    rw [e2]; omega

/-- After the grid the output array is `outArr`: batch entry b holds what the point 16 b + 15 stored. -/
theorem final1_5 (c : Dev nD) : (dat1 (F := Ideal) V c).arrAt 5 cfg1.N = outArr V c :=
  (dat1 (F := Ideal) V c).arrAt_eq_of_cover 5 (outArr V c) (fun t hf => flushed1_5_eq V c t hf) cover1_5

/-- The output array after the grid at batch entry b, row q, column d. -/
theorem final1_5_apply (c : Dev nD) (b : Fin 4) (q d : Fin 2048) :
    (dat1 (F := Ideal) V c).arrAt 5 cfg1.N (ix3 b q d)
      = outAt V c (16 * b.val + 15) (by have hN : cfg1.N = 64 := N_1; omega) (ix3 (0 : Fin 1) q d) := by
  rw [final1_5]; rfl

end Cert.KernelIdeal.Hand

end
-- ==== Proof.KI.Val.lean ====
/- The attention kernel's output array is the specification's attention output of the launch arguments, entry by
   entry: the operands it is entered with are the specification's projections and the past caches, its tile
   functions are therefore the specification's scores and values, and the online recurrence over the sixteen tiles
   answers the plain softmax-weighted sum. -/
import proofs.«127725_j2052994367817_2_alg».proof.Proof.KI.Val1Entry
import proofs.«127725_j2052994367817_2_alg».proof.Proof.SpecTiles
import proofs.«127725_j2052994367817_2_alg».proof.Proof.KI.R1Val
import proofs.«127725_j2052994367817_2_alg».proof.Proof.KI.Val1Blocks
import proofs.«127725_j2052994367817_2_alg».proof.Proof.KI.Val1Out

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.Lib.OnlineSoftmax

variable (m : (ℓ : Loc nD τ sig) → Buf (Elt Ideal) ℓ) (ρ : Dev nD → PrngReg)

/-- The composition, with the attention kernel's own two facts as hypotheses: its output array read entry by entry
    (O), and each entry as the online recurrence over tile functions Q, Kt, Vt that read the kernel's operands
    as it is entered. Then the output array is the specification's attention output of the launch arguments. -/
theorem kernel_value_of (c : Dev nD)
    (hx : ∀ i, ∃ r : ℝ, m ((c : Thread nD τ).loc main_arg0) i = (r : EReal))
    (hpk : ∀ i, ∃ r : ℝ, m ((c : Thread nD τ).loc main_arg1) i = (r : EReal))
    (hpv : ∀ i, ∃ r : ℝ, m ((c : Thread nD τ).loc main_arg2) i = (r : EReal))
    (hWq : ∀ i, ∃ r : ℝ, m ((c : Thread nD τ).loc main_arg3) i = (r : EReal))
    (hWk : ∀ i, ∃ r : ℝ, m ((c : Thread nD τ).loc main_arg4) i = (r : EReal))
    (hWv : ∀ i, ∃ r : ℝ, m ((c : Thread nD τ).loc main_arg5) i = (r : EReal))
    (A : S4x2048x2048.Idx → EReal) (O : Fin 4 → Fin 2048 → Fin 2048 → EReal)
    (hfin : A = fun i => O (i 0) (i 1) (i 2))
    (Q : Fin 4 → Fin 2048 → Fin 2048 → EReal) (Kt Vt : Fin 4 → Fin 16 → Fin 256 → Fin 2048 → EReal)
    (hO : ∀ b q d, O b q d = Cert.Spec.round4 (Ideal.div
        (run (fun (j : Fin 16) (k : Fin 256) => (∑ e : Fin 2048, Q b q e * Kt b j k e) * Ideal.ofBits .f32 0x3CB504F3#32)
          (fun (j : Fin 16) (k : Fin 256) => Vt b j k d) 16 le_rfl).2.2
        (run (fun (j : Fin 16) (k : Fin 256) => (∑ e : Fin 2048, Q b q e * Kt b j k e) * Ideal.ofBits .f32 0x3CB504F3#32)
          (fun (j : Fin 16) (k : Fin 256) => Vt b j k d) 16 le_rfl).2.1))
    (hQ : ∀ b q e, Q b q e = (V3 m ρ c main_v5 : S4x2048x2048.Idx → EReal) (ix3 b q e))
    (hK1 : ∀ b (j : Fin 16) (k : Fin 256) e (h : j.val < 8), Kt b j k e
      = (V3 m ρ c main_arg1 : S4x2048x2048.Idx → EReal) (ix3 b (⟨256 * j.val + k.val, by omega⟩ : Fin 2048) e))
    (hK3 : ∀ b (j : Fin 16) (k : Fin 256) e (h : ¬ j.val < 8), Kt b j k e
      = (V3 m ρ c main_v6 : S4x2048x2048.Idx → EReal) (ix3 b (⟨256 * (j.val - 8) + k.val, by omega⟩ : Fin 2048) e))
    (hV1 : ∀ b (j : Fin 16) (k : Fin 256) d (h : j.val < 8), Vt b j k d
      = (V3 m ρ c main_arg2 : S4x2048x2048.Idx → EReal) (ix3 b (⟨256 * j.val + k.val, by omega⟩ : Fin 2048) d))
    (hV3 : ∀ b (j : Fin 16) (k : Fin 256) d (h : ¬ j.val < 8), Vt b j k d
      = (V3 m ρ c main_v7 : S4x2048x2048.Idx → EReal) (ix3 b (⟨256 * (j.val - 8) + k.val, by omega⟩ : Fin 2048) d)) :
    A = fun i => Cert.Spec.attn (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (i 0) (i 1) (i 2) := by
  rw [hfin]
  funext i
  refine (hO (i 0) (i 1) (i 2)).trans ?_
  refine Cert.SpecBridge.attn_tiles _ _ _ _ _ _ hx hpk hpv hWq hWk hWv Q Kt Vt ?_ ?_ ?_ (i 0) (i 1) (i 2)
  · intro b q e
    rw [hQ, entry_q]
  · intro b j k e
    by_cases h : j.val < 8
    · rw [hK1 b j k e h, Cert.SpecBridge.cat_tile_lo _ _ b j k e h, entry_pk]
    · rw [hK3 b j k e h, Cert.SpecBridge.cat_tile_hi _ _ b j k e h, entry_k]
  · intro b j k d
    unfold Cert.Spec.value
    by_cases h : j.val < 8
    · rw [hV1 b j k d h, Cert.SpecBridge.cat_tile_lo _ _ b j k d h, entry_pv]
    · rw [hV3 b j k d h, Cert.SpecBridge.cat_tile_hi _ _ b j k d h, entry_v]

/-! ## The tile functions, read off the attention kernel's operands -/

section Tiles
variable (V : (c : Dev nD) → (b : Ref sig .tc) → Buf (Elt Ideal) ((c : Thread nD τ).loc b)) (c : Dev nD)

/-- The query rows: entry (b, q, e) of the query operand. -/
def tileQ : Fin 4 → Fin 2048 → Fin 2048 → EReal := fun b q e => (V c main_v5 : S4x2048x2048.Idx → EReal) (ix3 b q e)
/-- The key rows of tile j: past key row 256 j + k for the first eight tiles, new key row 256 (j − 8) + k after. -/
def tileK : Fin 4 → Fin 16 → Fin 256 → Fin 2048 → EReal := fun b j k e =>
  if h : j.val < 8 then (V c main_arg1 : S4x2048x2048.Idx → EReal) (ix3 b (⟨256 * j.val + k.val, by omega⟩ : Fin 2048) e)
  else (V c main_v6 : S4x2048x2048.Idx → EReal) (ix3 b (⟨256 * (j.val - 8) + k.val, by omega⟩ : Fin 2048) e)
/-- The value rows of tile j, likewise. -/
def tileV : Fin 4 → Fin 16 → Fin 256 → Fin 2048 → EReal := fun b j k d =>
  if h : j.val < 8 then (V c main_arg2 : S4x2048x2048.Idx → EReal) (ix3 b (⟨256 * j.val + k.val, by omega⟩ : Fin 2048) d)
  else (V c main_v7 : S4x2048x2048.Idx → EReal) (ix3 b (⟨256 * (j.val - 8) + k.val, by omega⟩ : Fin 2048) d)

theorem tileK_lo (b : Fin 4) (j : Fin 16) (k : Fin 256) (e : Fin 2048) (h : j.val < 8) :
    tileK V c b j k e = (V c main_arg1 : S4x2048x2048.Idx → EReal) (ix3 b (⟨256 * j.val + k.val, by omega⟩ : Fin 2048) e) := by
  unfold tileK; rw [dif_pos h]
theorem tileK_hi (b : Fin 4) (j : Fin 16) (k : Fin 256) (e : Fin 2048) (h : ¬ j.val < 8) :
    tileK V c b j k e = (V c main_v6 : S4x2048x2048.Idx → EReal) (ix3 b (⟨256 * (j.val - 8) + k.val, by omega⟩ : Fin 2048) e) := by
  unfold tileK; rw [dif_neg h]
theorem tileV_lo (b : Fin 4) (j : Fin 16) (k : Fin 256) (d : Fin 2048) (h : j.val < 8) :
    tileV V c b j k d = (V c main_arg2 : S4x2048x2048.Idx → EReal) (ix3 b (⟨256 * j.val + k.val, by omega⟩ : Fin 2048) d) := by
  unfold tileV; rw [dif_pos h]
theorem tileV_hi (b : Fin 4) (j : Fin 16) (k : Fin 256) (d : Fin 2048) (h : ¬ j.val < 8) :
    tileV V c b j k d = (V c main_v7 : S4x2048x2048.Idx → EReal) (ix3 b (⟨256 * (j.val - 8) + k.val, by omega⟩ : Fin 2048) d) := by
  unfold tileV; rw [dif_neg h]

end Tiles

/-- The attention kernel's output array is the specification's attention output of the launch arguments, given the
    windows' blocks as rows of the operands (hb0 … hb4) and the output array read through its last-tile blocks
    (hfin). -/
theorem kernel_value_blocks (c : Dev nD)
    (hx : ∀ i, ∃ r : ℝ, m ((c : Thread nD τ).loc main_arg0) i = (r : EReal))
    (hpk : ∀ i, ∃ r : ℝ, m ((c : Thread nD τ).loc main_arg1) i = (r : EReal))
    (hpv : ∀ i, ∃ r : ℝ, m ((c : Thread nD τ).loc main_arg2) i = (r : EReal))
    (hWq : ∀ i, ∃ r : ℝ, m ((c : Thread nD τ).loc main_arg3) i = (r : EReal))
    (hWk : ∀ i, ∃ r : ℝ, m ((c : Thread nD τ).loc main_arg4) i = (r : EReal))
    (hWv : ∀ i, ∃ r : ℝ, m ((c : Thread nD τ).loc main_arg5) i = (r : EReal))
    (hb0 : ∀ (t : Fin cfg1.N) (b : Fin 4) (j : Fin 16), t.val = 16 * b.val + j.val → ∀ (q e : Fin 2048),
      (iblk1 (V3 m ρ) c 0 t : Vec Ideal S1x2048x2048 .bf16) (ix3 (0 : Fin 1) q e)
        = (V3 m ρ c main_v5 : S4x2048x2048.Idx → EReal) (ix3 b q e))
    (hb1 : ∀ (t : Fin cfg1.N) (b : Fin 4) (j : Fin 16), t.val = 16 * b.val + j.val → ∀ (h : j.val < 8) (k : Fin 256) (e : Fin 2048),
      (iblk1 (V3 m ρ) c 1 t : Vec Ideal S1x256x2048 .f32) (ix3 (0 : Fin 1) k e)
        = (V3 m ρ c main_arg1 : S4x2048x2048.Idx → EReal) (ix3 b (⟨256 * j.val + k.val, by omega⟩ : Fin 2048) e))
    (hb2 : ∀ (t : Fin cfg1.N) (b : Fin 4) (j : Fin 16), t.val = 16 * b.val + j.val → ∀ (h : j.val < 8) (k : Fin 256) (e : Fin 2048),
      (iblk1 (V3 m ρ) c 2 t : Vec Ideal S1x256x2048 .f32) (ix3 (0 : Fin 1) k e)
        = (V3 m ρ c main_arg2 : S4x2048x2048.Idx → EReal) (ix3 b (⟨256 * j.val + k.val, by omega⟩ : Fin 2048) e))
    (hb3 : ∀ (t : Fin cfg1.N) (b : Fin 4) (j : Fin 16), t.val = 16 * b.val + j.val → ∀ (h : ¬ j.val < 8) (k : Fin 256) (e : Fin 2048),
      (iblk1 (V3 m ρ) c 3 t : Vec Ideal S1x256x2048 .bf16) (ix3 (0 : Fin 1) k e)
        = (V3 m ρ c main_v6 : S4x2048x2048.Idx → EReal) (ix3 b (⟨256 * (j.val - 8) + k.val, by omega⟩ : Fin 2048) e))
    (hb4 : ∀ (t : Fin cfg1.N) (b : Fin 4) (j : Fin 16), t.val = 16 * b.val + j.val → ∀ (h : ¬ j.val < 8) (k : Fin 256) (e : Fin 2048),
      (iblk1 (V3 m ρ) c 4 t : Vec Ideal S1x256x2048 .bf16) (ix3 (0 : Fin 1) k e)
        = (V3 m ρ c main_v7 : S4x2048x2048.Idx → EReal) (ix3 b (⟨256 * (j.val - 8) + k.val, by omega⟩ : Fin 2048) e))
    (hN : ∀ b : Fin 4, 16 * b.val + 15 < cfg1.N)
    (hfin : (dat1 (F := Ideal) (V3 m ρ) c).arrAt 5 cfg1.N
      = fun i => outAt (V3 m ρ) c (16 * (i 0).val + 15) (hN (i 0)) (ix3 (0 : Fin 1) (i 1) (i 2))) :
    (dat1 (F := Ideal) (V3 m ρ) c).arrAt 5 cfg1.N
      = fun i => Cert.Spec.attn (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (i 0) (i 1) (i 2) :=
  kernel_value_of m ρ c hx hpk hpv hWq hWk hWv _
    (fun b q d => outAt (V3 m ρ) c (16 * b.val + 15) (hN b) (ix3 (0 : Fin 1) q d)) hfin
    (tileQ (V3 m ρ) c) (tileK (V3 m ρ) c) (tileV (V3 m ρ) c)
    (fun b q d => outAt_val (V3 m ρ) c (tileQ (V3 m ρ) c) (tileK (V3 m ρ) c) (tileV (V3 m ρ) c)
      (fun t b j ht q e => hb0 t b j ht q e)
      (fun t b j ht h k e => (hb1 t b j ht h k e).trans (tileK_lo (V3 m ρ) c b j k e h).symm)
      (fun t b j ht h k e => (hb2 t b j ht h k e).trans (tileV_lo (V3 m ρ) c b j k e h).symm)
      (fun t b j ht h k e => (hb3 t b j ht h k e).trans (tileK_hi (V3 m ρ) c b j k e h).symm)
      (fun t b j ht h k e => (hb4 t b j ht h k e).trans (tileV_hi (V3 m ρ) c b j k e h).symm) b q d (hN b))
    (fun b q e => rfl)
    (fun b j k e h => tileK_lo (V3 m ρ) c b j k e h) (fun b j k e h => tileK_hi (V3 m ρ) c b j k e h)
    (fun b j k d h => tileV_lo (V3 m ρ) c b j k d h) (fun b j k d h => tileV_hi (V3 m ρ) c b j k d h)

/-- THE KERNEL'S VALUE: over real-valued launch arguments, the attention kernel's output array after the grid is the
    specification's attention output of the launch arguments, entry by entry. -/
theorem kernel_value (c : Dev nD)
    (hx : ∀ i, ∃ r : ℝ, m ((c : Thread nD τ).loc main_arg0) i = (r : EReal))
    (hpk : ∀ i, ∃ r : ℝ, m ((c : Thread nD τ).loc main_arg1) i = (r : EReal))
    (hpv : ∀ i, ∃ r : ℝ, m ((c : Thread nD τ).loc main_arg2) i = (r : EReal))
    (hWq : ∀ i, ∃ r : ℝ, m ((c : Thread nD τ).loc main_arg3) i = (r : EReal))
    (hWk : ∀ i, ∃ r : ℝ, m ((c : Thread nD τ).loc main_arg4) i = (r : EReal))
    (hWv : ∀ i, ∃ r : ℝ, m ((c : Thread nD τ).loc main_arg5) i = (r : EReal)) :
    (dat1 (F := Ideal) (V3 m ρ) c).arrAt 5 cfg1.N
      = fun i => Cert.Spec.attn (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (i 0) (i 1) (i 2) :=
  kernel_value_blocks m ρ c hx hpk hpv hWq hWk hWv
    (blk1_0 (V3 m ρ) c) (blk1_1 (V3 m ρ) c) (blk1_2 (V3 m ρ) c) (blk1_3 (V3 m ρ) c) (blk1_4 (V3 m ρ) c)
    (fun b => by have hN : cfg1.N = 64 := N_1; have := b.isLt; omega)
    (final1_5 (V3 m ρ) c)

end Cert.KernelIdeal.Hand

end
-- ==== Proof.RefScore.lean ====
/- The reference's first stages read at an index: the three projections, the two caches (past rows followed by
   the newly projected rows), and the scaled scores, each as the specification's function of the argument arrays. -/
import proofs.«127725_j2052994367817_2_alg».proof.Proof.Gen.ReferenceIdeal.Read
import proofs.«127725_j2052994367817_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.SL.Sem Idealize.ShloMosaic.ValueIdx Cert.ReferenceIdeal Cert.ReferenceIdeal.Gen
  Cert.ReferenceIdeal.Read

/-- A [4, 2048, 2048] argument array at the ideal values. -/
abbrev T3 : Type := (⟨S4x2048x2048, .f32⟩ : BufTy).Contents (Elt Ideal)
/-- A [2048, 2048] argument array at the ideal values. -/
abbrev T2 : Type := (⟨S2048x2048, .f32⟩ : BufTy).Contents (Elt Ideal)

/-- The query projection x Wqᵀ at (b, t, e): the contraction runs over the model dimension of both operands. -/
theorem proj_q (x0 : T3) (x3 : T2) (b : Fin 4) (t e : Fin 2048) :
    val_main_v0 (F := Ideal) x0 x3 (ix3 b t e) = Cert.Spec.proj x0 x3 b t e := by
  rw [val_main_v0_apply]
  unfold Cert.Spec.proj
  refine Finset.sum_congr rfl fun k _ => ?_
  have el : lidx_main_v0 (ix3 b t e) k = ix3 b t k :=
    funext fun a => Fin.ext (by match a with | ⟨0, _⟩ => rfl | ⟨1, _⟩ => rfl | ⟨2, _⟩ => rfl)
  have er : ridx_main_v0 (ix3 b t e) k = ix2 e k :=
    funext fun a => Fin.ext (by match a with | ⟨0, _⟩ => rfl | ⟨1, _⟩ => rfl)
  rw [el, er]

/-- The key projection x Wkᵀ at (b, t, e). -/
theorem proj_k (x0 : T3) (x4 : T2) (b : Fin 4) (t e : Fin 2048) :
    val_main_v1 (F := Ideal) x0 x4 (ix3 b t e) = Cert.Spec.proj x0 x4 b t e := by
  rw [val_main_v1_apply]
  unfold Cert.Spec.proj
  refine Finset.sum_congr rfl fun k _ => ?_
  have el : lidx_main_v1 (ix3 b t e) k = ix3 b t k :=
    funext fun a => Fin.ext (by match a with | ⟨0, _⟩ => rfl | ⟨1, _⟩ => rfl | ⟨2, _⟩ => rfl)
  have er : ridx_main_v1 (ix3 b t e) k = ix2 e k :=
    funext fun a => Fin.ext (by match a with | ⟨0, _⟩ => rfl | ⟨1, _⟩ => rfl)
  rw [el, er]

/-- The value projection x Wvᵀ at (b, t, e). -/
theorem proj_v (x0 : T3) (x5 : T2) (b : Fin 4) (t e : Fin 2048) :
    val_main_v2 (F := Ideal) x0 x5 (ix3 b t e) = Cert.Spec.proj x0 x5 b t e := by
  rw [val_main_v2_apply]
  unfold Cert.Spec.proj
  refine Finset.sum_congr rfl fun k _ => ?_
  have el : lidx_main_v2 (ix3 b t e) k = ix3 b t k :=
    funext fun a => Fin.ext (by match a with | ⟨0, _⟩ => rfl | ⟨1, _⟩ => rfl | ⟨2, _⟩ => rfl)
  have er : ridx_main_v2 (ix3 b t e) k = ix2 e k :=
    funext fun a => Fin.ext (by match a with | ⟨0, _⟩ => rfl | ⟨1, _⟩ => rfl)
  rw [el, er]

/-- Two [4, 2048, 2048] arrays joined along the row axis, read at row kk of batch b: a row below 2048 is the first
    array's row kk, a later one the second array's row kk − 2048. -/
theorem cat_rows (past new : T3) (b : Fin 4) (kk : Fin 4096) (d : Fin 2048) :
    concatenate S4x4096x2048 1 [⟨S4x2048x2048, past⟩, ⟨S4x2048x2048, new⟩]
        concatenates_S4x2048x2048_S4x2048x2048_S4x4096x2048_d1 (ix3 b kk d)
      = Cert.Spec.cat past (fun b t e => new (ix3 b t e)) b kk d := by
  unfold Cert.Spec.cat
  by_cases h : kk.val < 2048
  · rw [dif_pos h]
    exact concatenate_pair_apply_left (1 : Fin S4x4096x2048.rank) past new
      concatenates_S4x2048x2048_S4x2048x2048_S4x4096x2048_d1 (ix3 b kk d) rfl (ix3 b ⟨kk.val, h⟩ d)
      (fun a => by match a with | ⟨0, _⟩ => rfl | ⟨1, _⟩ => rfl | ⟨2, _⟩ => rfl)
  · rw [dif_neg h]
    exact concatenate_pair_apply_right (1 : Fin S4x4096x2048.rank) past new
      concatenates_S4x2048x2048_S4x2048x2048_S4x4096x2048_d1 (ix3 b kk d) rfl rfl
      (ix3 b ⟨kk.val - 2048, by omega⟩ d)
      (fun a ha => by
        match a with
        | ⟨0, _⟩ => rfl
        | ⟨1, _⟩ => exact absurd rfl ha
        | ⟨2, _⟩ => rfl)
      (by show kk.val - 2048 + 2048 = kk.val; omega)

/-- The key cache at (b, kk, d): the past keys, then the projected ones. -/
theorem cache_k (x0 x1 : T3) (x4 : T2) (b : Fin 4) (kk : Fin 4096) (d : Fin 2048) :
    val_main_v3 (F := Ideal) x0 x1 x4 (ix3 b kk d) = Cert.Spec.cat x1 (Cert.Spec.proj x0 x4) b kk d := by
  unfold val_main_v3
  rw [cat_rows]
  exact congrArg (fun f => Cert.Spec.cat x1 f b kk d) (funext fun b => funext fun t => funext fun e => proj_k x0 x4 b t e)

/-- The value cache at (b, kk, d): the past values, then the projected ones. -/
theorem cache_v (x0 x2 : T3) (x5 : T2) (b : Fin 4) (kk : Fin 4096) (d : Fin 2048) :
    val_main_v4 (F := Ideal) x0 x2 x5 (ix3 b kk d) = Cert.Spec.value x0 x2 x5 b kk d := by
  unfold val_main_v4 Cert.Spec.value
  rw [cat_rows]
  exact congrArg (fun f => Cert.Spec.cat x2 f b kk d) (funext fun b => funext fun t => funext fun e => proj_v x0 x5 b t e)

/-- The scaled score of query row q against cache row kk. -/
theorem score_eq (x0 x1 : T3) (x3 x4 : T2) (b : Fin 4) (q : Fin 2048) (kk : Fin 4096) :
    val_main_v7 (F := Ideal) x0 x1 x3 x4 (ix3 b q kk) = Cert.Spec.score x0 x1 x3 x4 b q kk := by
  rw [val_main_v7_apply, val_main_v5_apply, val_main_v6_apply, val_main_cst_apply]
  unfold Cert.Spec.score Cert.Spec.scale
  rw [Ideal.mulf_def, Ideal.ofBits_def]
  refine congrArg (· * _) (Finset.sum_congr rfl fun k _ => ?_)
  have el : lidx_main_v5 (ix3 b q kk) k = ix3 b q k :=
    funext fun a => Fin.ext (by match a with | ⟨0, _⟩ => rfl | ⟨1, _⟩ => rfl | ⟨2, _⟩ => rfl)
  have er : ridx_main_v5 (ix3 b q kk) k = ix3 b kk k :=
    funext fun a => Fin.ext (by match a with | ⟨0, _⟩ => rfl | ⟨1, _⟩ => rfl | ⟨2, _⟩ => rfl)
  rw [el, er, proj_q, cache_k]

end Cert.ReferenceIdeal.RefValue

end
-- ==== Proof.RefSoft.lean ====
/- The reference's softmax stages read at an index: the row maximum of the scores, the exponentials of the
   scores less that maximum, their row sum, and the normalised weights. -/
import proofs.«127725_j2052994367817_2_alg».proof.Proof.RefScore

noncomputable section

namespace Cert.ReferenceIdeal.RefValue

open Idealize.ShloMosaic Idealize.SL.Sem Idealize.ShloMosaic.ValueIdx Cert.ReferenceIdeal Cert.ReferenceIdeal.Gen
  Cert.ReferenceIdeal.Read

/-- The binary32 word of minus infinity denotes the least extended real. -/
theorem negInf : Ideal.ofBits .f32 0xFF800000#32 = (⊥ : EReal) := by
  simp [Ideal.ofBits, Ideal.ieee]

/-- Folding the maximum over a finite set from the least element is the set's supremum. -/
theorem fold_maximumf_eq_sup {ι : Type} [DecidableEq ι] (s : Finset ι) (f : ι → EReal) :
    s.fold (FloatOps.maximumf (F := Ideal) (φ := .f32)) (⊥ : EReal) f = s.sup f := by
  induction s using Finset.induction_on with
  | empty => simp
  | insert a s ha ih => rw [Finset.fold_insert ha, Finset.sup_insert, ih, Ideal.maximumf_def]

/-- The maximum over the cache rows of query row q's scores, started from minus infinity: the supremum of the scores. -/
theorem reduce_max_eq (x0 x1 : T3) (x3 x4 : T2) (b : Fin 4) (q : Fin 2048) :
    val_main_v8 (F := Ideal) x0 x1 x3 x4 (ix2 b q) = Finset.univ.sup (Cert.Spec.score x0 x1 x3 x4 b q) := by
  unfold val_main_v8
  refine (Host.reduce_eq_fold_single (FloatOps.maximumf (F := Ideal) (φ := .f32)) (val_main_v7 (F := Ideal) x0 x1 x3 x4)
    (val_main_cst_0 (F := Ideal)) reducesTo_S4x2048x4096_S4x2048_d2 (by decide) h_S_ (ix2 b q)).trans ?_
  rw [val_main_cst_0_apply, Ideal.ofBits_def, negInf]
  refine (fold_maximumf_eq_sup _ _).trans ?_
  refine congrArg (Finset.univ.sup (α := EReal) (β := Fin 4096)) (funext fun kk => ?_)
  refine (congrArg (val_main_v7 (F := Ideal) x0 x1 x3 x4) (?_ : _ = ix3 b q kk)).trans (score_eq x0 x1 x3 x4 b q kk)
  exact funext fun a => Fin.ext (by match a with | ⟨0, _⟩ => rfl | ⟨1, _⟩ => rfl | ⟨2, _⟩ => rfl)

/-- The row maximum the softmax subtracts: the larger of minus infinity and the supremum of the scores. -/
theorem rowmax_eq (x0 x1 : T3) (x3 x4 : T2) (b : Fin 4) (q : Fin 2048) :
    val_main_v10 (F := Ideal) x0 x1 x3 x4 (ix2 b q)
      = max ⊥ (Finset.univ.sup (Cert.Spec.score x0 x1 x3 x4 b q)) := by
  rw [val_main_v10_apply, val_main_v9_apply, val_main_cst_1_apply, reduce_max_eq, Ideal.maximumf_def, Ideal.ofBits_def, negInf]

/-- The exponential of a score less its row's maximum. -/
theorem expw_eq (x0 x1 : T3) (x3 x4 : T2) (b : Fin 4) (q : Fin 2048) (kk : Fin 4096) :
    val_main_v14 (F := Ideal) x0 x1 x3 x4 (ix3 b q kk)
      = Ideal.exp (Cert.Spec.score x0 x1 x3 x4 b q kk - max ⊥ (Finset.univ.sup (Cert.Spec.score x0 x1 x3 x4 b q))) := by
  rw [val_main_v14_apply, val_main_v13_apply, val_main_v12_apply, val_main_v11_apply]
  have e : idx_main_v11 (idx_main_v12 (ix3 b q kk)) = ix2 b q :=
    funext fun a => Fin.ext (by match a with | ⟨0, _⟩ => rfl | ⟨1, _⟩ => rfl)
  rw [e, rowmax_eq, score_eq, Ideal.hostUnary_exp_def, Ideal.subf_def]

/-- The softmax's denominator: zero plus the sum over the cache rows of the exponentials. -/
theorem denom_eq (x0 x1 : T3) (x3 x4 : T2) (b : Fin 4) (q : Fin 2048) :
    val_main_v15 (F := Ideal) x0 x1 x3 x4 (ix2 b q)
      = 0 + ∑ k' : Fin 4096, Ideal.exp (Cert.Spec.score x0 x1 x3 x4 b q k'
          - max ⊥ (Finset.univ.sup (Cert.Spec.score x0 x1 x3 x4 b q))) := by
  rw [val_main_v15_apply, val_main_cst_2_apply, Ideal.ofBits_def, Ideal.ofBits_zero_f32]
  refine congrArg (0 + ·) (Finset.sum_congr rfl fun k _ => ?_)
  have e : idx_main_v15 (ix2 b q) k = ix3 b q k :=
    funext fun a => Fin.ext (by match a with | ⟨0, _⟩ => rfl | ⟨1, _⟩ => rfl | ⟨2, _⟩ => rfl)
  rw [e, expw_eq]

/-- The softmax weight of cache row kk for query row q. -/
theorem weight_eq (x0 x1 : T3) (x3 x4 : T2) (b : Fin 4) (q : Fin 2048) (kk : Fin 4096) :
    val_main_v18 (F := Ideal) x0 x1 x3 x4 (ix3 b q kk)
      = Ideal.div (Ideal.exp (Cert.Spec.score x0 x1 x3 x4 b q kk - max ⊥ (Finset.univ.sup (Cert.Spec.score x0 x1 x3 x4 b q))))
          (0 + ∑ k' : Fin 4096, Ideal.exp (Cert.Spec.score x0 x1 x3 x4 b q k'
            - max ⊥ (Finset.univ.sup (Cert.Spec.score x0 x1 x3 x4 b q)))) := by
  rw [val_main_v18_apply, val_main_v17_apply, val_main_v16_apply]
  have e : idx_main_v16 (idx_main_v17 (ix3 b q kk)) = ix2 b q :=
    funext fun a => Fin.ext (by match a with | ⟨0, _⟩ => rfl | ⟨1, _⟩ => rfl)
  rw [e, denom_eq, expw_eq, Ideal.hostDivf_def]

end Cert.ReferenceIdeal.RefValue

end
-- ==== Proof.Ref.lean ====
/- The reference's value: its generated run read back one operation at a time, and the result at an index
   as one formula of the argument arrays — the attention output of the specification, rounded to four decimals. -/
import proofs.«127725_j2052994367817_2_alg».proof.Defs
import proofs.«127725_j2052994367817_2_alg».proof.Proof.Gen.ReferenceIdeal.Read
import proofs.«127725_j2052994367817_2_alg».proof.Proof.Gen.Pre_finite_inputs
import proofs.«127725_j2052994367817_2_alg».proof.Proof.Spec
import proofs.«127725_j2052994367817_2_alg».proof.Proof.RefSoft
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem
  Idealize.ShloMosaic.ValueIdx Cert.ReferenceIdeal.Read

/-- The reference's result at (b, q, d): the softmax weights of query row q against the value cache's column d,
    times ten thousand, rounded to the nearest integer, over ten thousand. -/
theorem ref_eq_at (x0 x1 x2 : T3) (x3 x4 x5 : T2) (b : Fin 4) (q d : Fin 2048) :
    val_main_v20 (F := Ideal) x0 x1 x2 x3 x4 x5 (ix3 b q d) = Cert.Spec.attn x0 x1 x2 x3 x4 x5 b q d := by
  rw [val_main_v20_apply, val_main_call0_v2_apply, val_main_call0_v1_apply, val_main_call0_v0_apply,
    val_main_call0_cst_apply, val_main_call0_v3_apply, val_main_call0_cst_0_apply, val_main_v19_apply]
  unfold Cert.Spec.attn Cert.Spec.round4 Cert.Spec.tenK
  rw [Ideal.hostDivf_def, Ideal.hostUnary_roundeven_def, Ideal.mulf_def, Ideal.ofBits_def]
  refine congrArg (fun s : EReal => Ideal.div (Ideal.liftRound Ideal.roundHalfEven (s * Ideal.ofBits .f32 0x461C4000#32))
    (Ideal.ofBits .f32 0x461C4000#32)) (Finset.sum_congr rfl fun kk _ => ?_)
  have el : lidx_main_v19 (ix3 b q d) kk = ix3 b q kk :=
    funext fun a => Fin.ext (by match a with | ⟨0, _⟩ => rfl | ⟨1, _⟩ => rfl | ⟨2, _⟩ => rfl)
  have er : ridx_main_v19 (ix3 b q d) kk = ix3 b kk d :=
    funext fun a => Fin.ext (by match a with | ⟨0, _⟩ => rfl | ⟨1, _⟩ => rfl | ⟨2, _⟩ => rfl)
  rw [el, er, weight_eq, cache_v]

/-- The reference's result array is the specification's attention output, entry by entry. -/
theorem ref_eq (x0 x1 x2 : (⟨S4x2048x2048, .f32⟩ : BufTy).Contents (Elt Ideal))
    (x3 x4 x5 : (⟨S2048x2048, .f32⟩ : BufTy).Contents (Elt Ideal)) :
    val_main_v20 (F := Ideal) x0 x1 x2 x3 x4 x5 = fun i => Cert.Spec.attn x0 x1 x2 x3 x4 x5 (i 0) (i 1) (i 2) :=
  funext fun i => (congrArg (val_main_v20 (F := Ideal) x0 x1 x2 x3 x4 x5) (eq_ix3 i)).trans
    (ref_eq_at x0 x1 x2 x3 x4 x5 (i 0) (i 1) (i 2))

/-- Every execution of the reference ends with its result array at the specification's attention output of the
    argument arrays, and the six arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v20)
        = (fun i => Cert.Spec.attn (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono
    (fun _ h c => ⟨(h c).1.trans ((val_main_v20_eq m c).trans (ref_eq _ _ _ _ _ _)), (h c).2⟩)
    (Cert.ReferenceIdeal.Value.run (F := Ideal) m ρ)

/-- Every execution of the reference terminates with its six arguments unchanged. -/
theorem ref_frame (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => (h c).2) (Cert.ReferenceIdeal.Value.run (F := Ideal) m ρ)

/-- The reference's frame claim: it runs, and its argument arrays end unchanged. -/
theorem frame_ri : Cert.frame_ReferenceIdeal := fun m ρ _ => ref_frame m ρ

end Cert.ReferenceIdeal.RefValue

end
-- ==== Proof.Finite.lean ====
/- Finiteness: the precondition says every entry of the six input arrays has absolute value below +∞, so every
   entry is (the coercion of) a real number. -/
import proofs.«127725_j2052994367817_2_alg».proof.Pre_finite_inputs
import proofs.«127725_j2052994367817_2_alg».proof.Proof.Gen.Pre_finite_inputs
import Idealize.ShloMosaic.Lib.ReduceAll
import Idealize.ShloMosaic.Lib.Affine
import Idealize.ShloMosaic.Lib.ValueIdx
import Idealize.ShloMosaic.PureOps.Ideal

noncomputable section

namespace Cert.FiniteInputs

open Idealize.ShloMosaic Cert.Pre_finite_inputs

instance : Subsingleton S_.Idx := ⟨fun a b => funext fun d => d.elim0⟩

/-- The word 0x7F800000 denotes +∞. -/
theorem posInf : Ideal.ofBits .f32 0x7F800000#32 = (⊤ : EReal) := by
  simp [Ideal.ofBits, Ideal.ieee]

/-- An extended real whose absolute value is below +∞ is a real. -/
theorem real_of_abs_lt (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- One input array of the precondition: if the "all entries finite" bit is 1 then every entry is a real. -/
theorem all_real {s : Shape} {axes : List (Fin s.rank)} (a : FVec Ideal s .f32) (hb : S_.BroadcastsInDim s (![] : Fin 0 → Fin s.rank))
    (hr : s.ReducesTo axes S_) (hu : 0 < S_.numel)
    (e : Host.reduce IntOp.andi (cmpf .olt (Host.absf a) (broadcastInDim s ![] hb (constant (F := Ideal) S_ .f32 0x7F800000#32))) (constantI S_ 1 1#1) hr hu ValueIdx.ix0 = 1#1)
    (i : s.Idx) : ∃ r : ℝ, a i = (r : EReal) := by
  have h := Host.reduce_andi_all _ _ hr hu ValueIdx.ix0 e i
  refine real_of_abs_lt (a i) ?_
  have : cmpf .olt (Host.absf a) (broadcastInDim s ![] hb (constant (F := Ideal) S_ .f32 0x7F800000#32)) i
      = Ideal.cmp .olt (max (a i) (-(a i))) ⊤ := by
    show Ideal.cmp .olt (max (a i) (-(a i))) (Ideal.ofBits .f32 0x7F800000#32) = _
    rw [posInf]
  rw [← this]; exact h

/-- The precondition decoded: all six arrays are real at every index. -/
theorem of_pre (a0 a1 a2 : FVec Ideal S4x2048x2048 .f32) (a3 a4 a5 : FVec Ideal S2048x2048 .f32)
    (h : fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) := by
  have h0 := congrFun h ValueIdx.ix0
  dsimp only [fn, fn_part1] at h0
  obtain ⟨h01234, e5⟩ := IntOp.andi_eq_one.mp h0
  obtain ⟨h0123, e4⟩ := IntOp.andi_eq_one.mp h01234
  obtain ⟨h012, e3⟩ := IntOp.andi_eq_one.mp h0123
  obtain ⟨h01, e2⟩ := IntOp.andi_eq_one.mp h012
  obtain ⟨e0, e1⟩ := IntOp.andi_eq_one.mp h01
  exact ⟨all_real a0 _ _ _ e0, all_real a1 _ _ _ e1, all_real a2 _ _ _ e2, all_real a3 _ _ _ e3, all_real a4 _ _ _ e4, all_real a5 _ _ _ e5⟩

end Cert.FiniteInputs

end
-- ==== Proof.lean ====
/- The proof of `Cert.Claim` (proofs.«127725_j2052994367817_2_alg».proof.Defs).
   The kernel program is a fused query/key/value projection (one launch) followed by attention over a key/value cache made
   of the past rows and the newly projected rows (a second launch), computed tile by tile with a running maximum, a
   running denominator and a running numerator; the reference forms the concatenated cache and a plain softmax.
   Over the extended reals, on finite inputs, the two are one function of the six argument arrays (`Cert.Spec.attn`):
   a change of float format is the identity, a sum may be taken tile by tile, and rescaling the running sums by
   exp (old maximum − new maximum) at each tile leaves, after the last tile, the numerator and denominator of the plain
   softmax weights, whose quotient is the weighted sum of the value rows. Both sides then round to four decimals.
   • the frames of the word-level and the idealized kernel program: both launches run to the end at every grid point
     (Proof/K/*, Proof/KI/R0Body, R1Defs … R1Body, Run);
   • what the kernel program leaves in its result array (Proof/KI/Val0 … Val, Pay1, R1Pieces, R1Val, Val1Blocks);
   • what the reference computes (Proof/RefScore, RefSoft, Ref); the two forms of the softmax (Proof/LibOnlineSoftmax,
     Proof/SpecBridge); every input entry is a real (Proof/Finite). -/
import proofs.«127725_j2052994367817_2_alg».proof.Defs
import proofs.«127725_j2052994367817_2_alg».proof.Proof.Gen.Kernel
import proofs.«127725_j2052994367817_2_alg».proof.Proof.Gen.KernelIdeal
import proofs.«127725_j2052994367817_2_alg».proof.Proof.Gen.ReferenceIdeal
import proofs.«127725_j2052994367817_2_alg».proof.Proof.Gen.Pre_finite_inputs
import proofs.«127725_j2052994367817_2_alg».proof.Proof.K.Run
import proofs.«127725_j2052994367817_2_alg».proof.Proof.KI.Run
import proofs.«127725_j2052994367817_2_alg».proof.Proof.KI.Val
import proofs.«127725_j2052994367817_2_alg».proof.Proof.Ref
import proofs.«127725_j2052994367817_2_alg».proof.Proof.Finite
import Idealize.ShloMosaic.Adequacy
import Idealize.ShloMosaic.Init

noncomputable section

namespace Cert.Proof

open Idealize.ShloMosaic Idealize.SL.Sem

/-- The word-level kernel program runs to the end and leaves its arguments as launched. -/
theorem frame_k : Cert.frame_Kernel := fun m ρ _ => Cert.Kernel.Hand.frame (F := Bits) m ρ

/-- So does the idealized one. -/
theorem frame_ki : Cert.frame_KernelIdeal := fun m ρ _ => Cert.KernelIdeal.Hand.frame (F := Ideal) m ρ

/-- On finite inputs both idealized programs end with the attention output `Cert.Spec.attn` of the argument arrays. -/
theorem algebraic : Cert.algebraic_KernelIdeal_ReferenceIdeal := by
  intro m ρ m' ρ' hpre hagree
  refine ⟨fun c i => Cert.Spec.attn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (i 0) (i 1) (i 2), ?_, ?_⟩
  · refine (θ_run Cert.KernelIdeal.defs _ _).mono (fun r h c => ⟨(h c).1.trans ?_, (h c).2⟩) (Cert.KernelIdeal.Hand.run_v8 (F := Ideal) m ρ)
    obtain ⟨h0, h1, h2, h3, h4, h5⟩ := Cert.FiniteInputs.of_pre _ _ _ _ _ _ (hpre c)
    exact Cert.KernelIdeal.Hand.kernel_value m ρ c h0 h1 h2 h3 h4 h5
  · refine (θ_run Cert.ReferenceIdeal.defs _ _).mono (fun r h c => ⟨(h c).1.trans ?_, (h c).2⟩) (Cert.ReferenceIdeal.RefValue.ref_run m' ρ')
    rw [(hagree c).1, (hagree c).2.1, (hagree c).2.2.1, (hagree c).2.2.2.1, (hagree c).2.2.2.2.1, (hagree c).2.2.2.2.2]
    rfl

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ri, trivial, algebraic⟩

end Cert.Proof

end
